-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x240x320 : Shape := ⟨4, ![8, 1, 240, 320]⟩
abbrev S8x257 : Shape := ⟨2, ![8, 257]⟩
abbrev S_ : Shape := ⟨0, ![]⟩

class Facts : Prop where
  bcast_S_S8x1x240x320 : S_.BroadcastsInDim S8x1x240x320 (![] : Fin 0 → Fin S8x1x240x320.rank)
  reducesTo_S8x1x240x320_S_d0_1_2_3 : S8x1x240x320.ReducesTo [0, 1, 2, 3] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S8x1x240x320 .f32) (main_arg1 : FVec F S8x1x240x320 .f32) (main_arg2 : FVec F S8x257 .f32) (main_arg3 : IVec S8x1x240x320 1) : IVec S_ 1 :=
  let main_v0 : FVec F S8x1x240x320 .f32 := Host.absf main_arg0
  let main_cst : FVec F S_ .f32 := constant S_ .f32 0x7F800000#32
  let main_v1 : FVec F S8x1x240x320 .f32 := broadcastInDim S8x1x240x320 ![] bcast_S_S8x1x240x320 main_cst
  let main_v2 : IVec S8x1x240x320 1 := cmpf .olt main_v0 main_v1
  let main_c : IVec S_ 1 := constantI S_ 1 1#1
  let main_v3 : IVec S_ 1 := (fun x v => Host.reduce IntOp.andi x v reducesTo_S8x1x240x320_S_d0_1_2_3 h_S_) main_v2 main_c
  let main_v4 : FVec F S8x1x240x320 .f32 := Host.absf main_arg1
  let main_cst_0 : FVec F S_ .f32 := constant S_ .f32 0x7F800000#32
  let main_v5 : FVec F S8x1x240x320 .f32 := broadcastInDim S8x1x240x320 ![] bcast_S_S8x1x240x320 main_cst_0
  let main_v6 : IVec S8x1x240x320 1 := cmpf .olt main_v4 main_v5
  let main_c_1 : IVec S_ 1 := constantI S_ 1 1#1
  let main_v7 : IVec S_ 1 := (fun x v => Host.reduce IntOp.andi x v reducesTo_S8x1x240x320_S_d0_1_2_3 h_S_) main_v6 main_c_1
  let main_v8 : IVec S_ 1 := andi main_v3 main_v7
  let main_v9 : FVec F S8x257 .f32 := Host.absf main_arg2
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  let main_c_3 : IVec S_ 1 := constantI S_ 1 1#1
  let main_v12 : IVec S_ 1 := (fun x v => Host.reduce IntOp.andi x v reducesTo_S8x257_S_d0_1 h_S_) main_v11 main_c_3
  let main_v13 : IVec S_ 1 := andi main_v8 main_v12
  main_v13
-- ==== Kernel.lean ====
abbrev S8x1x240x320 : Shape := ⟨4, ![8, 1, 240, 320]⟩
abbrev S8x257 : Shape := ⟨2, ![8, 257]⟩
abbrev S8x256 : Shape := ⟨2, ![8, 256]⟩
abbrev S_ : Shape := ⟨0, ![]⟩
abbrev S8x76800 : Shape := ⟨2, ![8, 76800]⟩
abbrev S8x128 : Shape := ⟨2, ![8, 128]⟩
abbrev S8x1024 : Shape := ⟨2, ![8, 1024]⟩
abbrev S8x256x1 : Shape := ⟨3, ![8, 256, 1]⟩
abbrev S8x1x1024 : Shape := ⟨3, ![8, 1, 1024]⟩
abbrev S8x256x1024 : Shape := ⟨3, ![8, 256, 1024]⟩
abbrev S8 : Shape := ⟨1, ![8]⟩
abbrev S8x1 : Shape := ⟨2, ![8, 1]⟩

abbrev nBuf : Space → Nat
  | .hbm => 60
  | .vmem => 13
  | .smem => 0
  | _ => 0

abbrev bufTy : (tb : Table) → Fin (tcTables nBuf tb) → BufTy
  | .hbm, ⟨0, _⟩ => ⟨S8x1x240x320, .f32⟩
  | .hbm, ⟨1, _⟩ => ⟨S8x1x240x320, .f32⟩
  | .hbm, ⟨2, _⟩ => ⟨S8x257, .f32⟩
  | .hbm, ⟨3, _⟩ => ⟨S8x1x240x320, .i1⟩
  | .hbm, ⟨4, _⟩ => ⟨S8x256, .f32⟩
  | .hbm, ⟨5, _⟩ => ⟨S8x256, .f32⟩
  | .hbm, ⟨6, _⟩ => ⟨S8x256, .f32⟩
  | .hbm, ⟨7, _⟩ => ⟨S_, .f32⟩
  | .hbm, ⟨8, _⟩ => ⟨S8x256, .f32⟩
  | .hbm, ⟨9, _⟩ => ⟨S8x256, .f32⟩
  | .hbm, ⟨10, _⟩ => ⟨S8x76800, .f32⟩
  | .hbm, ⟨11, _⟩ => ⟨S8x76800, .f32⟩
  | .hbm, ⟨12, _⟩ => ⟨S8x76800, .i1⟩
  | .hbm, ⟨13, _⟩ => ⟨S8x76800, .f32⟩
  | .hbm, ⟨14, _⟩ => ⟨S8x128, .f32⟩
  | .hbm, ⟨15, _⟩ => ⟨S8x1, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x128, .f32⟩
  | .hbm, ⟨22, _⟩ => ⟨S8x128, .f32⟩
  | .hbm, ⟨23, _⟩ => ⟨S8x128, .f32⟩
  | .hbm, ⟨24, _⟩ => ⟨S8x128, .f32⟩
  | .hbm, ⟨25, _⟩ => ⟨S8x1, .f32⟩
  | .hbm, ⟨26, _⟩ => ⟨S8, .f32⟩
  | .hbm, ⟨27, _⟩ => ⟨S_, .f32⟩
  | .hbm, ⟨28, _⟩ => ⟨S_, .f32⟩
  | .hbm, ⟨29, _⟩ => ⟨S8x1, .f32⟩
  | .hbm, ⟨30, _⟩ => ⟨S8, .f32⟩
  | .hbm, ⟨31, _⟩ => ⟨S_, .f32⟩
  | .hbm, ⟨32, _⟩ => ⟨S_, .f32⟩
  | .hbm, ⟨33, _⟩ => ⟨S8x1, .f32⟩
  | .hbm, ⟨34, _⟩ => ⟨S8, .f32⟩
  | .hbm, ⟨35, _⟩ => ⟨S_, .f32⟩
  | .hbm, ⟨36, _⟩ => ⟨S_, .f32⟩
  | .hbm, ⟨37, _⟩ => ⟨S8x1, .f32⟩
  | .hbm, ⟨38, _⟩ => ⟨S8, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .local _ .vmem, ⟨0, _⟩ => ⟨S8x256, .f32⟩
  | .local _ .vmem, ⟨1, _⟩ => ⟨S8x1024, .f32⟩
  | .local _ .vmem, ⟨2, _⟩ => ⟨S8x1024, .f32⟩
  | .local _ .vmem, ⟨3, _⟩ => ⟨S8x128, .f32⟩
  | .local _ .vmem, ⟨4, _⟩ => ⟨S8x256, .f32⟩
  | .local _ .vmem, ⟨5, _⟩ => ⟨S8x128, .f32⟩
  | .local _ .vmem, ⟨6, _⟩ => ⟨S8x76800, .f32⟩
  | .local _ .vmem, ⟨7, _⟩ => ⟨S8x76800, .f32⟩
  | .local _ .vmem, ⟨8, _⟩ => ⟨S8x76800, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | _, _ => ⟨S8x1x240x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev main_v14_3 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10

abbrev nD : Nat := 1
abbrev τ : Topo := Topo.v7x

variable {F : FTy → Type} [FloatOps F]

abbrev grid0 : Pipeline.Grid := ⟨1, ![75], ![false]⟩

def k0_cond2 (i : grid0.Coords) : BitVec 1 :=
  let arg0 : BitVec 32 := BitVec.ofNat 32 (i 0).val
  let c74_i32 : BitVec 32 := 74#32
  let v29 : BitVec 1 := Scalar.cmpi .eq arg0 c74_i32
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x76800 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x76800 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x76800 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S8x257_S8x256_0_0 : S8x257.Slices ![0, 0] S8x256
  slices_S8x257_S8x256_0_1 : S8x257.Slices ![0, 1] S8x256
  bcast_S_S8x256 : S_.BroadcastsInDim S8x256 (![] : Fin 0 → Fin S8x256.rank)
  shapeCasts_S8x1x240x320_S8x76800 : S8x1x240x320.ShapeCasts S8x76800
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S8x256_S8x256x1 : S8x256.ShapeCasts S8x256x1
  shapeCasts_S8x1024_S8x1x1024 : S8x1024.ShapeCasts S8x1x1024
  broadcasts_S8x256x1_S8x256x1024 : S8x256x1.Broadcasts S8x256x1024
  broadcasts_S8x1x1024_S8x256x1024 : S8x1x1024.Broadcasts S8x256x1024
  reduces_S8x256x1024_S8x256 : S8x256x1024.Reduces [2] S8x256
  reduces_S8x256x1024_S8x1024 : S8x256x1024.Reduces [1] S8x1024
  reduces_S8x1024_S8 : S8x1024.Reduces [1] S8
  shapeCasts_S8_S8x1 : S8.ShapeCasts S8x1
  shapeCasts_S8x1_S8x1 : S8x1.ShapeCasts S8x1
  broadcasts_S8x1_S8x128 : S8x1.Broadcasts S8x128
  reduces_S8x256_S8 : S8x256.Reduces [1] S8
  inb_S8x128_S8x1_0_0 : ∀ a, (![0, 0] : Fin 2 → Nat) a + S8x1.size a ≤ S8x128.size a
  h_S8x1 : 0 < S8x1.numel
  shapeCasts_S8x1_S8 : S8x1.ShapeCasts S8
  slices_S8x128_S8x1_0_0 : S8x128.Slices ![0, 0] S8x1
  reducesTo_S8_S_d0 : S8.ReducesTo [0] S_
  h_S_ : 0 < S_.numel
  inb_S8x76800_S8x76800_0_0 : ∀ a, (![0, 0] : Fin 2 → Nat) a + S8x76800.size a ≤ S8x76800.size a
  h_S8x76800 : 0 < S8x76800.numel
  shapeCasts_S8x76800_S8x76800 : S8x76800.ShapeCasts S8x76800
  reduces_S8x76800_S8 : S8x76800.Reduces [1] S8
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S8x256.size a
  hwx0_0 : ∀ i : grid0.Coords, EltTy.bits .f32 = 32 ∨ (Rect.block (s := S8x256) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x76800.size a
  hwx0_1 : ∀ i : grid0.Coords, EltTy.bits .f32 = 32 ∨ (Rect.block (s := S8x76800) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x76800.size a ≤ S8x76800.size a
  hwx1_0 : ∀ i : grid1.Coords, EltTy.bits .f32 = 32 ∨ (Rect.block (s := S8x76800) S8x76800.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x76800.size a ≤ S8x76800.size a
  hwx1_1 : ∀ i : grid1.Coords, EltTy.bits .f32 = 32 ∨ (Rect.block (s := S8x76800) S8x76800.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x76800.size a ≤ S8x76800.size a
  hwx1_2 : ∀ i : grid1.Coords, EltTy.bits .f32 = 32 ∨ (Rect.block (s := S8x76800) S8x76800.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S8x128.size a
  hwx1_3 : ∀ i : grid1.Coords, EltTy.bits .f32 = 32 ∨ (Rect.block (s := S8x128) S8x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x128.size a ≤ S8x128.size a
  hwx1_5 : ∀ i : grid1.Coords, EltTy.bits .f32 = 32 ∨ (Rect.block (s := S8x128) S8x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S8x128.size a
  hwx1_6 : ∀ i : grid1.Coords, EltTy.bits .f32 = 32 ∨ (Rect.block (s := S8x128) S8x128.size (cc1_transform_6 i) (hinb1_6 i)).WholeWords (EltTy.packing .f32)

variable [Facts₀]

abbrev win0_0 : Pipeline.Window sig grid0 :=
  Pipeline.Window.ofSpec (Memref.whole main_v4) S8x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v6) S8x76800.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8x76800.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S8x76800.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14_0) S8x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14_1) S8x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14_2) S8x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14_3) S8x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8x1x240x320 : Shape := ⟨4, ![8, 1, 240, 320]⟩
abbrev S8x257 : Shape := ⟨2, ![8, 257]⟩
abbrev S8x256 : Shape := ⟨2, ![8, 256]⟩
abbrev S_ : Shape := ⟨0, ![]⟩
abbrev S8x76800 : Shape := ⟨2, ![8, 76800]⟩
abbrev S8x256x1 : Shape := ⟨3, ![8, 256, 1]⟩
abbrev S8x1x76800 : Shape := ⟨3, ![8, 1, 76800]⟩
abbrev S8x256x76800 : Shape := ⟨3, ![8, 256, 76800]⟩
abbrev S8 : Shape := ⟨1, ![8]⟩
abbrev S8x76800x1 : Shape := ⟨3, ![8, 76800, 1]⟩
abbrev S8x1x256 : Shape := ⟨3, ![8, 1, 256]⟩
abbrev S8x76800x256 : Shape := ⟨3, ![8, 76800, 256]⟩
abbrev S614400 : Shape := ⟨1, ![614400]⟩

abbrev nBuf : Space → Nat
  | .hbm => 82
  | .vmem => 0
  | .smem => 0
  | _ => 0

abbrev bufTy : (tb : Table) → Fin (tcTables nBuf tb) → BufTy
  | .hbm, ⟨0, _⟩ => ⟨S8x1x240x320, .f32⟩
  | .hbm, ⟨1, _⟩ => ⟨S8x1x240x320, .f32⟩
  | .hbm, ⟨2, _⟩ => ⟨S8x257, .f32⟩
  | .hbm, ⟨3, _⟩ => ⟨S8x1x240x320, .i1⟩
  | .hbm, ⟨4, _⟩ => ⟨S8x256, .f32⟩
  | .hbm, ⟨5, _⟩ => ⟨S8x256, .f32⟩
  | .hbm, ⟨6, _⟩ => ⟨S8x256, .f32⟩
  | .hbm, ⟨7, _⟩ => ⟨S_, .f32⟩
  | .hbm, ⟨8, _⟩ => ⟨S8x256, .f32⟩
  | .hbm, ⟨9, _⟩ => ⟨S8x256, .f32⟩
  | .hbm, ⟨10, _⟩ => ⟨S8x76800, .f32⟩
  | .hbm, ⟨11, _⟩ => ⟨S8x256x1, .f32⟩
  | .hbm, ⟨12, _⟩ => ⟨S8x1x76800, .f32⟩
  | .hbm, ⟨13, _⟩ => ⟨S8x256x76800, .f32⟩
  | .hbm, ⟨14, _⟩ => ⟨S8x256x76800, .f32⟩
  | .hbm, ⟨15, _⟩ => ⟨S8x256x76800, .f32⟩
  | .hbm, ⟨16, _⟩ => ⟨S8x256x76800, .f32⟩
  | .hbm, ⟨17, _⟩ => ⟨S_, .f32⟩
  | .hbm, ⟨18, _⟩ => ⟨S8x256, .f32⟩
  | .hbm, ⟨19, _⟩ => ⟨S_, .f32⟩
  | .hbm, ⟨20, _⟩ => ⟨S8, .f32⟩
  | .hbm, ⟨21, _⟩ => ⟨S8x76800x1, .f32⟩
  | .hbm, ⟨22, _⟩ => ⟨S8x1x256, .f32⟩
  | .hbm, ⟨23, _⟩ => ⟨S8x76800x256, .f32⟩
  | .hbm, ⟨24, _⟩ => ⟨S8x76800x256, .f32⟩
  | .hbm, ⟨25, _⟩ => ⟨S8x76800x256, .f32⟩
  | .hbm, ⟨26, _⟩ => ⟨S8x76800x256, .f32⟩
  | .hbm, ⟨27, _⟩ => ⟨S_, .f32⟩
  | .hbm, ⟨28, _⟩ => ⟨S8x76800, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S614400, .f32⟩
  | .hbm, ⟨37, _⟩ => ⟨S614400, .f32⟩
  | .hbm, ⟨38, _⟩ => ⟨S614400, .i1⟩
  | .hbm, ⟨39, _⟩ => ⟨S614400, .f32⟩
  | .hbm, ⟨40, _⟩ => ⟨S_, .f32⟩
  | .hbm, ⟨41, _⟩ => ⟨S_, .f32⟩
  | .hbm, ⟨42, _⟩ => ⟨S614400, .f32⟩
  | .hbm, ⟨43, _⟩ => ⟨S614400, .f32⟩
  | .hbm, ⟨44, _⟩ => ⟨S614400, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S614400, .f32⟩
  | .hbm, ⟨51, _⟩ => ⟨S614400, .f32⟩
  | .hbm, ⟨52, _⟩ => ⟨S614400, .f32⟩
  | .hbm, ⟨53, _⟩ => ⟨S_, .f32⟩
  | .hbm, ⟨54, _⟩ => ⟨S614400, .f32⟩
  | .hbm, ⟨55, _⟩ => ⟨S614400, .f32⟩
  | .hbm, ⟨56, _⟩ => ⟨S614400, .f32⟩
  | .hbm, ⟨57, _⟩ => ⟨S614400, .f32⟩
  | .hbm, ⟨58, _⟩ => ⟨S614400, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S614400, .f32⟩
  | .hbm, ⟨63, _⟩ => ⟨S614400, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S8x1x240x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  slices_S8x257_S8x256_0_0 : S8x257.Slices ![0, 0] S8x256
  slices_S8x257_S8x256_0_1 : S8x257.Slices ![0, 1] S8x256
  bcast_S_S8x256 : S_.BroadcastsInDim S8x256 (![] : Fin 0 → Fin S8x256.rank)
  shapeCasts_S8x1x240x320_S8x76800 : S8x1x240x320.ShapeCasts S8x76800
  bcast_S8x256_S8x256x1_0_1 : S8x256.BroadcastsInDim S8x256x1 (![0, 1] : Fin 2 → Fin S8x256x1.rank)
  bcast_S8x76800_S8x1x76800_0_2 : S8x76800.BroadcastsInDim S8x1x76800 (![0, 2] : Fin 2 → Fin S8x1x76800.rank)
  bcast_S8x256x1_S8x256x76800_0_1_2 : S8x256x1.BroadcastsInDim S8x256x76800 (![0, 1, 2] : Fin 3 → Fin S8x256x76800.rank)
  bcast_S8x1x76800_S8x256x76800_0_1_2 : S8x1x76800.BroadcastsInDim S8x256x76800 (![0, 1, 2] : Fin 3 → Fin S8x256x76800.rank)
  reducesTo_S8x256x76800_S8x256_d2 : S8x256x76800.ReducesTo [2] S8x256
  h_S_ : 0 < S_.numel
  reducesTo_S8x256_S8_d1 : S8x256.ReducesTo [1] S8
  bcast_S8x76800_S8x76800x1_0_1 : S8x76800.BroadcastsInDim S8x76800x1 (![0, 1] : Fin 2 → Fin S8x76800x1.rank)
  bcast_S8x256_S8x1x256_0_2 : S8x256.BroadcastsInDim S8x1x256 (![0, 2] : Fin 2 → Fin S8x1x256.rank)
  bcast_S8x76800x1_S8x76800x256_0_1_2 : S8x76800x1.BroadcastsInDim S8x76800x256 (![0, 1, 2] : Fin 3 → Fin S8x76800x256.rank)
  bcast_S8x1x256_S8x76800x256_0_1_2 : S8x1x256.BroadcastsInDim S8x76800x256 (![0, 1, 2] : Fin 3 → Fin S8x76800x256.rank)
  reducesTo_S8x76800x256_S8x76800_d2 : S8x76800x256.ReducesTo [2] S8x76800
  reducesTo_S8x76800_S8_d1 : S8x76800.ReducesTo [1] S8
  reducesTo_S8_S_d0 : S8.ReducesTo [0] S_
  shapeCasts_S8x1x240x320_S614400 : S8x1x240x320.ShapeCasts S614400
  reducesTo_S614400_S_d0 : S614400.ReducesTo [0] S_
  bcast_S_S614400 : S_.BroadcastsInDim S614400 (![] : Fin 0 → Fin S614400.rank)

variable [Facts₀]

class Facts : Prop extends Facts₀ where

variable [Facts]
-- ==== Proof.KFold.lean ====
/-
  The chamfer kernel keeps two scratch buffers across its 75 grid points: the running minimum over the target
  chunks seen so far of the squared distance from each bin centre (8 × 256), and the running sum over those
  chunks of the per-pixel least squared distance to a centre (8 × 128, every lane the same number). Point 0
  resets them to +∞ and 0 before accumulating. This file names what the two buffers hold after point `n`,
  as a recursion over the point through the kernel body's own arithmetic, at any float instance.
-/
import proofs.«151095_j21028159881359_1_alg».proof.Proof.Gen.Kernel.Skeleton

noncomputable section

namespace Cert.Kernel.Fold

open Idealize.ShloMosaic Cert.Kernel Cert.Kernel.Gen

variable {F : FTy → Type} [FloatOps F]

/-- The running minimum after point `n`: the body's update of the previous contents (the +∞ fill at point 0)
    with the centres `bc` and the target chunk `tg n`. -/
def runMin (bc : Vec F S8x256 .f32) (tg : ℕ → Vec F S8x1024 .f32) : ℕ → Vec F S8x256 .f32
  | 0 => k0_pay4 bc (tg 0) (k0_pay1 (F := F))
  | n + 1 => k0_pay4 bc (tg (n + 1)) (runMin bc tg n)

/-- The running sum after point `n`: the body's update of the previous contents (the zero fill at point 0). -/
def runSum (bc : Vec F S8x256 .f32) (tg : ℕ → Vec F S8x1024 .f32) : ℕ → Vec F S8x128 .f32
  | 0 => k0_pay5 bc (tg 0) (k0_pay2 (F := F))
  | n + 1 => k0_pay5 bc (tg (n + 1)) (runSum bc tg n)

end Cert.Kernel.Fold

end
-- ==== Proof.KRegionMasked.lean ====
import proofs.«151095_j21028159881359_1_alg».proof.Proof.Gen.Kernel.Launch
import proofs.«151095_j21028159881359_1_alg».proof.Proof.Gen.Kernel.Skeleton
import proofs.«151095_j21028159881359_1_alg».proof.Proof.Gen.Kernel.Points
import proofs.«151095_j21028159881359_1_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The masked-sums kernel (the second pallas_call): one grid point, three whole-array inputs (prediction, target,
    mask as float, each 8 × 76800), four 8 × 128 outputs, each lane of row `b` holding one of the four masked sums of
    image `b`. Stated at the contents `V` the unscoped buffers hold when the region is entered. -/

theorem hz2 : (![0, 0] : Fin 2 → Nat) = fun _ => 0 := by funext a; fin_cases a <;> rfl

/-- After a store of a whole block, whatever was stored before, the buffer reads as that block. -/
theorem read_after_whole {κ : Kind} {sp : Space} {S : Shape} {e : EltTy} {off : Fin S.rank → Nat} (h : off = fun _ => 0)
    (v : View sig κ sp S e) (f : v.ty.Contents (Elt F)) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-! ## The body on any whole staging buffers -/

set_option maxHeartbeats 1000000 in
/-- From the three inputs' buffers at `x0 x1 x2` and the four outputs' at anything, the body runs to its return with
    the inputs as they were and each output at its payload of the inputs: every load and store is of a whole buffer. -/
theorem sound_kernel1 (c : Dev nD) (E : Set ℕ) (i : grid1.Coords)
    (arg1 : Memref sig .tc .vmem S8x76800 .f32) (harg1 : arg1.IsWhole) (arg2 : Memref sig .tc .vmem S8x76800 .f32) (harg2 : arg2.IsWhole)
    (arg3 : Memref sig .tc .vmem S8x76800 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole)
    (x0 x1 x2 : Vec F S8x76800 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay5 x0 x1 x2) ∗ owns (c : Thread nD τ) arg5 fullShare (k1_pay6 x2)
            ∗ owns (c : Thread nD τ) arg6 fullShare (k1_pay7 x0 x1 x2) ∗ owns (c : Thread nD τ) arg7 fullShare (k1_pay8 x0 x1 x2)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    rw [read_after_whole hz2]
    simp only [View.readAt_eq_ld, View.ld_unit_zero (S := S8x76800) hz2]
  isplitl [H4]
  · iexists _; isplitr
    swap; · iexact H4
    ipureintro
    rw [read_after_whole hz2]
    simp only [View.readAt_eq_ld, View.ld_unit_zero (S := S8x76800) hz2]
  isplitl [H5]
  · iexists _; isplitr
    swap; · iexact H5
    ipureintro
    rw [read_after_whole hz2]
    simp only [View.readAt_eq_ld, View.ld_unit_zero (S := S8x76800) hz2]
  iexists _; isplitr
  swap; · iexact H6
  ipureintro
  rw [read_after_whole hz2]
  sl_unfold_run_names
  simp only [View.readAt_eq_ld, View.ld_unit_zero (S := S8x76800) hz2]

section AtEntry

variable (V : (c : Dev nD) → (b : Ref sig .tc) → Buf (Elt F) ((c : Thread nD τ).loc b))

/-! ## The windows' blocks and the proof data -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body: each input's buffer still at its block, each output's at its payload of the three input blocks.
    The invariant is the class's (the scoped buffers the kernel does not name and the generator register); nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay5 (iblk1 V c 0 t) (iblk1 V c 1 t) (iblk1 V c 2 t)
    | ⟨4, _⟩ => k1_pay6 (iblk1 V c 2 t)
    | ⟨5, _⟩ => k1_pay7 (iblk1 V c 0 t) (iblk1 V c 1 t) (iblk1 V c 2 t)
    | ⟨6, _⟩ => k1_pay8 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay5 (iblk1 V c 0 t) (iblk1 V c 1 t) (iblk1 V c 2 t) := by dsimp only [dat1]
theorem after1_4 (c : Dev nD) (t : Fin cfg1.N) : (dat1 V c).after 4 t = k1_pay6 (iblk1 V c 2 t) := by dsimp only [dat1]
theorem after1_5 (c : Dev nD) (t : Fin cfg1.N) : (dat1 V c).after 5 t = k1_pay7 (iblk1 V c 0 t) (iblk1 V c 1 t) (iblk1 V c 2 t) := by dsimp only [dat1]
theorem after1_6 (c : Dev nD) (t : Fin cfg1.N) : (dat1 V c).after 6 t = k1_pay8 (iblk1 V c 0 t) (iblk1 V c 1 t) (iblk1 V c 2 t) := by dsimp only [dat1]

/-- Each input's staging buffer holds its block when the body runs: the window is fetched at the one point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at the point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end AtEntry

end Cert.Kernel.Hand

end
-- ==== Proof.KRegionChamfer.lean ====
import proofs.«151095_j21028159881359_1_alg».proof.Proof.Gen.Kernel.Launch
import proofs.«151095_j21028159881359_1_alg».proof.Proof.Gen.Kernel.Skeleton
import proofs.«151095_j21028159881359_1_alg».proof.Proof.Gen.Kernel.Points
import proofs.«151095_j21028159881359_1_alg».proof.Proof.Gen.Kernel.Regions
import proofs.«151095_j21028159881359_1_alg».proof.Proof.KFold
import proofs.«151095_j21028159881359_1_alg».proof.Proof.KRegionMasked
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The chamfer kernel (the first pallas_call): 75 grid points, point `n` seeing the centres (8 × 256, the same block at
    every point) and chunk `n` of 1024 target pixels (8 × 1024); two scratch buffers carried from point to point (the
    running minimum per centre, the running sum of per-pixel minima); the 8 × 128 result stored at the last point only.
    Stated at the contents `V` the unscoped buffers hold when the region is entered. -/

/-- The first branch of the body (the reset of the two scratch buffers) is taken exactly when the grid coordinate is 0. -/
abbrev isFirst (i : grid0.Coords) : Prop := (Scalar.cmpi .ne (Scalar.extui (Scalar.cmpi .eq (BitVec.ofNat 32 (i 0).val) 0#32)) 0#32) = 1#1
/-- The last branch (the store of the result) is taken exactly when it is 74. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 74 :=
  (by decide +kernel : ∀ t : Fin grid0.N, isLast (grid0.coords t) ↔ t.val = 74)

/-- The two input windows are never idle; the output window is idle, and not written back, at every point but the last. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬ isLast (grid0.coords t) → cfg0.idle 2 (grid0.coords t) = true := by decide +kernel
theorem noFlush0_2 : ∀ t : Fin cfg0.N, ¬ isLast (grid0.coords t) → (cfg0.win 2).flush t = false := by decide +kernel
theorem live0_2 : ∀ t : Fin cfg0.N, isLast (grid0.coords t) → cfg0.idle 2 (grid0.coords t) = false := by decide +kernel

/-! ## The body on any whole staging and scratch buffers, in its three control cases -/

/-- Column 0 of an 8 × 128 buffer, as the last point loads it. -/
abbrev rCol : Rect S8x128 := Rect.unit (s := S8x128) ![0, 0] S8x1.size inb_S8x128_S8x1_0_0

set_option maxHeartbeats 1000000 in
theorem kernelC (c : Dev nD) (E : Set ℕ) (i : grid0.Coords) (h1 : ¬ isFirst i) (h2 : isLast i)
    (arg1 : Memref sig .tc .vmem S8x256 .f32) (harg1 : arg1.IsWhole) (arg2 : Memref sig .tc .vmem S8x1024 .f32) (harg2 : arg2.IsWhole)
    (arg3 : Memref sig .tc .vmem S8x128 .f32) (harg3 : arg3.IsWhole) (arg4 : Memref sig .tc .vmem S8x256 .f32) (harg4 : arg4.IsWhole)
    (arg5 : Memref sig .tc .vmem S8x128 .f32) (harg5 : arg5.IsWhole)
    (x0 : Vec F S8x256 .f32) (x1 : Vec F S8x1024 .f32) (s0 : Vec F S8x256 .f32) (s1 : Vec F S8x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare x1
            ∗ owns (c : Thread nD τ) arg3 fullShare (k0_pay6 (k0_pay4 x0 x1 s0) (View.ld (k0_pay5 x0 x1 s1) rCol))
            ∗ owns (c : Thread nD τ) arg4 fullShare (k0_pay4 x0 x1 s0) ∗ owns (c : Thread nD τ) arg5 fullShare (k0_pay5 x0 x1 s1)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%g0, %hg0, HS0⟩, ⟨%g1, %hg1, HS1⟩, Hk⟩
  subst hf0; subst hf1; subst hg0; subst hg1
  sl_exec (disch := first | exact h1 | exact h2)
  sl_step
  iapply Hk
  isplitl [H0]; · iexists f0; isplitr; · ipureintro; rfl
                  iexact H0
  isplitl [H1]; · iexists f1; isplitr; · ipureintro; rfl
                  iexact H1
  isplitl [H2]
  · iexists _; isplitr
    swap; · iexact H2
    ipureintro
    sl_unfold_run_names
    rw [read_after_whole hz2, View.readCov_unit_zero _ hz2,
      View.readCov_eq_canon_ld _ _ rCol (fun y => ⟨_, List.mem_singleton_self _, View.mem_set_unit_zero hz2 inb_S8x128_S8x128_0_0 y⟩), View.canon_unit_zero hz2]
    simp only [View.readAt_eq_ld, View.ld_unit_zero (S := S8x256) hz2, View.ld_unit_zero (S := S8x1024) hz2, View.ld_unit_zero (S := S8x128) hz2]
  isplitl [HS0]
  · iexists _; isplitr
    swap; · iexact HS0
    ipureintro
    sl_unfold_run_names
    rw [read_after_whole hz2]
    simp only [View.readAt_eq_ld, View.ld_unit_zero (S := S8x256) hz2, View.ld_unit_zero (S := S8x1024) hz2, View.ld_unit_zero (S := S8x128) hz2]
  iexists _; isplitr
  swap; · iexact HS1
  ipureintro
  sl_unfold_run_names
  rw [read_after_whole hz2]
  simp only [View.readAt_eq_ld, View.ld_unit_zero (S := S8x256) hz2, View.ld_unit_zero (S := S8x1024) hz2, View.ld_unit_zero (S := S8x128) hz2]

set_option maxHeartbeats 1000000 in
theorem kernelA (c : Dev nD) (E : Set ℕ) (i : grid0.Coords) (h1 : isFirst i) (h2 : ¬ isLast i)
    (arg1 : Memref sig .tc .vmem S8x256 .f32) (harg1 : arg1.IsWhole) (arg2 : Memref sig .tc .vmem S8x1024 .f32) (harg2 : arg2.IsWhole)
    (arg3 : Memref sig .tc .vmem S8x128 .f32) (harg3 : arg3.IsWhole) (arg4 : Memref sig .tc .vmem S8x256 .f32) (harg4 : arg4.IsWhole)
    (arg5 : Memref sig .tc .vmem S8x128 .f32) (harg5 : arg5.IsWhole)
    (x0 : Vec F S8x256 .f32) (x1 : Vec F S8x1024 .f32) (K : PUnit → sProp 𝕄) :
    iprop(owns (c : Thread nD τ) arg1 fullShare x0 ∗ owns (c : Thread nD τ) arg2 fullShare x1
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg4 fullShare (k0_pay4 x0 x1 (k0_pay1 (F := F))) ∗ owns (c : Thread nD τ) arg5 fullShare (k0_pay5 x0 x1 (k0_pay2 (F := F)))) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%e0, %g0, -, HS0⟩, ⟨%e1, %g1, -, HS1⟩, Hk⟩
  subst hf0; subst hf1
  sl_exec (disch := first | exact h1 | exact h2)
  sl_step
  iapply Hk
  isplitl [H0]; · iexists f0; isplitr; · ipureintro; rfl
                  iexact H0
  isplitl [H1]; · iexists f1; isplitr; · ipureintro; rfl
                  iexact H1
  isplitl [HS0]
  · iexists _; isplitr
    swap; · iexact HS0
    ipureintro
    sl_unfold_run_names
    rw [read_after_whole hz2, View.readCov_unit_zero _ hz2]
    simp only [View.readAt_eq_ld, View.ld_unit_zero (S := S8x256) hz2, View.ld_unit_zero (S := S8x1024) hz2, View.ld_unit_zero (S := S8x128) hz2]
  iexists _; isplitr
  swap; · iexact HS1
  ipureintro
  sl_unfold_run_names
  rw [read_after_whole hz2, View.readCov_unit_zero _ hz2]
  simp only [View.readAt_eq_ld, View.ld_unit_zero (S := S8x256) hz2, View.ld_unit_zero (S := S8x1024) hz2, View.ld_unit_zero (S := S8x128) hz2]

set_option maxHeartbeats 1000000 in
theorem kernelB (c : Dev nD) (E : Set ℕ) (i : grid0.Coords) (h1 : ¬ isFirst i) (h2 : ¬ isLast i)
    (arg1 : Memref sig .tc .vmem S8x256 .f32) (harg1 : arg1.IsWhole) (arg2 : Memref sig .tc .vmem S8x1024 .f32) (harg2 : arg2.IsWhole)
    (arg3 : Memref sig .tc .vmem S8x128 .f32) (harg3 : arg3.IsWhole) (arg4 : Memref sig .tc .vmem S8x256 .f32) (harg4 : arg4.IsWhole)
    (arg5 : Memref sig .tc .vmem S8x128 .f32) (harg5 : arg5.IsWhole)
    (x0 : Vec F S8x256 .f32) (x1 : Vec F S8x1024 .f32) (s0 : Vec F S8x256 .f32) (s1 : Vec F S8x128 .f32) (K : PUnit → sProp 𝕄) :
    iprop(owns (c : Thread nD τ) arg1 fullShare x0 ∗ owns (c : Thread nD τ) arg2 fullShare x1
        ∗ owns (c : Thread nD τ) arg4 fullShare s0 ∗ owns (c : Thread nD τ) arg5 fullShare s1
        ∗ (iprop(owns (c : Thread nD τ) arg1 fullShare x0 ∗ owns (c : Thread nD τ) arg2 fullShare x1
            ∗ owns (c : Thread nD τ) arg4 fullShare (k0_pay4 x0 x1 s0) ∗ owns (c : Thread nD τ) arg5 fullShare (k0_pay5 x0 x1 s1)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%g0, %hg0, HS0⟩, ⟨%g1, %hg1, HS1⟩, Hk⟩
  subst hf0; subst hf1; subst hg0; subst hg1
  sl_exec (disch := first | exact h1 | exact h2)
  sl_step
  iapply Hk
  isplitl [H0]; · iexists f0; isplitr; · ipureintro; rfl
                  iexact H0
  isplitl [H1]; · iexists f1; isplitr; · ipureintro; rfl
                  iexact H1
  isplitl [HS0]
  · iexists _; isplitr
    swap; · iexact HS0
    ipureintro
    rw [read_after_whole hz2]
    simp only [View.readAt_eq_ld, View.ld_unit_zero (S := S8x256) hz2, View.ld_unit_zero (S := S8x1024) hz2, View.ld_unit_zero (S := S8x128) hz2]
  iexists _; isplitr
  swap; · iexact HS1
  ipureintro
  rw [read_after_whole hz2]
  simp only [View.readAt_eq_ld, View.ld_unit_zero (S := S8x256) hz2, View.ld_unit_zero (S := S8x1024) hz2, View.ld_unit_zero (S := S8x128) hz2]

section AtEntry

variable (V : (c : Dev nD) → (b : Ref sig .tc) → Buf (Elt F) ((c : Thread nD τ).loc b))

/-! ## The windows' blocks, the scratch contents point by point, the proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev t0 : Fin cfg0.N := ⟨0, by decide⟩

/-- The centres' block (the whole array, at every point). -/
def bcBlk (c : Dev nD) : Vec F S8x256 .f32 := iblk0 V c 0 t0
/-- The target chunk point `n` sees (anything past the grid). -/
def tgBlk (c : Dev nD) (n : ℕ) : Vec F S8x1024 .f32 :=
  if h : n < cfg0.N then iblk0 V c 1 ⟨n, h⟩ else iblk0 V c 1 t0

theorem bcBlk_eq (c : Dev nD) (t : Fin cfg0.N) : bcBlk V c = iblk0 V c 0 t := rfl
theorem tgBlk_val (c : Dev nD) (t : Fin cfg0.N) : tgBlk V c t.val = iblk0 V c 1 t := by
  unfold tgBlk; rw [dif_pos t.isLt]

/-- What the two scratch buffers hold after point `n`. -/
def sMin (c : Dev nD) (n : ℕ) : Vec F S8x256 .f32 := Fold.runMin (bcBlk V c) (tgBlk V c) n
def sSum (c : Dev nD) (n : ℕ) : Vec F S8x128 .f32 := Fold.runSum (bcBlk V c) (tgBlk V c) n

theorem sMin_first (c : Dev nD) (t : Fin cfg0.N) (h : t.val = 0) :
    sMin V c t.val = k0_pay4 (iblk0 V c 0 t) (iblk0 V c 1 t) (k0_pay1 (F := F)) := by
  rw [← tgBlk_val, ← bcBlk_eq V c t, h]; rfl
theorem sSum_first (c : Dev nD) (t : Fin cfg0.N) (h : t.val = 0) :
    sSum V c t.val = k0_pay5 (iblk0 V c 0 t) (iblk0 V c 1 t) (k0_pay2 (F := F)) := by
  rw [← tgBlk_val, ← bcBlk_eq V c t, h]; rfl
theorem sMin_next (c : Dev nD) (t : Fin cfg0.N) (n : ℕ) (h : t.val = n + 1) :
    sMin V c t.val = k0_pay4 (iblk0 V c 0 t) (iblk0 V c 1 t) (sMin V c n) := by
  rw [← tgBlk_val, ← bcBlk_eq V c t, h]; rfl
theorem sSum_next (c : Dev nD) (t : Fin cfg0.N) (n : ℕ) (h : t.val = n + 1) :
    sSum V c t.val = k0_pay5 (iblk0 V c 0 t) (iblk0 V c 1 t) (sSum V c n) := by
  rw [← tgBlk_val, ← bcBlk_eq V c t, h]; rfl

/-- The two scratch buffers as memrefs. -/
abbrev scM0 : Memref sig .tc .vmem S8x256 .f32 := Memref.whole cc0_scratch0
abbrev scM1 : Memref sig .tc .vmem S8x128 .f32 := Memref.whole cc0_scratch1

/-- The scoped buffers the kernel neither stages nor names (the other kernel's staging buffers), each at some contents. -/
def othersRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f))

/-- The class's invariant, with the two scratch buffers split off as memrefs owned at some contents. -/
theorem PhiA_open (c : Dev nD) :
    (Pipeline.ΦA spec0 c : sProp 𝕄)
      = iprop(((∃ d, owns (c : Thread nD τ) scM0 fullShare d) ∗ (∃ d, owns (c : Thread nD τ) scM1 fullShare d) ∗ othersRest (F := F) c) ∗ (∃ r, prngReg c r)) := by
  unfold Pipeline.ΦA othersRest; rw [scopedRest0_eq]; simp only [scM0, scM1, owns_whole]; try rfl

/-- The region invariant before position `n`: the class's before the first point; afterwards the two scratch buffers at
    what the point before left in them, the other scoped buffers at anything, the generator register at some state. -/
def PhiS (c : Dev nD) : ℕ → sProp 𝕄
  | 0 => Pipeline.ΦA spec0 c
  | n + 1 => iprop((owns (c : Thread nD τ) scM0 fullShare (sMin V c n) ∗ owns (c : Thread nD τ) scM1 fullShare (sSum V c n) ∗ othersRest (F := F) c) ∗ (∃ r, prngReg c r))

theorem PhiS_zero (c : Dev nD) (n : ℕ) (hz : n = 0) : PhiS V c n = Pipeline.ΦA spec0 c := by subst hz; rfl
theorem PhiS_succ (c : Dev nD) (n : ℕ) :
    PhiS V c (n + 1) = iprop((owns (c : Thread nD τ) scM0 fullShare (sMin V c n) ∗ owns (c : Thread nD τ) scM1 fullShare (sSum V c n) ∗ othersRest (F := F) c) ∗ (∃ r, prngReg c r)) := rfl

/-- The proof data: the arrays as the region finds them; after the body each input's buffer at its block and the output's
    at the result the last point stores, read off the scratch contents after that point; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (sMin V c t.val) (View.ld (sSum V c t.val) rCol)
  Φ t := PhiS V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (sMin V c t.val) (View.ld (sSum V c t.val) rCol) := by dsimp only [dat0]
theorem Phi_castSucc (c : Dev nD) (t : Fin cfg0.N) : (dat0 V c).Φ t.castSucc = PhiS V c t.val := by
  dsimp only [dat0]; simp only [Fin.coe_castSucc]
theorem Phi_succ (c : Dev nD) (t : Fin cfg0.N) : (dat0 V c).Φ t.succ = PhiS V c (t.val + 1) := rfl

/-- Each input's staging buffer holds its block when the body runs, fetched at that point or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' buffers hold their blocks; the point's position says which control case it is in;
    the invariant hands over the two scratch buffers at what the point before left (at anything, at the first point)
    and takes them back at this point's contents; at every point but the last the output's buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl, Phi_succ, Phi_castSucc, PhiS_succ]
  rw [show (dat0 V c).leavesExact 0 t = owns (c : Thread nD τ) (st0_0 t) fullShare ((dat0 V c).after 0 t) from by
      unfold Dat.leavesExact; rw [live0_0 t], after0_0]
  rw [show (dat0 V c).leavesExact 1 t = owns (c : Thread nD τ) (st0_1 t) fullShare ((dat0 V c).after 1 t) from by
      unfold Dat.leavesExact; rw [live0_1 t], after0_1]
  have hN : t.val < 75 := lt_of_lt_of_eq t.isLt (show cfg0.N = 75 from N_0)
  by_cases hz : t.val = 0
  · have h1 : isFirst (grid0.coords t) := (isFirst_iff t).mpr hz
    have h2 : ¬ isLast (grid0.coords t) := fun h => by have := (isLast_iff t).mp h; omega
    rw [Dat.leavesExact_idle (dat0 V c) 2 t (idle0_2 t h2) (noFlush0_2 t h2), PhiS_zero V c _ hz, PhiA_open,
      sMin_first V c t hz, sSum_first V c t hz]
    iintro ⟨⟨⟨HS0, HS1, Hr⟩, Hg⟩, Ho, ⟨%d0, H0⟩, ⟨%d1, H1⟩, H2⟩
    iapply (kernelA c Set.univ (grid0.coords t) h1 h2 _ _ _ _ _ _ _ _ _ _ (iblk0 V c 0 t) (iblk0 V c 1 t) _)
    isplitl [H0]; · iexact H0
    isplitl [H1]; · iexact H1
    isplitl [HS0]; · iexact HS0
    isplitl [HS1]; · iexact HS1
    iintro ⟨H0, H1, HS0, HS1⟩
    isplitl [HS0 HS1 Hr Hg]
    · isplitr [Hg]
      · isplitl [HS0]; · iexact HS0
        isplitl [HS1]; · iexact HS1
        iexact Hr
      iexact Hg
    isplitl [Ho]; · iexact Ho
    isplitl [H0]; · iexact H0
    isplitl [H1]; · iexact H1
    iexact H2
  · obtain ⟨n, hn⟩ : ∃ n, t.val = n + 1 := ⟨t.val - 1, by omega⟩
    rw [hn, PhiS_succ, ← hn, sMin_next V c t n hn, sSum_next V c t n hn]
    by_cases hl : t.val = 74
    · have h1 : ¬ isFirst (grid0.coords t) := fun h => hz ((isFirst_iff t).mp h)
      have h2 : isLast (grid0.coords t) := (isLast_iff t).mpr hl
      rw [show (dat0 V c).leavesExact 2 t = owns (c : Thread nD τ) (st0_2 t) fullShare ((dat0 V c).after 2 t) from by
          unfold Dat.leavesExact; rw [live0_2 t h2], after0_2, sMin_next V c t n hn, sSum_next V c t n hn]
      iintro ⟨⟨⟨HS0, HS1, Hr⟩, Hg⟩, Ho, ⟨%d0, H0⟩, ⟨%d1, H1⟩, ⟨%d2, H2⟩⟩
      iapply (kernelC c Set.univ (grid0.coords t) h1 h2 _ _ _ _ _ _ _ _ _ _ (iblk0 V c 0 t) (iblk0 V c 1 t) (sMin V c n) (sSum V c n) _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      iexact H2
    · have h1 : ¬ isFirst (grid0.coords t) := fun h => hz ((isFirst_iff t).mp h)
      have h2 : ¬ isLast (grid0.coords t) := fun h => hl ((isLast_iff t).mp h)
      rw [Dat.leavesExact_idle (dat0 V c) 2 t (idle0_2 t h2) (noFlush0_2 t h2)]
      iintro ⟨⟨⟨HS0, HS1, Hr⟩, Hg⟩, Ho, ⟨%d0, H0⟩, ⟨%d1, H1⟩, H2⟩
      iapply (kernelB c Set.univ (grid0.coords t) h1 h2 _ _ _ _ _ _ _ _ _ _ (iblk0 V c 0 t) (iblk0 V c 1 t) (sMin V c n) (sSum V c n) _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point; after the last point the invariant gives
    the class's back, the scratch contents forgotten. -/
theorem hin0 (c : Dev nD) : Pipeline.ΦA spec0 c ⊢ (dat0 V c).Φ 0 := by
  rw [show (dat0 V c).Φ 0 = PhiS V c 0 from rfl, PhiS_zero V c 0 rfl]

theorem hout0 (c : Dev nD) : (dat0 V c).Φ (Fin.last cfg0.N) ⊢ Pipeline.ΦA spec0 c := by
  rw [show (dat0 V c).Φ (Fin.last cfg0.N) = PhiS V c 75 from rfl, show (75 : ℕ) = 74 + 1 from rfl, PhiS_succ, PhiA_open]
  iintro ⟨⟨HS0, HS1, Hr⟩, Hg⟩
  isplitr [Hg]
  · isplitl [HS0]; · iexists _; iexact HS0
    isplitl [HS1]; · iexists _; iexact HS1
    iexact Hr
  iexact Hg

end AtEntry

end Cert.Kernel.Hand

end
-- ==== Proof.KRun.lean ====
import proofs.«151095_j21028159881359_1_alg».proof.Proof.Gen.Kernel.Launch
import proofs.«151095_j21028159881359_1_alg».proof.Proof.Gen.Kernel.Skeleton
import proofs.«151095_j21028159881359_1_alg».proof.Proof.Gen.Kernel.Points
import proofs.«151095_j21028159881359_1_alg».proof.Proof.Gen.Kernel.Regions
import proofs.«151095_j21028159881359_1_alg».proof.Proof.KRegionChamfer
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run of @main: host lines, the chamfer kernel, host lines, the masked-sums kernel, host lines.
    The unscoped buffers' contents at each boundary are a fold from the launch memory: a stretch of host lines applies its
    operations; a kernel region leaves its windows' arrays at what its write-backs leave and every other buffer as entered. -/

variable (m : (ℓ : Loc nD τ sig) → Buf (Elt F) ℓ)

/-- Core `c`'s buffers at launch. -/
abbrev W0 : Dev nD → Valuation τ sig (Elt F) := fun c b => m (c, b)
/-- After the first host stretch: what the chamfer kernel is entered with. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the chamfer kernel. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch: what the masked-sums kernel is entered with. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the masked-sums kernel. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host stretch: what the program returns with. -/
abbrev W5 : Dev nD → Valuation τ sig (Elt F) := fun c => StableHlo.after hostOps2 (W4 m c)

/-! ## No line and no region writes an argument -/

/-- An unscoped buffer that no host line of the three stretches writes and that is no output array of either kernel
    ends holding its launch contents. -/
theorem W5_kept (c : Dev nD) (r : Ref sig .tc) (h0 : r ∉ hostOps0_W) (h1 : r ∉ hostOps1_W) (h2 : r ∉ hostOps2_W)
    (hk0 : ∀ w, Pipeline.arrRef spec0 w ≠ r) (hk1 : ∀ w, Pipeline.arrRef spec1 w ≠ r) :
    W5 m c (Proc.devRef .tc r) = m ((c : Thread nD τ).loc r) :=
  (StableHlo.after_of_writes_sub hostOps2 _ hostOps2_writes h2).trans <|
    (W4_of_ne m c r hk1).trans <| (StableHlo.after_of_writes_sub hostOps1 _ hostOps1_writes h1).trans <|
      (W2_of_ne m c r hk0).trans <| (StableHlo.after_of_writes_sub hostOps0 _ hostOps0_writes h0).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A stretch of host lines as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the final contents, the generator register at some state. -/
abbrev Tend (c : Dev nD) : sProp 𝕄 := iprop(StableHlo.held (c : Thread nD τ) (Pipeline.ucRefs τ sig) (W5 m c) ∗ ∃ r, prngReg c r)

/-- After the last point the chamfer kernel's invariant gives back the scoped buffers it was handed and the generator register. -/
theorem hout0u (c : Dev nD) : (dat0 (V1 m) c).Φ (Fin.last cfg0.N)
    ⊢ iprop(Pipeline.scopedRest (Ix := Unit) (Name := ℕ) (U := UR sig nD τ) (Lvl := ℕ) (Val := Elt F) spec0 c ∗ ∃ r, prngReg c r) :=
  hout0 (V1 m) c

/-! ## The two regions as segments -/

set_option backward.isDefEq.respectTransparency.types false in
/-- The region of pallas_call 0 over the thread state: entered with every unscoped buffer at `W1`, left with
    them at `W2`. Its windows' arrays are split out of the unscoped buffers on entry and put back, at what the
    write-backs leave, on exit; the generator register goes into the region invariant and comes back; nothing is owed and
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    have hback := hout0u m c
    iintro H
    ihave H' := hback $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of pallas_call 1 over the thread state: entered with every unscoped buffer at `W3`, left with
    them at `W4`. Its windows' arrays are split out of the unscoped buffers on entry and put back, at what the
    write-backs leave, on exit; the generator register goes into the region invariant and comes back; nothing is owed and
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN. From any memory with zero counters, every weakly fair execution of @main terminates, nothing faulting, and in
    every final state each unscoped buffer of every core holds the final contents `W5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_kept m c main_arg0 (by decide) (by decide) (by decide) (by decide) (by decide)),
     (h c _ (mem_uc main_arg1 (by decide))).trans (W5_kept m c main_arg1 (by decide) (by decide) (by decide) (by decide) (by decide)),
     (h c _ (mem_uc main_arg2 (by decide))).trans (W5_kept m c main_arg2 (by decide) (by decide) (by decide) (by decide) (by decide)),
     (h c _ (mem_uc main_arg3 (by decide))).trans (W5_kept m c main_arg3 (by decide) (by decide) (by decide) (by decide) (by decide))⟩)
    (run_all m ρ)

end Cert.Kernel.Hand

end
-- ==== Proof.Fold.lean ====
/-
  The chamfer kernel keeps two scratch buffers across its 75 grid points: the running minimum over the target
  chunks seen so far of the squared distance from each bin centre (8 × 256), and the running sum over those
  chunks of the per-pixel least squared distance to a centre (8 × 128, every lane the same number). Point 0
  resets them to +∞ and 0 before accumulating. This file names what the two buffers hold after point `n`,
  as a recursion over the point through the kernel body's own arithmetic, at any float instance.
-/
import proofs.«151095_j21028159881359_1_alg».proof.Proof.Gen.KernelIdeal.Skeleton

noncomputable section

namespace Cert.KernelIdeal.Fold

open Idealize.ShloMosaic Cert.KernelIdeal Cert.KernelIdeal.Gen

variable {F : FTy → Type} [FloatOps F]

/-- The running minimum after point `n`: the body's update of the previous contents (the +∞ fill at point 0)
    with the centres `bc` and the target chunk `tg n`. -/
def runMin (bc : Vec F S8x256 .f32) (tg : ℕ → Vec F S8x1024 .f32) : ℕ → Vec F S8x256 .f32
  | 0 => k0_pay4 bc (tg 0) (k0_pay1 (F := F))
  | n + 1 => k0_pay4 bc (tg (n + 1)) (runMin bc tg n)

/-- The running sum after point `n`: the body's update of the previous contents (the zero fill at point 0). -/
def runSum (bc : Vec F S8x256 .f32) (tg : ℕ → Vec F S8x1024 .f32) : ℕ → Vec F S8x128 .f32
  | 0 => k0_pay5 bc (tg 0) (k0_pay2 (F := F))
  | n + 1 => k0_pay5 bc (tg (n + 1)) (runSum bc tg n)

end Cert.KernelIdeal.Fold

end
-- ==== Proof.RegionMasked.lean ====
import proofs.«151095_j21028159881359_1_alg».proof.Proof.Gen.KernelIdeal.Launch
import proofs.«151095_j21028159881359_1_alg».proof.Proof.Gen.KernelIdeal.Skeleton
import proofs.«151095_j21028159881359_1_alg».proof.Proof.Gen.KernelIdeal.Points
import proofs.«151095_j21028159881359_1_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The masked-sums kernel (the second pallas_call): one grid point, three whole-array inputs (prediction, target,
    mask as float, each 8 × 76800), four 8 × 128 outputs, each lane of row `b` holding one of the four masked sums of
    image `b`. Stated at the contents `V` the unscoped buffers hold when the region is entered. -/

theorem hz2 : (![0, 0] : Fin 2 → Nat) = fun _ => 0 := by funext a; fin_cases a <;> rfl

/-- After a store of a whole block, whatever was stored before, the buffer reads as that block. -/
theorem read_after_whole {κ : Kind} {sp : Space} {S : Shape} {e : EltTy} {off : Fin S.rank → Nat} (h : off = fun _ => 0)
    (v : View sig κ sp S e) (f : v.ty.Contents (Elt F)) (inb : ∀ a, off a + S.size a ≤ S.size a)
    (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-! ## The body on any whole staging buffers -/

set_option maxHeartbeats 1000000 in
/-- From the three inputs' buffers at `x0 x1 x2` and the four outputs' at anything, the body runs to its return with
    the inputs as they were and each output at its payload of the inputs: every load and store is of a whole buffer. -/
theorem sound_kernel1 (c : Dev nD) (E : Set ℕ) (i : grid1.Coords)
    (arg1 : Memref sig .tc .vmem S8x76800 .f32) (harg1 : arg1.IsWhole) (arg2 : Memref sig .tc .vmem S8x76800 .f32) (harg2 : arg2.IsWhole)
    (arg3 : Memref sig .tc .vmem S8x76800 .f32) (harg3 : arg3.IsWhole) (arg4 : Memref sig .tc .vmem S8x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S8x128 .f32) (harg7 : arg7.IsWhole)
    (x0 x1 x2 : Vec F S8x76800 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay5 x0 x1 x2) ∗ owns (c : Thread nD τ) arg5 fullShare (k1_pay6 x2)
            ∗ owns (c : Thread nD τ) arg6 fullShare (k1_pay7 x0 x1 x2) ∗ owns (c : Thread nD τ) arg7 fullShare (k1_pay8 x0 x1 x2)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  subst hf0; subst hf1; subst hf2
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    rw [read_after_whole hz2]
    simp only [View.readAt_eq_ld, View.ld_unit_zero (S := S8x76800) hz2]
  isplitl [H4]
  · iexists _; isplitr
    swap; · iexact H4
    ipureintro
    rw [read_after_whole hz2]
    simp only [View.readAt_eq_ld, View.ld_unit_zero (S := S8x76800) hz2]
  isplitl [H5]
  · iexists _; isplitr
    swap; · iexact H5
    ipureintro
    rw [read_after_whole hz2]
    simp only [View.readAt_eq_ld, View.ld_unit_zero (S := S8x76800) hz2]
  iexists _; isplitr
  swap; · iexact H6
  ipureintro
  rw [read_after_whole hz2]
  sl_unfold_run_names
  simp only [View.readAt_eq_ld, View.ld_unit_zero (S := S8x76800) hz2]

section AtEntry

variable (V : (c : Dev nD) → (b : Ref sig .tc) → Buf (Elt F) ((c : Thread nD τ).loc b))

/-! ## The windows' blocks and the proof data -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- After the body: each input's buffer still at its block, each output's at its payload of the three input blocks.
    The invariant is the class's (the scoped buffers the kernel does not name and the generator register); nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay5 (iblk1 V c 0 t) (iblk1 V c 1 t) (iblk1 V c 2 t)
    | ⟨4, _⟩ => k1_pay6 (iblk1 V c 2 t)
    | ⟨5, _⟩ => k1_pay7 (iblk1 V c 0 t) (iblk1 V c 1 t) (iblk1 V c 2 t)
    | ⟨6, _⟩ => k1_pay8 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay5 (iblk1 V c 0 t) (iblk1 V c 1 t) (iblk1 V c 2 t) := by dsimp only [dat1]
theorem after1_4 (c : Dev nD) (t : Fin cfg1.N) : (dat1 V c).after 4 t = k1_pay6 (iblk1 V c 2 t) := by dsimp only [dat1]
theorem after1_5 (c : Dev nD) (t : Fin cfg1.N) : (dat1 V c).after 5 t = k1_pay7 (iblk1 V c 0 t) (iblk1 V c 1 t) (iblk1 V c 2 t) := by dsimp only [dat1]
theorem after1_6 (c : Dev nD) (t : Fin cfg1.N) : (dat1 V c).after 6 t = k1_pay8 (iblk1 V c 0 t) (iblk1 V c 1 t) (iblk1 V c 2 t) := by dsimp only [dat1]

/-- Each input's staging buffer holds its block when the body runs: the window is fetched at the one point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at the point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end AtEntry

end Cert.KernelIdeal.Hand

end
-- ==== Proof.RegionChamfer.lean ====
import proofs.«151095_j21028159881359_1_alg».proof.Proof.Gen.KernelIdeal.Launch
import proofs.«151095_j21028159881359_1_alg».proof.Proof.Gen.KernelIdeal.Skeleton
import proofs.«151095_j21028159881359_1_alg».proof.Proof.Gen.KernelIdeal.Points
import proofs.«151095_j21028159881359_1_alg».proof.Proof.Gen.KernelIdeal.Regions
import proofs.«151095_j21028159881359_1_alg».proof.Proof.Fold
import proofs.«151095_j21028159881359_1_alg».proof.Proof.RegionMasked
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The chamfer kernel (the first pallas_call): 75 grid points, point `n` seeing the centres (8 × 256, the same block at
    every point) and chunk `n` of 1024 target pixels (8 × 1024); two scratch buffers carried from point to point (the
    running minimum per centre, the running sum of per-pixel minima); the 8 × 128 result stored at the last point only.
    Stated at the contents `V` the unscoped buffers hold when the region is entered. -/

/-- The first branch of the body (the reset of the two scratch buffers) is taken exactly when the grid coordinate is 0. -/
abbrev isFirst (i : grid0.Coords) : Prop := (Scalar.cmpi .ne (Scalar.extui (Scalar.cmpi .eq (BitVec.ofNat 32 (i 0).val) 0#32)) 0#32) = 1#1
/-- The last branch (the store of the result) is taken exactly when it is 74. -/
abbrev isLast (i : grid0.Coords) : Prop := k0_cond2 i = 1#1

theorem isFirst_iff : ∀ t : Fin cfg0.N, isFirst (grid0.coords t) ↔ t.val = 0 :=
  (by decide +kernel : ∀ t : Fin grid0.N, isFirst (grid0.coords t) ↔ t.val = 0)
theorem isLast_iff : ∀ t : Fin cfg0.N, isLast (grid0.coords t) ↔ t.val = 74 :=
  (by decide +kernel : ∀ t : Fin grid0.N, isLast (grid0.coords t) ↔ t.val = 74)

/-- The two input windows are never idle; the output window is idle, and not written back, at every point but the last. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬ isLast (grid0.coords t) → cfg0.idle 2 (grid0.coords t) = true := by decide +kernel
theorem noFlush0_2 : ∀ t : Fin cfg0.N, ¬ isLast (grid0.coords t) → (cfg0.win 2).flush t = false := by decide +kernel
theorem live0_2 : ∀ t : Fin cfg0.N, isLast (grid0.coords t) → cfg0.idle 2 (grid0.coords t) = false := by decide +kernel

/-! ## The body on any whole staging and scratch buffers, in its three control cases -/

/-- Column 0 of an 8 × 128 buffer, as the last point loads it. -/
abbrev rCol : Rect S8x128 := Rect.unit (s := S8x128) ![0, 0] S8x1.size inb_S8x128_S8x1_0_0

set_option maxHeartbeats 1000000 in
theorem kernelC (c : Dev nD) (E : Set ℕ) (i : grid0.Coords) (h1 : ¬ isFirst i) (h2 : isLast i)
    (arg1 : Memref sig .tc .vmem S8x256 .f32) (harg1 : arg1.IsWhole) (arg2 : Memref sig .tc .vmem S8x1024 .f32) (harg2 : arg2.IsWhole)
    (arg3 : Memref sig .tc .vmem S8x128 .f32) (harg3 : arg3.IsWhole) (arg4 : Memref sig .tc .vmem S8x256 .f32) (harg4 : arg4.IsWhole)
    (arg5 : Memref sig .tc .vmem S8x128 .f32) (harg5 : arg5.IsWhole)
    (x0 : Vec F S8x256 .f32) (x1 : Vec F S8x1024 .f32) (s0 : Vec F S8x256 .f32) (s1 : Vec F S8x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare x1
            ∗ owns (c : Thread nD τ) arg3 fullShare (k0_pay6 (k0_pay4 x0 x1 s0) (View.ld (k0_pay5 x0 x1 s1) rCol))
            ∗ owns (c : Thread nD τ) arg4 fullShare (k0_pay4 x0 x1 s0) ∗ owns (c : Thread nD τ) arg5 fullShare (k0_pay5 x0 x1 s1)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%g0, %hg0, HS0⟩, ⟨%g1, %hg1, HS1⟩, Hk⟩
  subst hf0; subst hf1; subst hg0; subst hg1
  sl_exec (disch := first | exact h1 | exact h2)
  sl_step
  iapply Hk
  isplitl [H0]; · iexists f0; isplitr; · ipureintro; rfl
                  iexact H0
  isplitl [H1]; · iexists f1; isplitr; · ipureintro; rfl
                  iexact H1
  isplitl [H2]
  · iexists _; isplitr
    swap; · iexact H2
    ipureintro
    sl_unfold_run_names
    rw [read_after_whole hz2, View.readCov_unit_zero _ hz2,
      View.readCov_eq_canon_ld _ _ rCol (fun y => ⟨_, List.mem_singleton_self _, View.mem_set_unit_zero hz2 inb_S8x128_S8x128_0_0 y⟩), View.canon_unit_zero hz2]
    simp only [View.readAt_eq_ld, View.ld_unit_zero (S := S8x256) hz2, View.ld_unit_zero (S := S8x1024) hz2, View.ld_unit_zero (S := S8x128) hz2]
  isplitl [HS0]
  · iexists _; isplitr
    swap; · iexact HS0
    ipureintro
    sl_unfold_run_names
    rw [read_after_whole hz2]
    simp only [View.readAt_eq_ld, View.ld_unit_zero (S := S8x256) hz2, View.ld_unit_zero (S := S8x1024) hz2, View.ld_unit_zero (S := S8x128) hz2]
  iexists _; isplitr
  swap; · iexact HS1
  ipureintro
  sl_unfold_run_names
  rw [read_after_whole hz2]
  simp only [View.readAt_eq_ld, View.ld_unit_zero (S := S8x256) hz2, View.ld_unit_zero (S := S8x1024) hz2, View.ld_unit_zero (S := S8x128) hz2]

set_option maxHeartbeats 1000000 in
theorem kernelA (c : Dev nD) (E : Set ℕ) (i : grid0.Coords) (h1 : isFirst i) (h2 : ¬ isLast i)
    (arg1 : Memref sig .tc .vmem S8x256 .f32) (harg1 : arg1.IsWhole) (arg2 : Memref sig .tc .vmem S8x1024 .f32) (harg2 : arg2.IsWhole)
    (arg3 : Memref sig .tc .vmem S8x128 .f32) (harg3 : arg3.IsWhole) (arg4 : Memref sig .tc .vmem S8x256 .f32) (harg4 : arg4.IsWhole)
    (arg5 : Memref sig .tc .vmem S8x128 .f32) (harg5 : arg5.IsWhole)
    (x0 : Vec F S8x256 .f32) (x1 : Vec F S8x1024 .f32) (K : PUnit → sProp 𝕄) :
    iprop(owns (c : Thread nD τ) arg1 fullShare x0 ∗ owns (c : Thread nD τ) arg2 fullShare x1
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg4 fullShare (k0_pay4 x0 x1 (k0_pay1 (F := F))) ∗ owns (c : Thread nD τ) arg5 fullShare (k0_pay5 x0 x1 (k0_pay2 (F := F)))) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%e0, %g0, -, HS0⟩, ⟨%e1, %g1, -, HS1⟩, Hk⟩
  subst hf0; subst hf1
  sl_exec (disch := first | exact h1 | exact h2)
  sl_step
  iapply Hk
  isplitl [H0]; · iexists f0; isplitr; · ipureintro; rfl
                  iexact H0
  isplitl [H1]; · iexists f1; isplitr; · ipureintro; rfl
                  iexact H1
  isplitl [HS0]
  · iexists _; isplitr
    swap; · iexact HS0
    ipureintro
    sl_unfold_run_names
    rw [read_after_whole hz2, View.readCov_unit_zero _ hz2]
    simp only [View.readAt_eq_ld, View.ld_unit_zero (S := S8x256) hz2, View.ld_unit_zero (S := S8x1024) hz2, View.ld_unit_zero (S := S8x128) hz2]
  iexists _; isplitr
  swap; · iexact HS1
  ipureintro
  sl_unfold_run_names
  rw [read_after_whole hz2, View.readCov_unit_zero _ hz2]
  simp only [View.readAt_eq_ld, View.ld_unit_zero (S := S8x256) hz2, View.ld_unit_zero (S := S8x1024) hz2, View.ld_unit_zero (S := S8x128) hz2]

set_option maxHeartbeats 1000000 in
theorem kernelB (c : Dev nD) (E : Set ℕ) (i : grid0.Coords) (h1 : ¬ isFirst i) (h2 : ¬ isLast i)
    (arg1 : Memref sig .tc .vmem S8x256 .f32) (harg1 : arg1.IsWhole) (arg2 : Memref sig .tc .vmem S8x1024 .f32) (harg2 : arg2.IsWhole)
    (arg3 : Memref sig .tc .vmem S8x128 .f32) (harg3 : arg3.IsWhole) (arg4 : Memref sig .tc .vmem S8x256 .f32) (harg4 : arg4.IsWhole)
    (arg5 : Memref sig .tc .vmem S8x128 .f32) (harg5 : arg5.IsWhole)
    (x0 : Vec F S8x256 .f32) (x1 : Vec F S8x1024 .f32) (s0 : Vec F S8x256 .f32) (s1 : Vec F S8x128 .f32) (K : PUnit → sProp 𝕄) :
    iprop(owns (c : Thread nD τ) arg1 fullShare x0 ∗ owns (c : Thread nD τ) arg2 fullShare x1
        ∗ owns (c : Thread nD τ) arg4 fullShare s0 ∗ owns (c : Thread nD τ) arg5 fullShare s1
        ∗ (iprop(owns (c : Thread nD τ) arg1 fullShare x0 ∗ owns (c : Thread nD τ) arg2 fullShare x1
            ∗ owns (c : Thread nD τ) arg4 fullShare (k0_pay4 x0 x1 s0) ∗ owns (c : Thread nD τ) arg5 fullShare (k0_pay5 x0 x1 s1)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%g0, %hg0, HS0⟩, ⟨%g1, %hg1, HS1⟩, Hk⟩
  subst hf0; subst hf1; subst hg0; subst hg1
  sl_exec (disch := first | exact h1 | exact h2)
  sl_step
  iapply Hk
  isplitl [H0]; · iexists f0; isplitr; · ipureintro; rfl
                  iexact H0
  isplitl [H1]; · iexists f1; isplitr; · ipureintro; rfl
                  iexact H1
  isplitl [HS0]
  · iexists _; isplitr
    swap; · iexact HS0
    ipureintro
    rw [read_after_whole hz2]
    simp only [View.readAt_eq_ld, View.ld_unit_zero (S := S8x256) hz2, View.ld_unit_zero (S := S8x1024) hz2, View.ld_unit_zero (S := S8x128) hz2]
  iexists _; isplitr
  swap; · iexact HS1
  ipureintro
  rw [read_after_whole hz2]
  simp only [View.readAt_eq_ld, View.ld_unit_zero (S := S8x256) hz2, View.ld_unit_zero (S := S8x1024) hz2, View.ld_unit_zero (S := S8x128) hz2]

section AtEntry

variable (V : (c : Dev nD) → (b : Ref sig .tc) → Buf (Elt F) ((c : Thread nD τ).loc b))

/-! ## The windows' blocks, the scratch contents point by point, the proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first grid point. -/
abbrev t0 : Fin cfg0.N := ⟨0, by decide⟩

/-- The centres' block (the whole array, at every point). -/
def bcBlk (c : Dev nD) : Vec F S8x256 .f32 := iblk0 V c 0 t0
/-- The target chunk point `n` sees (anything past the grid). -/
def tgBlk (c : Dev nD) (n : ℕ) : Vec F S8x1024 .f32 :=
  if h : n < cfg0.N then iblk0 V c 1 ⟨n, h⟩ else iblk0 V c 1 t0

theorem bcBlk_eq (c : Dev nD) (t : Fin cfg0.N) : bcBlk V c = iblk0 V c 0 t := rfl
theorem tgBlk_val (c : Dev nD) (t : Fin cfg0.N) : tgBlk V c t.val = iblk0 V c 1 t := by
  unfold tgBlk; rw [dif_pos t.isLt]

/-- What the two scratch buffers hold after point `n`. -/
def sMin (c : Dev nD) (n : ℕ) : Vec F S8x256 .f32 := Fold.runMin (bcBlk V c) (tgBlk V c) n
def sSum (c : Dev nD) (n : ℕ) : Vec F S8x128 .f32 := Fold.runSum (bcBlk V c) (tgBlk V c) n

theorem sMin_first (c : Dev nD) (t : Fin cfg0.N) (h : t.val = 0) :
    sMin V c t.val = k0_pay4 (iblk0 V c 0 t) (iblk0 V c 1 t) (k0_pay1 (F := F)) := by
  rw [← tgBlk_val, ← bcBlk_eq V c t, h]; rfl
theorem sSum_first (c : Dev nD) (t : Fin cfg0.N) (h : t.val = 0) :
    sSum V c t.val = k0_pay5 (iblk0 V c 0 t) (iblk0 V c 1 t) (k0_pay2 (F := F)) := by
  rw [← tgBlk_val, ← bcBlk_eq V c t, h]; rfl
theorem sMin_next (c : Dev nD) (t : Fin cfg0.N) (n : ℕ) (h : t.val = n + 1) :
    sMin V c t.val = k0_pay4 (iblk0 V c 0 t) (iblk0 V c 1 t) (sMin V c n) := by
  rw [← tgBlk_val, ← bcBlk_eq V c t, h]; rfl
theorem sSum_next (c : Dev nD) (t : Fin cfg0.N) (n : ℕ) (h : t.val = n + 1) :
    sSum V c t.val = k0_pay5 (iblk0 V c 0 t) (iblk0 V c 1 t) (sSum V c n) := by
  rw [← tgBlk_val, ← bcBlk_eq V c t, h]; rfl

/-- The two scratch buffers as memrefs. -/
abbrev scM0 : Memref sig .tc .vmem S8x256 .f32 := Memref.whole cc0_scratch0
abbrev scM1 : Memref sig .tc .vmem S8x128 .f32 := Memref.whole cc0_scratch1

/-- The scoped buffers the kernel neither stages nor names (the other kernel's staging buffers), each at some contents. -/
def othersRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f))

/-- The class's invariant, with the two scratch buffers split off as memrefs owned at some contents. -/
theorem PhiA_open (c : Dev nD) :
    (Pipeline.ΦA spec0 c : sProp 𝕄)
      = iprop(((∃ d, owns (c : Thread nD τ) scM0 fullShare d) ∗ (∃ d, owns (c : Thread nD τ) scM1 fullShare d) ∗ othersRest (F := F) c) ∗ (∃ r, prngReg c r)) := by
  unfold Pipeline.ΦA othersRest; rw [scopedRest0_eq]; simp only [scM0, scM1, owns_whole]; try rfl

/-- The region invariant before position `n`: the class's before the first point; afterwards the two scratch buffers at
    what the point before left in them, the other scoped buffers at anything, the generator register at some state. -/
def PhiS (c : Dev nD) : ℕ → sProp 𝕄
  | 0 => Pipeline.ΦA spec0 c
  | n + 1 => iprop((owns (c : Thread nD τ) scM0 fullShare (sMin V c n) ∗ owns (c : Thread nD τ) scM1 fullShare (sSum V c n) ∗ othersRest (F := F) c) ∗ (∃ r, prngReg c r))

theorem PhiS_zero (c : Dev nD) (n : ℕ) (hz : n = 0) : PhiS V c n = Pipeline.ΦA spec0 c := by subst hz; rfl
theorem PhiS_succ (c : Dev nD) (n : ℕ) :
    PhiS V c (n + 1) = iprop((owns (c : Thread nD τ) scM0 fullShare (sMin V c n) ∗ owns (c : Thread nD τ) scM1 fullShare (sSum V c n) ∗ othersRest (F := F) c) ∗ (∃ r, prngReg c r)) := rfl

/-- The proof data: the arrays as the region finds them; after the body each input's buffer at its block and the output's
    at the result the last point stores, read off the scratch contents after that point; the invariant `PhiS`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay6 (sMin V c t.val) (View.ld (sSum V c t.val) rCol)
  Φ t := PhiS V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay6 (sMin V c t.val) (View.ld (sSum V c t.val) rCol) := by dsimp only [dat0]
theorem Phi_castSucc (c : Dev nD) (t : Fin cfg0.N) : (dat0 V c).Φ t.castSucc = PhiS V c t.val := by
  dsimp only [dat0]; simp only [Fin.coe_castSucc]
theorem Phi_succ (c : Dev nD) (t : Fin cfg0.N) : (dat0 V c).Φ t.succ = PhiS V c (t.val + 1) := rfl

/-- Each input's staging buffer holds its block when the body runs, fetched at that point or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point. The inputs' buffers hold their blocks; the point's position says which control case it is in;
    the invariant hands over the two scratch buffers at what the point before left (at anything, at the first point)
    and takes them back at this point's contents; at every point but the last the output's buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl, Phi_succ, Phi_castSucc, PhiS_succ]
  rw [show (dat0 V c).leavesExact 0 t = owns (c : Thread nD τ) (st0_0 t) fullShare ((dat0 V c).after 0 t) from by
      unfold Dat.leavesExact; rw [live0_0 t], after0_0]
  rw [show (dat0 V c).leavesExact 1 t = owns (c : Thread nD τ) (st0_1 t) fullShare ((dat0 V c).after 1 t) from by
      unfold Dat.leavesExact; rw [live0_1 t], after0_1]
  have hN : t.val < 75 := lt_of_lt_of_eq t.isLt (show cfg0.N = 75 from N_0)
  by_cases hz : t.val = 0
  · have h1 : isFirst (grid0.coords t) := (isFirst_iff t).mpr hz
    have h2 : ¬ isLast (grid0.coords t) := fun h => by have := (isLast_iff t).mp h; omega
    rw [Dat.leavesExact_idle (dat0 V c) 2 t (idle0_2 t h2) (noFlush0_2 t h2), PhiS_zero V c _ hz, PhiA_open,
      sMin_first V c t hz, sSum_first V c t hz]
    iintro ⟨⟨⟨HS0, HS1, Hr⟩, Hg⟩, Ho, ⟨%d0, H0⟩, ⟨%d1, H1⟩, H2⟩
    iapply (kernelA c Set.univ (grid0.coords t) h1 h2 _ _ _ _ _ _ _ _ _ _ (iblk0 V c 0 t) (iblk0 V c 1 t) _)
    isplitl [H0]; · iexact H0
    isplitl [H1]; · iexact H1
    isplitl [HS0]; · iexact HS0
    isplitl [HS1]; · iexact HS1
    iintro ⟨H0, H1, HS0, HS1⟩
    isplitl [HS0 HS1 Hr Hg]
    · isplitr [Hg]
      · isplitl [HS0]; · iexact HS0
        isplitl [HS1]; · iexact HS1
        iexact Hr
      iexact Hg
    isplitl [Ho]; · iexact Ho
    isplitl [H0]; · iexact H0
    isplitl [H1]; · iexact H1
    iexact H2
  · obtain ⟨n, hn⟩ : ∃ n, t.val = n + 1 := ⟨t.val - 1, by omega⟩
    rw [hn, PhiS_succ, ← hn, sMin_next V c t n hn, sSum_next V c t n hn]
    by_cases hl : t.val = 74
    · have h1 : ¬ isFirst (grid0.coords t) := fun h => hz ((isFirst_iff t).mp h)
      have h2 : isLast (grid0.coords t) := (isLast_iff t).mpr hl
      rw [show (dat0 V c).leavesExact 2 t = owns (c : Thread nD τ) (st0_2 t) fullShare ((dat0 V c).after 2 t) from by
          unfold Dat.leavesExact; rw [live0_2 t h2], after0_2, sMin_next V c t n hn, sSum_next V c t n hn]
      iintro ⟨⟨⟨HS0, HS1, Hr⟩, Hg⟩, Ho, ⟨%d0, H0⟩, ⟨%d1, H1⟩, ⟨%d2, H2⟩⟩
      iapply (kernelC c Set.univ (grid0.coords t) h1 h2 _ _ _ _ _ _ _ _ _ _ (iblk0 V c 0 t) (iblk0 V c 1 t) (sMin V c n) (sSum V c n) _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      iexact H2
    · have h1 : ¬ isFirst (grid0.coords t) := fun h => hz ((isFirst_iff t).mp h)
      have h2 : ¬ isLast (grid0.coords t) := fun h => hl ((isLast_iff t).mp h)
      rw [Dat.leavesExact_idle (dat0 V c) 2 t (idle0_2 t h2) (noFlush0_2 t h2)]
      iintro ⟨⟨⟨HS0, HS1, Hr⟩, Hg⟩, Ho, ⟨%d0, H0⟩, ⟨%d1, H1⟩, H2⟩
      iapply (kernelB c Set.univ (grid0.coords t) h1 h2 _ _ _ _ _ _ _ _ _ _ (iblk0 V c 0 t) (iblk0 V c 1 t) (sMin V c n) (sSum V c n) _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point; after the last point the invariant gives
    the class's back, the scratch contents forgotten. -/
theorem hin0 (c : Dev nD) : Pipeline.ΦA spec0 c ⊢ (dat0 V c).Φ 0 := by
  rw [show (dat0 V c).Φ 0 = PhiS V c 0 from rfl, PhiS_zero V c 0 rfl]

theorem hout0 (c : Dev nD) : (dat0 V c).Φ (Fin.last cfg0.N) ⊢ Pipeline.ΦA spec0 c := by
  rw [show (dat0 V c).Φ (Fin.last cfg0.N) = PhiS V c 75 from rfl, show (75 : ℕ) = 74 + 1 from rfl, PhiS_succ, PhiA_open]
  iintro ⟨⟨HS0, HS1, Hr⟩, Hg⟩
  isplitr [Hg]
  · isplitl [HS0]; · iexists _; iexact HS0
    isplitl [HS1]; · iexists _; iexact HS1
    iexact Hr
  iexact Hg

end AtEntry

end Cert.KernelIdeal.Hand

end
-- ==== Proof.Run.lean ====
import proofs.«151095_j21028159881359_1_alg».proof.Proof.Gen.KernelIdeal.Launch
import proofs.«151095_j21028159881359_1_alg».proof.Proof.Gen.KernelIdeal.Skeleton
import proofs.«151095_j21028159881359_1_alg».proof.Proof.Gen.KernelIdeal.Points
import proofs.«151095_j21028159881359_1_alg».proof.Proof.Gen.KernelIdeal.Regions
import proofs.«151095_j21028159881359_1_alg».proof.Proof.RegionChamfer
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run of @main: host lines, the chamfer kernel, host lines, the masked-sums kernel, host lines.
    The unscoped buffers' contents at each boundary are a fold from the launch memory: a stretch of host lines applies its
    operations; a kernel region leaves its windows' arrays at what its write-backs leave and every other buffer as entered. -/

variable (m : (ℓ : Loc nD τ sig) → Buf (Elt F) ℓ)

/-- Core `c`'s buffers at launch. -/
abbrev W0 : Dev nD → Valuation τ sig (Elt F) := fun c b => m (c, b)
/-- After the first host stretch: what the chamfer kernel is entered with. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the chamfer kernel. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second host stretch: what the masked-sums kernel is entered with. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the masked-sums kernel. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last host stretch: what the program returns with. -/
abbrev W5 : Dev nD → Valuation τ sig (Elt F) := fun c => StableHlo.after hostOps2 (W4 m c)

/-! ## No line and no region writes an argument -/

/-- An unscoped buffer that no host line of the three stretches writes and that is no output array of either kernel
    ends holding its launch contents. -/
theorem W5_kept (c : Dev nD) (r : Ref sig .tc) (h0 : r ∉ hostOps0_W) (h1 : r ∉ hostOps1_W) (h2 : r ∉ hostOps2_W)
    (hk0 : ∀ w, Pipeline.arrRef spec0 w ≠ r) (hk1 : ∀ w, Pipeline.arrRef spec1 w ≠ r) :
    W5 m c (Proc.devRef .tc r) = m ((c : Thread nD τ).loc r) :=
  (StableHlo.after_of_writes_sub hostOps2 _ hostOps2_writes h2).trans <|
    (W4_of_ne m c r hk1).trans <| (StableHlo.after_of_writes_sub hostOps1 _ hostOps1_writes h1).trans <|
      (W2_of_ne m c r hk0).trans <| (StableHlo.after_of_writes_sub hostOps0 _ hostOps0_writes h0).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A stretch of host lines as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the final contents, the generator register at some state. -/
abbrev Tend (c : Dev nD) : sProp 𝕄 := iprop(StableHlo.held (c : Thread nD τ) (Pipeline.ucRefs τ sig) (W5 m c) ∗ ∃ r, prngReg c r)

/-- After the last point the chamfer kernel's invariant gives back the scoped buffers it was handed and the generator register. -/
theorem hout0u (c : Dev nD) : (dat0 (V1 m) c).Φ (Fin.last cfg0.N)
    ⊢ iprop(Pipeline.scopedRest (Ix := Unit) (Name := ℕ) (U := UR sig nD τ) (Lvl := ℕ) (Val := Elt F) spec0 c ∗ ∃ r, prngReg c r) :=
  hout0 (V1 m) c

/-! ## The two regions as segments -/

set_option backward.isDefEq.respectTransparency.types false in
/-- The region of pallas_call 0 over the thread state: entered with every unscoped buffer at `W1`, left with
    them at `W2`. Its windows' arrays are split out of the unscoped buffers on entry and put back, at what the
    write-backs leave, on exit; the generator register goes into the region invariant and comes back; nothing is owed and
    the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = (dat0 (V1 m) c).Φ (Fin.last cfg0.N) from rfl]
    have hback := hout0u m c
    iintro H
    ihave H' := hback $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of pallas_call 1 over the thread state: entered with every unscoped buffer at `W3`, left with
    them at `W4`. Its windows' arrays are split out of the unscoped buffers on entry and put back, at what the
    write-backs leave, on exit; the generator register goes into the region invariant and comes back; nothing is owed and
    the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN. From any memory with zero counters, every weakly fair execution of @main terminates, nothing faulting, and in
    every final state each unscoped buffer of every core holds the final contents `W5`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tend m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_kept m c main_arg0 (by decide) (by decide) (by decide) (by decide) (by decide)),
     (h c _ (mem_uc main_arg1 (by decide))).trans (W5_kept m c main_arg1 (by decide) (by decide) (by decide) (by decide) (by decide)),
     (h c _ (mem_uc main_arg2 (by decide))).trans (W5_kept m c main_arg2 (by decide) (by decide) (by decide) (by decide) (by decide)),
     (h c _ (mem_uc main_arg3 (by decide))).trans (W5_kept m c main_arg3 (by decide) (by decide) (by decide) (by decide) (by decide))⟩)
    (run_all m ρ)

end Cert.KernelIdeal.Hand

end
-- ==== Proof.ArrayPosts.lean ====
import proofs.«151095_j21028159881359_1_alg».proof.Proof.Gen.KernelIdeal.Launch
import proofs.«151095_j21028159881359_1_alg».proof.Proof.Gen.KernelIdeal.Skeleton
import proofs.«151095_j21028159881359_1_alg».proof.Proof.Gen.KernelIdeal.Points
import proofs.«151095_j21028159881359_1_alg».proof.Proof.Gen.KernelIdeal.Regions
import proofs.«151095_j21028159881359_1_alg».proof.Proof.RegionChamfer
import Idealize.ShloMosaic.Lib.Pipeline.FrameBody
import Idealize.ShloMosaic.Lib.Pipeline.Value
import Idealize.ShloMosaic.Lib.ValueIdx
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the two kernels leave in their result arrays, and what their windows read.
    Every window but the chamfer kernel's target window is the whole array as one block; the target window's block at
    point `t` is columns `1024·t … 1024·t + 1023`. Each result array is written back once, whole, at the last point. -/

section AtEntry

variable (V : (c : Dev nD) → (b : Ref sig .tc) → Buf (Elt F) ((c : Thread nD τ).loc b))

/-- The printed index maps, decided over the grids. -/
theorem idx1_facts : ∀ t : Fin cfg1.N,
    win1_0.index t (0 : Fin 2) = 0 ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0 ∧ win1_3.index t (0 : Fin 2) = 0 ∧ win1_3.index t (1 : Fin 2) = 0
    ∧ win1_4.index t (0 : Fin 2) = 0 ∧ win1_4.index t (1 : Fin 2) = 0 ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)
theorem idx0_facts : ∀ t : Fin cfg0.N,
    win0_0.index t (0 : Fin 2) = 0 ∧ win0_0.index t (1 : Fin 2) = 0 ∧ win0_1.index t (0 : Fin 2) = 0 ∧ win0_1.index t (1 : Fin 2) = t.val
    ∧ win0_2.index t (0 : Fin 2) = 0 ∧ win0_2.index t (1 : Fin 2) = 0 :=
  (by decide +kernel : ∀ t : Fin grid0.N, _)

/-! ## The input blocks -/

theorem iblk1_0 (c : Dev nD) (t : Fin cfg1.N) : iblk1 V c 0 t = V c main_v6 := by
  obtain ⟨e0, e1, -⟩ := idx1_facts t
  funext j
  show V c main_v6 (((cfg1.win 0).blk t).view.emb j) = V c main_v6 j
  refine congrArg _ (funext fun a => Fin.ext ?_)
  match a with
  | ⟨0, _⟩ => show win1_0.index t (0 : Fin 2) * 8 + 1 * (j 0).val = (j 0).val; omega
  | ⟨1, _⟩ => show win1_0.index t (1 : Fin 2) * 76800 + 1 * (j 1).val = (j 1).val; omega
theorem iblk1_1 (c : Dev nD) (t : Fin cfg1.N) : iblk1 V c 1 t = V c main_v5 := by
  obtain ⟨-, -, e0, e1, -⟩ := idx1_facts t
  funext j
  show V c main_v5 (((cfg1.win 1).blk t).view.emb j) = V c main_v5 j
  refine congrArg _ (funext fun a => Fin.ext ?_)
  match a with
  | ⟨0, _⟩ => show win1_1.index t (0 : Fin 2) * 8 + 1 * (j 0).val = (j 0).val; omega
  | ⟨1, _⟩ => show win1_1.index t (1 : Fin 2) * 76800 + 1 * (j 1).val = (j 1).val; omega
theorem iblk1_2 (c : Dev nD) (t : Fin cfg1.N) : iblk1 V c 2 t = V c main_v8 := by
  obtain ⟨-, -, -, -, e0, e1, -⟩ := idx1_facts t
  funext j
  show V c main_v8 (((cfg1.win 2).blk t).view.emb j) = V c main_v8 j
  refine congrArg _ (funext fun a => Fin.ext ?_)
  match a with
  | ⟨0, _⟩ => show win1_2.index t (0 : Fin 2) * 8 + 1 * (j 0).val = (j 0).val; omega
  | ⟨1, _⟩ => show win1_2.index t (1 : Fin 2) * 76800 + 1 * (j 1).val = (j 1).val; omega
theorem iblk0_0 (c : Dev nD) (t : Fin cfg0.N) : iblk0 V c 0 t = V c main_v4 := by
  obtain ⟨e0, e1, -⟩ := idx0_facts t
  funext j
  show V c main_v4 (((cfg0.win 0).blk t).view.emb j) = V c main_v4 j
  refine congrArg _ (funext fun a => Fin.ext ?_)
  match a with
  | ⟨0, _⟩ => show win0_0.index t (0 : Fin 2) * 8 + 1 * (j 0).val = (j 0).val; omega
  | ⟨1, _⟩ => show win0_0.index t (1 : Fin 2) * 256 + 1 * (j 1).val = (j 1).val; omega
/-- The target chunk at point `t`, entry by entry. -/
theorem iblk0_1_apply (c : Dev nD) (t : Fin cfg0.N) (b : Fin 8) (j : Fin 1024) :
    iblk0 V c 1 t (ValueIdx.ix2 b j) = V c main_v5 (ValueIdx.ix2 b (⟨1024 * t.val + j.val, by have := t.isLt; have : cfg0.N = 75 := N_0; have := j.isLt; omega⟩ : Fin 76800)) := by
  obtain ⟨-, -, e0, e1, -⟩ := idx0_facts t
  show V c main_v5 (((cfg0.win 1).blk t).view.emb (ValueIdx.ix2 b j)) = V c main_v5 _
  refine congrArg _ (funext fun a => Fin.ext ?_)
  match a with
  | ⟨0, _⟩ => show win0_1.index t (0 : Fin 2) * 8 + 1 * b.val = b.val; omega
  | ⟨1, _⟩ => show win0_1.index t (1 : Fin 2) * 1024 + 1 * j.val = 1024 * t.val + j.val; omega

/-! ## The result arrays -/

theorem mem_blk1_3 (t : Fin cfg1.N) (i : S8x128.Idx) :
    i ∈ ((cfg1.win 3).blk t).view.set ↔ ∀ a : Fin 2, win1_3.index t a * S8x128.size a ≤ (i a).val ∧ (i a).val < win1_3.index t a * S8x128.size a + S8x128.size a := by
  show i ∈ ((View.whole main_v14_0).slice (win1_3.rect t)).set ↔ _
  rw [View.set_slice_whole, Rect.mem_set_unit]
  exact Iff.rfl

/-- Result array 0 of the masked-sums kernel ends holding its payload of the three whole input arrays. -/
theorem arr1_3 (c : Dev nD) : (dat1 V c).arrAt 3 cfg1.N = k1_pay5 (V c main_v6) (V c main_v5) (V c main_v8) := by
  refine (dat1 V c).arrAt_eq_of_cover 3 _ (fun t _ => ?_) (fun i => ⟨t1_0, flush1_3 t1_0, ?_⟩)
  · show (cfg1.win 3).cut (grid1.coords t) ((dat1 V c).after 3 t) = _
    rw [after1_3, iblk1_0, iblk1_1, iblk1_2]
    have e := idx1_facts t
    funext j
    show (k1_pay5 (V c main_v6) (V c main_v5) (V c main_v8)) j = (k1_pay5 (V c main_v6) (V c main_v5) (V c main_v8)) (((cfg1.win 3).blk t).view.emb j)
    refine congrArg _ (funext fun a => Fin.ext ?_).symm
    match a with
    | ⟨0, _⟩ => show win1_3.index t (0 : Fin 2) * 8 + 1 * (j 0).val = (j 0).val; omega
    | ⟨1, _⟩ => show win1_3.index t (1 : Fin 2) * 128 + 1 * (j 1).val = (j 1).val; omega
  · rw [mem_blk1_3]
    have e := idx1_facts t1_0
    intro a
    match a with
    | ⟨0, _⟩ => show win1_3.index t1_0 (0 : Fin 2) * 8 ≤ (i 0).val ∧ (i 0).val < win1_3.index t1_0 (0 : Fin 2) * 8 + 8; have h0 : (i 0).val < 8 := (i 0).isLt; omega
    | ⟨1, _⟩ => show win1_3.index t1_0 (1 : Fin 2) * 128 ≤ (i 1).val ∧ (i 1).val < win1_3.index t1_0 (1 : Fin 2) * 128 + 128; have h1 : (i 1).val < 128 := (i 1).isLt; omega

theorem mem_blk1_4 (t : Fin cfg1.N) (i : S8x128.Idx) :
    i ∈ ((cfg1.win 4).blk t).view.set ↔ ∀ a : Fin 2, win1_4.index t a * S8x128.size a ≤ (i a).val ∧ (i a).val < win1_4.index t a * S8x128.size a + S8x128.size a := by
  show i ∈ ((View.whole main_v14_1).slice (win1_4.rect t)).set ↔ _
  rw [View.set_slice_whole, Rect.mem_set_unit]
  exact Iff.rfl

/-- Result array 1 of the masked-sums kernel ends holding its payload of the three whole input arrays. -/
theorem arr1_4 (c : Dev nD) : (dat1 V c).arrAt 4 cfg1.N = k1_pay6 (V c main_v8) := by
  refine (dat1 V c).arrAt_eq_of_cover 4 _ (fun t _ => ?_) (fun i => ⟨t1_0, flush1_4 t1_0, ?_⟩)
  · show (cfg1.win 4).cut (grid1.coords t) ((dat1 V c).after 4 t) = _
    rw [after1_4, iblk1_2]
    have e := idx1_facts t
    funext j
    show (k1_pay6 (V c main_v8)) j = (k1_pay6 (V c main_v8)) (((cfg1.win 4).blk t).view.emb j)
    refine congrArg _ (funext fun a => Fin.ext ?_).symm
    match a with
    | ⟨0, _⟩ => show win1_4.index t (0 : Fin 2) * 8 + 1 * (j 0).val = (j 0).val; omega
    | ⟨1, _⟩ => show win1_4.index t (1 : Fin 2) * 128 + 1 * (j 1).val = (j 1).val; omega
  · rw [mem_blk1_4]
    have e := idx1_facts t1_0
    intro a
    match a with
    | ⟨0, _⟩ => show win1_4.index t1_0 (0 : Fin 2) * 8 ≤ (i 0).val ∧ (i 0).val < win1_4.index t1_0 (0 : Fin 2) * 8 + 8; have h0 : (i 0).val < 8 := (i 0).isLt; omega
    | ⟨1, _⟩ => show win1_4.index t1_0 (1 : Fin 2) * 128 ≤ (i 1).val ∧ (i 1).val < win1_4.index t1_0 (1 : Fin 2) * 128 + 128; have h1 : (i 1).val < 128 := (i 1).isLt; omega

theorem mem_blk1_5 (t : Fin cfg1.N) (i : S8x128.Idx) :
    i ∈ ((cfg1.win 5).blk t).view.set ↔ ∀ a : Fin 2, win1_5.index t a * S8x128.size a ≤ (i a).val ∧ (i a).val < win1_5.index t a * S8x128.size a + S8x128.size a := by
  show i ∈ ((View.whole main_v14_2).slice (win1_5.rect t)).set ↔ _
  rw [View.set_slice_whole, Rect.mem_set_unit]
  exact Iff.rfl

/-- Result array 2 of the masked-sums kernel ends holding its payload of the three whole input arrays. -/
theorem arr1_5 (c : Dev nD) : (dat1 V c).arrAt 5 cfg1.N = k1_pay7 (V c main_v6) (V c main_v5) (V c main_v8) := by
  refine (dat1 V c).arrAt_eq_of_cover 5 _ (fun t _ => ?_) (fun i => ⟨t1_0, flush1_5 t1_0, ?_⟩)
  · show (cfg1.win 5).cut (grid1.coords t) ((dat1 V c).after 5 t) = _
    rw [after1_5, iblk1_0, iblk1_1, iblk1_2]
    have e := idx1_facts t
    funext j
    show (k1_pay7 (V c main_v6) (V c main_v5) (V c main_v8)) j = (k1_pay7 (V c main_v6) (V c main_v5) (V c main_v8)) (((cfg1.win 5).blk t).view.emb j)
    refine congrArg _ (funext fun a => Fin.ext ?_).symm
    match a with
    | ⟨0, _⟩ => show win1_5.index t (0 : Fin 2) * 8 + 1 * (j 0).val = (j 0).val; omega
    | ⟨1, _⟩ => show win1_5.index t (1 : Fin 2) * 128 + 1 * (j 1).val = (j 1).val; omega
  · rw [mem_blk1_5]
    have e := idx1_facts t1_0
    intro a
    match a with
    | ⟨0, _⟩ => show win1_5.index t1_0 (0 : Fin 2) * 8 ≤ (i 0).val ∧ (i 0).val < win1_5.index t1_0 (0 : Fin 2) * 8 + 8; have h0 : (i 0).val < 8 := (i 0).isLt; omega
    | ⟨1, _⟩ => show win1_5.index t1_0 (1 : Fin 2) * 128 ≤ (i 1).val ∧ (i 1).val < win1_5.index t1_0 (1 : Fin 2) * 128 + 128; have h1 : (i 1).val < 128 := (i 1).isLt; omega

theorem mem_blk1_6 (t : Fin cfg1.N) (i : S8x128.Idx) :
    i ∈ ((cfg1.win 6).blk t).view.set ↔ ∀ a : Fin 2, win1_6.index t a * S8x128.size a ≤ (i a).val ∧ (i a).val < win1_6.index t a * S8x128.size a + S8x128.size a := by
  show i ∈ ((View.whole main_v14_3).slice (win1_6.rect t)).set ↔ _
  rw [View.set_slice_whole, Rect.mem_set_unit]
  exact Iff.rfl

/-- Result array 3 of the masked-sums kernel ends holding its payload of the three whole input arrays. -/
theorem arr1_6 (c : Dev nD) : (dat1 V c).arrAt 6 cfg1.N = k1_pay8 (V c main_v6) (V c main_v5) (V c main_v8) := by
  refine (dat1 V c).arrAt_eq_of_cover 6 _ (fun t _ => ?_) (fun i => ⟨t1_0, flush1_6 t1_0, ?_⟩)
  · show (cfg1.win 6).cut (grid1.coords t) ((dat1 V c).after 6 t) = _
    rw [after1_6, iblk1_0, iblk1_1, iblk1_2]
    have e := idx1_facts t
    funext j
    show (k1_pay8 (V c main_v6) (V c main_v5) (V c main_v8)) j = (k1_pay8 (V c main_v6) (V c main_v5) (V c main_v8)) (((cfg1.win 6).blk t).view.emb j)
    refine congrArg _ (funext fun a => Fin.ext ?_).symm
    match a with
    | ⟨0, _⟩ => show win1_6.index t (0 : Fin 2) * 8 + 1 * (j 0).val = (j 0).val; omega
    | ⟨1, _⟩ => show win1_6.index t (1 : Fin 2) * 128 + 1 * (j 1).val = (j 1).val; omega
  · rw [mem_blk1_6]
    have e := idx1_facts t1_0
    intro a
    match a with
    | ⟨0, _⟩ => show win1_6.index t1_0 (0 : Fin 2) * 8 ≤ (i 0).val ∧ (i 0).val < win1_6.index t1_0 (0 : Fin 2) * 8 + 8; have h0 : (i 0).val < 8 := (i 0).isLt; omega
    | ⟨1, _⟩ => show win1_6.index t1_0 (1 : Fin 2) * 128 ≤ (i 1).val ∧ (i 1).val < win1_6.index t1_0 (1 : Fin 2) * 128 + 128; have h1 : (i 1).val < 128 := (i 1).isLt; omega

/-- The last grid point of the chamfer kernel. -/
abbrev tLast : Fin cfg0.N := ⟨74, by decide⟩

theorem mem_blk0_2 (t : Fin cfg0.N) (i : S8x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v9).slice (win0_2.rect t)).set ↔ _
  rw [View.set_slice_whole, Rect.mem_set_unit]
  exact Iff.rfl

/-- The chamfer kernel's result array ends holding what the last point stores: the result read off the two scratch
    buffers' contents after that point. -/
theorem arr0_2 (c : Dev nD) : (dat0 V c).arrAt 2 cfg0.N = k0_pay6 (sMin V c 74) (View.ld (sSum V c 74) rCol) := by
  refine (dat0 V c).arrAt_eq_of_cover 2 _ (fun t ht => ?_) (fun i => ⟨tLast, (flush0_2 tLast).mpr (by decide), ?_⟩)
  · have h74 : t.val = 74 := by
      have := (flush0_2 t).mp ht; have : t.val < 75 := lt_of_lt_of_eq t.isLt N_0; omega
    show (cfg0.win 2).cut (grid0.coords t) ((dat0 V c).after 2 t) = _
    rw [after0_2, h74]
    have e := idx0_facts t
    funext j
    show (k0_pay6 (sMin V c 74) (View.ld (sSum V c 74) rCol)) j = (k0_pay6 (sMin V c 74) (View.ld (sSum V c 74) rCol)) (((cfg0.win 2).blk t).view.emb j)
    refine congrArg _ (funext fun a => Fin.ext ?_).symm
    match a with
    | ⟨0, _⟩ => show win0_2.index t (0 : Fin 2) * 8 + 1 * (j 0).val = (j 0).val; omega
    | ⟨1, _⟩ => show win0_2.index t (1 : Fin 2) * 128 + 1 * (j 1).val = (j 1).val; omega
  · rw [mem_blk0_2]
    have e := idx0_facts tLast
    intro a
    match a with
    | ⟨0, _⟩ => show win0_2.index tLast (0 : Fin 2) * 8 ≤ (i 0).val ∧ (i 0).val < win0_2.index tLast (0 : Fin 2) * 8 + 8; have h0 : (i 0).val < 8 := (i 0).isLt; omega
    | ⟨1, _⟩ => show win0_2.index tLast (1 : Fin 2) * 128 ≤ (i 1).val ∧ (i 1).val < win0_2.index tLast (1 : Fin 2) * 128 + 128; have h1 : (i 1).val < 128 := (i 1).isLt; omega

end AtEntry

end Cert.KernelIdeal.Hand

end
-- ==== Proof.Spec.lean ====
/-
  The loss both programs compute, written once over the extended reals.

  Inputs: a prediction and a target image batch (8 images of 240 × 320 pixels, one channel), 257 bin edges
  per image, and a Boolean mask per pixel. Per image the 256 bin centres are the midpoints of consecutive
  edges. The loss is the sum of three terms:
  * the chamfer term: per image, the sum over centres of the least squared distance to a target pixel plus
    the sum over target pixels of the least squared distance to a centre; averaged over the 8 images;
  * the root of the masked mean squared error;
  * ten times the root of (masked mean of d²) − 0.85 · (masked mean of d)², d the difference of the logs of
    prediction + ε and target + ε.
  The four masked sums and the chamfer sum are stated as plain finite sums and infima; the scalar tail that
  combines them is one function, shared by the two programs.
-/
import Idealize.ShloMosaic.PureOps.Ideal
import Idealize.ShloMosaic.Lib.ValueIdx

noncomputable section

namespace Cert.Spec

open Idealize.ShloMosaic Idealize.ShloMosaic.ValueIdx

/-- The image batch's shape, the edges' shape, the scalar shape. -/
abbrev A4 : Shape := ⟨4, ![8, 1, 240, 320]⟩
abbrev A2 : Shape := ⟨2, ![8, 257]⟩
abbrev S0 : Shape := ⟨0, ![]⟩

/-- Pixel `n` (row-major over 240 × 320) of image `b`. -/
def pix (b : Fin 8) (n : Fin 76800) : A4.Idx :=
  ix4 b (0 : Fin 1) (⟨n.val / 320, by have := n.isLt; omega⟩ : Fin 240) (⟨n.val % 320, Nat.mod_lt _ (by decide)⟩ : Fin 320)

/-- An image batch read pixel by pixel. -/
def img (x : A4.Idx → EReal) (b : Fin 8) (n : Fin 76800) : EReal := x (pix b n)

/-- The mask as a float, pixel by pixel. -/
def maskf (x3 : A4.Idx → BitVec 1) (b : Fin 8) (n : Fin 76800) : EReal := FloatOps.uitofp (F := Ideal) .f32 (x3 (pix b n))

/-- Bin centre `i` of image `b`: half the sum of edges `i` and `i + 1`. -/
def centre (x2 : A2.Idx → EReal) (b : Fin 8) (i : Fin 256) : EReal :=
  Ideal.ofBits .f32 0x3F000000#32
    * (x2 (ix2 b (⟨i.val, by have := i.isLt; omega⟩ : Fin 257)) + x2 (ix2 b (⟨i.val + 1, by have := i.isLt; omega⟩ : Fin 257)))

/-- The squared difference. -/
def sqd (x y : EReal) : EReal := (x - y) * (x - y)

/-- The squared difference does not depend on the order of its arguments, infinite ones included. -/
theorem sqd_comm (x y : EReal) : sqd x y = sqd y x := by
  unfold sqd
  by_cases h : (x ≠ ⊥ ∨ y ≠ ⊥) ∧ (x ≠ ⊤ ∨ y ≠ ⊤)
  · have e : y - x = -(x - y) := by rw [EReal.neg_sub h.1 h.2, sub_eq_add_neg, add_comm]
    rw [e, neg_mul_neg]
  · have h' : (x = ⊥ ∧ y = ⊥) ∨ (x = ⊤ ∧ y = ⊤) := by
      by_contra hc
      apply h
      constructor
      · by_contra h1; exact hc (Or.inl ⟨not_not.mp fun hx => h1 (Or.inl hx), not_not.mp fun hy => h1 (Or.inr hy)⟩)
      · by_contra h2; exact hc (Or.inr ⟨not_not.mp fun hx => h2 (Or.inl hx), not_not.mp fun hy => h2 (Or.inr hy)⟩)
    rcases h' with ⟨rfl, rfl⟩ | ⟨rfl, rfl⟩ <;> rfl

/-- The least squared distance from centre `i` to a target pixel of image `b`. -/
def rowMin (bc : Fin 8 → Fin 256 → EReal) (tg : Fin 8 → Fin 76800 → EReal) (b : Fin 8) (i : Fin 256) : EReal :=
  Finset.univ.inf fun j : Fin 76800 => sqd (bc b i) (tg b j)

/-- The least squared distance from target pixel `j` of image `b` to a centre. -/
def colMin (bc : Fin 8 → Fin 256 → EReal) (tg : Fin 8 → Fin 76800 → EReal) (b : Fin 8) (j : Fin 76800) : EReal :=
  Finset.univ.inf fun i : Fin 256 => sqd (bc b i) (tg b j)

/-- Image `b`'s chamfer distance. -/
def chamRow (bc : Fin 8 → Fin 256 → EReal) (tg : Fin 8 → Fin 76800 → EReal) (b : Fin 8) : EReal :=
  (∑ i : Fin 256, rowMin bc tg b i) + ∑ j : Fin 76800, colMin bc tg b j

/-- The chamfer distances summed over the batch. -/
def chamSum (bc : Fin 8 → Fin 256 → EReal) (tg : Fin 8 → Fin 76800 → EReal) : EReal := ∑ b : Fin 8, chamRow bc tg b

/-- ε = 1e-10 as the program spells it. -/
def eps : EReal := Ideal.ofBits .f32 0x2EDBE6FF#32

/-- The log difference at a pixel. -/
def dlog (p t : Fin 8 → Fin 76800 → EReal) (b : Fin 8) (n : Fin 76800) : EReal :=
  Ideal.log (p b n + eps) - Ideal.log (t b n + eps)

/-- The four masked sums. -/
def sumSq (p t mk : Fin 8 → Fin 76800 → EReal) : EReal := ∑ b : Fin 8, ∑ n : Fin 76800, (p b n - t b n) * (p b n - t b n) * mk b n
def sumCnt (mk : Fin 8 → Fin 76800 → EReal) : EReal := ∑ b : Fin 8, ∑ n : Fin 76800, mk b n
def sumD (p t mk : Fin 8 → Fin 76800 → EReal) : EReal := ∑ b : Fin 8, ∑ n : Fin 76800, dlog p t b n * mk b n
def sumD2 (p t mk : Fin 8 → Fin 76800 → EReal) : EReal := ∑ b : Fin 8, ∑ n : Fin 76800, dlog p t b n * dlog p t b n * mk b n

/-- The scalar tail, on rank-0 tensors: from the four masked sums and the chamfer sum to the loss,
    operation by operation as both programs apply it. -/
def tail (sq cnt d d2 cham : FVec Ideal S0 .f32) : FVec Ideal S0 .f32 :=
  addf
    (addf
      (mulf (constant (F := Ideal) S0 .f32 0x3F800000#32) (Host.sqrt (F := Ideal) (Host.divf (F := Ideal) sq cnt)))
      (mulf (constant (F := Ideal) S0 .f32 0x3F800000#32)
        (mulf (constant (F := Ideal) S0 .f32 0x41200000#32)
          (Host.sqrt (F := Ideal)
            (subf (Host.divf (F := Ideal) d2 cnt)
              (mulf (constant (F := Ideal) S0 .f32 0x3F59999A#32)
                (mulf (Host.divf (F := Ideal) d cnt) (Host.divf (F := Ideal) d cnt))))))))
    (mulf (constant (F := Ideal) S0 .f32 0x3F800000#32)
      (Host.divf (F := Ideal) cham (constant (F := Ideal) S0 .f32 0x41000000#32)))

/-- The loss as a function of the four argument arrays. -/
def loss (x0 x1 : A4.Idx → EReal) (x2 : A2.Idx → EReal) (x3 : A4.Idx → BitVec 1) : FVec Ideal S0 .f32 :=
  tail (fun _ => sumSq (img x0) (img x1) (maskf x3)) (fun _ => sumCnt (maskf x3))
    (fun _ => sumD (img x0) (img x1) (maskf x3)) (fun _ => sumD2 (img x0) (img x1) (maskf x3))
    (fun _ => chamSum (centre x2) (img x1))

end Cert.Spec

end
-- ==== Proof.HostIn.lean ====
/-
  The host lines of the kernel program that precede its first call, read at an index.

  The bin centres are half the sum of two slices of the edges, shifted by one; the three image-shaped arguments
  are flattened per image in row-major order, and the mask is then converted to a float. Each is the
  specification's function of the argument arrays.
-/
import proofs.«151095_j21028159881359_1_alg».proof.Proof.Gen.KernelIdeal
import proofs.«151095_j21028159881359_1_alg».proof.Proof.Spec
import Idealize.ShloMosaic.Lib.Pipeline.Value
import Idealize.ShloMosaic.Lib.ValueIdx

noncomputable section

namespace Cert.HostIn

open Idealize.ShloMosaic Idealize.ShloMosaic.ValueIdx
open Cert.KernelIdeal Cert.KernelIdeal.Gen

/-- The first slice of the edges at `(b, i)` is edge `i`. -/
theorem lo_apply (x2 : (⟨S8x257, .f32⟩ : BufTy).Contents (Elt Ideal)) (h : S8x257.Slices ![0, 0] S8x256) (b : Fin 8) (i : Fin 256) :
    extractStridedSlice S8x256 ![0, 0] x2 h (ix2 b i) = x2 (ix2 b (⟨i.val, by have := i.isLt; omega⟩ : Fin 257)) :=
  extractStridedSlice_apply ![0, 0] x2 h (ix2 b i) (ix2 b (⟨i.val, by have := i.isLt; omega⟩ : Fin 257))
    (fun a => match a with
      | ⟨0, _⟩ => by show b.val = 0 + b.val; omega
      | ⟨1, _⟩ => by show i.val = 0 + i.val; omega)

/-- The second slice of the edges at `(b, i)` is edge `i + 1`. -/
theorem hi_apply (x2 : (⟨S8x257, .f32⟩ : BufTy).Contents (Elt Ideal)) (h : S8x257.Slices ![0, 1] S8x256) (b : Fin 8) (i : Fin 256) :
    extractStridedSlice S8x256 ![0, 1] x2 h (ix2 b i) = x2 (ix2 b (⟨i.val + 1, by have := i.isLt; omega⟩ : Fin 257)) :=
  extractStridedSlice_apply ![0, 1] x2 h (ix2 b i) (ix2 b (⟨i.val + 1, by have := i.isLt; omega⟩ : Fin 257))
    (fun a => match a with
      | ⟨0, _⟩ => by show b.val = 0 + b.val; omega
      | ⟨1, _⟩ => by show i.val + 1 = 1 + i.val; omega)

/-- The centres, for any proofs of the three side conditions. -/
theorem centres_apply' (x2 : (⟨S8x257, .f32⟩ : BufTy).Contents (Elt Ideal))
    (hb : S_.BroadcastsInDim S8x256 (![] : Fin 0 → Fin S8x256.rank))
    (h0 : S8x257.Slices ![0, 0] S8x256) (h1 : S8x257.Slices ![0, 1] S8x256) (b : Fin 8) (i : Fin 256) :
    (mulf (broadcastInDim S8x256 ![] hb (constant (F := Ideal) S_ .f32 0x3F000000#32))
        (addf (extractStridedSlice S8x256 ![0, 0] x2 h0) (extractStridedSlice S8x256 ![0, 1] x2 h1)) : FVec Ideal S8x256 .f32) (ix2 b i)
      = Cert.Spec.centre x2 b i := by
  rw [mulf_apply, addf_apply, lo_apply, hi_apply,
    broadcastInDim_apply ![] hb (constant (F := Ideal) S_ .f32 0x3F000000#32) (ix2 b i) ix0 (fun a => a.elim0), constant_apply]
  rfl

/-- The centres at `(b, i)`. -/
theorem centres_apply (x2 : (⟨S8x257, .f32⟩ : BufTy).Contents (Elt Ideal)) (b : Fin 8) (i : Fin 256) :
    (mulf (broadcastInDim S8x256 ![] bcast_S_S8x256 (constant (F := Ideal) S_ .f32 0x3F000000#32))
        (addf (extractStridedSlice S8x256 ![0, 0] x2 slices_S8x257_S8x256_0_0) (extractStridedSlice S8x256 ![0, 1] x2 slices_S8x257_S8x256_0_1)) : FVec Ideal S8x256 .f32) (ix2 b i)
      = Cert.Spec.centre x2 b i :=
  centres_apply' x2 _ _ _ b i

/-- Pixel `n` of image `b` has the row-major position `b · 76800 + n` in the batch. -/
theorem pix_rowMajor (b : Fin 8) (n : Fin 76800) :
    (S8x1x240x320.rowMajor (Cert.Spec.pix b n)).val = (S8x76800.rowMajor (ix2 b n)).val := by
  rw [Shape.rowMajor_val_four, Shape.rowMajor_val_two]
  show ((b.val * 1 + 0) * 240 + n.val / 320) * 320 + n.val % 320 = b.val * 76800 + n.val
  have := n.isLt
  omega

/-- A flattened array at `(b, n)` is the array at pixel `n` of image `b`, whatever the element type. -/
theorem flat_apply' {α : Type} (x : S8x1x240x320.Idx → α) (h : S8x1x240x320.ShapeCasts S8x76800) (b : Fin 8) (n : Fin 76800) :
    shapeCast S8x76800 x h (ix2 b n) = x (Cert.Spec.pix b n) :=
  shapeCast_apply x h (ix2 b n) (Cert.Spec.pix b n) (pix_rowMajor b n)

/-- A flattened image batch at `(b, n)`. -/
theorem flat_apply (x : (⟨S8x1x240x320, .f32⟩ : BufTy).Contents (Elt Ideal)) (b : Fin 8) (n : Fin 76800) :
    shapeCast S8x76800 x shapeCasts_S8x1x240x320_S8x76800 (ix2 b n) = Cert.Spec.img x b n :=
  flat_apply' x _ b n

/-- The flattened mask as a float at `(b, n)`, for any proof of the side condition. -/
theorem flat_mask_apply' (x3 : (⟨S8x1x240x320, .i1⟩ : BufTy).Contents (Elt Ideal)) (h : S8x1x240x320.ShapeCasts S8x76800) (b : Fin 8) (n : Fin 76800) :
    (uitofp .f32 (shapeCast S8x76800 x3 h) : FVec Ideal S8x76800 .f32) (ix2 b n) = Cert.Spec.maskf x3 b n := by
  show FloatOps.uitofp (F := Ideal) .f32 (shapeCast S8x76800 x3 h (ix2 b n)) = _
  rw [flat_apply' x3 h b n]
  rfl

/-- The flattened mask as a float at `(b, n)`. -/
theorem flat_mask_apply (x3 : (⟨S8x1x240x320, .i1⟩ : BufTy).Contents (Elt Ideal)) (b : Fin 8) (n : Fin 76800) :
    (uitofp .f32 (shapeCast S8x76800 x3 shapeCasts_S8x1x240x320_S8x76800) : FVec Ideal S8x76800 .f32) (ix2 b n) = Cert.Spec.maskf x3 b n :=
  flat_mask_apply' x3 _ b n

end Cert.HostIn

end
-- ==== Proof.MathHostSum.lean ====
/-
  The host lines after each kernel call take column 0 of an 8 × 128 result, read it as a vector of 8 numbers
  and sum it from zero. If column 0 of the result holds f(b) in row b, the outcome is the sum of f over the
  8 rows.
-/
import proofs.«151095_j21028159881359_1_alg».proof.Proof.Gen.KernelIdeal.Skeleton
import proofs.«151095_j21028159881359_1_alg».proof.Proof.Fold
import proofs.«151095_j21028159881359_1_alg».proof.Proof.Spec
import Idealize.ShloMosaic.PureOps.Ideal.Laws
import Idealize.ShloMosaic.Lib.ValueIdx
import Idealize.ShloMosaic.Lib.Pipeline.Value

noncomputable section

namespace Cert.KernelMath

open Cert.KernelIdeal Cert.KernelIdeal.Gen Cert.KernelIdeal.Fold Idealize.ShloMosaic Idealize.ShloMosaic.ValueIdx

/-- The indices of a length-8 vector are its 8 coordinates. -/
def idxEquiv8 : S8.Idx ≃ Fin 8 where
  toFun i := i 0
  invFun k := ix1 k
  left_inv i := (eq_ix1 i).symm
  right_inv _ := rfl

/-- Column 0 of an 8 × 128 array, reshaped to length 8 and summed from zero, is the sum of the column. -/
theorem col0_sum (o : FVec Ideal S8x128 .f32) (f : Fin 8 → EReal) (ho : ∀ b : Fin 8, o (ix2 b (0 : Fin 128)) = f b) :
    Host.reduceAdd (F := Ideal) (shapeCast S8 (extractStridedSlice S8x1 ![0, 0] o slices_S8x128_S8x1_0_0) shapeCasts_S8x1_S8)
        (constant (F := Ideal) S_ .f32 0x00000000#32) reducesTo_S8_S_d0 h_S_
      = fun _ => ∑ b : Fin 8, f b := by
  funext j
  unfold Host.reduceAdd
  rw [Ideal.hostReduceAdd_def]
  refine (Ideal.hostReduceAdd_total reducesTo_S8_S_d0 (fun b => b.elim0) _ _ j).trans ?_
  rw [constant_apply, Ideal.ofBits_zero_f32, zero_add]
  refine (Fintype.sum_equiv idxEquiv8 _ f fun i => ?_)
  obtain ⟨k, rfl⟩ : ∃ k : Fin 8, i = ix1 k := ⟨i 0, eq_ix1 i⟩
  show _ = f k
  refine (shapeCast_apply _ shapeCasts_S8x1_S8 (ix1 k) (ix2 k (0 : Fin 1)) ?_).trans ?_
  · rw [Shape.rowMajor_val_two, Shape.rowMajor_val_one]; show k.val * 1 + 0 = k.val; omega
  refine (extractStridedSlice_apply ![0, 0] o slices_S8x128_S8x1_0_0 (ix2 k (0 : Fin 1)) (ix2 k (0 : Fin 128)) ?_).trans (ho k)
  intro a
  match a with
  | ⟨0, _⟩ => show k.val = 0 + k.val; omega
  | ⟨1, _⟩ => rfl

end Cert.KernelMath

end
-- ==== Proof.HostStages.lean ====
/-
  The host lines of the kernel program, stretch by stretch, as functions of the contents they start from.

  Before the first kernel call: the bin centres (half the sum of consecutive edges) and the three image-shaped
  arguments flattened per image, the mask converted to a float. Between the calls: column 0 of the first
  result summed over the 8 images and divided by 8. After the second call: column 0 of each of the four
  results summed over the 8 images, and the scalar tail that combines the four sums with the chamfer mean
  into the loss. Each stretch is read once as a pure term of the contents it starts from; the closing
  statement combines the leaves into the specification's loss.
-/
import proofs.«151095_j21028159881359_1_alg».proof.Proof.Gen.KernelIdeal.Launch
import proofs.«151095_j21028159881359_1_alg».proof.Proof.HostIn
import proofs.«151095_j21028159881359_1_alg».proof.Proof.MathHostSum
import proofs.«151095_j21028159881359_1_alg».proof.Proof.Spec
import Idealize.ShloMosaic.Lib.StableHlo.Run

noncomputable section

namespace Cert.HostStages

open Cert.KernelIdeal Cert.KernelIdeal.Gen Idealize.ShloMosaic Idealize.ShloMosaic.TcCoe Idealize.ShloMosaic.ValueIdx

/-! ## Before the first call -/

/-- The centres the first call reads, at (b, i). -/
theorem after0_v4 (m : (ℓ : Loc nD τ sig) → Buf (Elt Ideal) ℓ) (c : Dev nD) (b : Fin 8) (i : Fin 256) :
    StableHlo.after (hostOps0 (F := Ideal)) (fun b => m (c, b) : Valuation τ sig (Elt Ideal)) (Proc.devRef .tc main_v4) (ix2 b i)
      = Cert.Spec.centre (m ((c : Thread nD τ).loc main_arg2)) b i := by
  show StableHlo.after hostOps0 (fun b => m (c, b) : Valuation τ sig (Elt Ideal)) (Proc.devRef .tc main_v4) (ix2 b i) = _
  after_results
  exact Cert.HostIn.centres_apply _ b i

/-- The flattened target batch, at (b, n). -/
theorem after0_v5 (m : (ℓ : Loc nD τ sig) → Buf (Elt Ideal) ℓ) (c : Dev nD) (b : Fin 8) (n : Fin 76800) :
    StableHlo.after (hostOps0 (F := Ideal)) (fun b => m (c, b) : Valuation τ sig (Elt Ideal)) (Proc.devRef .tc main_v5) (ix2 b n)
      = Cert.Spec.img (m ((c : Thread nD τ).loc main_arg1)) b n := by
  show StableHlo.after hostOps0 (fun b => m (c, b) : Valuation τ sig (Elt Ideal)) (Proc.devRef .tc main_v5) (ix2 b n) = _
  after_results
  exact Cert.HostIn.flat_apply _ b n

/-- The flattened prediction batch, at (b, n). -/
theorem after0_v6 (m : (ℓ : Loc nD τ sig) → Buf (Elt Ideal) ℓ) (c : Dev nD) (b : Fin 8) (n : Fin 76800) :
    StableHlo.after (hostOps0 (F := Ideal)) (fun b => m (c, b) : Valuation τ sig (Elt Ideal)) (Proc.devRef .tc main_v6) (ix2 b n)
      = Cert.Spec.img (m ((c : Thread nD τ).loc main_arg0)) b n := by
  show StableHlo.after hostOps0 (fun b => m (c, b) : Valuation τ sig (Elt Ideal)) (Proc.devRef .tc main_v6) (ix2 b n) = _
  after_results
  exact Cert.HostIn.flat_apply _ b n

/-- The flattened mask as a float, at (b, n). -/
theorem after0_v8 (m : (ℓ : Loc nD τ sig) → Buf (Elt Ideal) ℓ) (c : Dev nD) (b : Fin 8) (n : Fin 76800) :
    StableHlo.after (hostOps0 (F := Ideal)) (fun b => m (c, b) : Valuation τ sig (Elt Ideal)) (Proc.devRef .tc main_v8) (ix2 b n)
      = Cert.Spec.maskf (m ((c : Thread nD τ).loc main_arg3)) b n := by
  show StableHlo.after hostOps0 (fun b => m (c, b) : Valuation τ sig (Elt Ideal)) (Proc.devRef .tc main_v8) (ix2 b n) = _
  after_results
  exact Cert.HostIn.flat_mask_apply _ b n

/-! ## Between and after the calls -/

/-- Column 0 of an 8 × 128 result, read as 8 numbers and summed from zero. -/
abbrev colsum (o : FVec Ideal S8x128 .f32) : FVec Ideal S_ .f32 :=
  Host.reduceAdd (F := Ideal) (shapeCast S8 (extractStridedSlice S8x1 ![0, 0] o slices_S8x128_S8x1_0_0) shapeCasts_S8x1_S8)
    (constant (F := Ideal) S_ .f32 0x00000000#32) reducesTo_S8_S_d0 h_S_

/-- Between the calls: the first result's column sum divided by 8. -/
theorem after1_v13 (W : Valuation τ sig (Elt Ideal)) :
    StableHlo.after (hostOps1 (F := Ideal)) W (Proc.devRef .tc main_v13)
      = Host.divf (F := Ideal) (colsum (W (Proc.devRef .tc main_v9))) (constant (F := Ideal) S_ .f32 0x41000000#32) := by
  show StableHlo.after hostOps1 W (Proc.devRef .tc main_v13) = _
  after_results
  rfl

/-- After the second call: the scalar tail of the four column sums and the chamfer sum. -/
theorem after2_v40 (W : Valuation τ sig (Elt Ideal)) (cham : FVec Ideal S_ .f32)
    (h13 : W (Proc.devRef .tc main_v13) = Host.divf (F := Ideal) cham (constant (F := Ideal) S_ .f32 0x41000000#32)) :
    StableHlo.after (hostOps2 (F := Ideal)) W (Proc.devRef .tc main_v40)
      = Cert.Spec.tail (colsum (W (Proc.devRef .tc main_v14_0))) (colsum (W (Proc.devRef .tc main_v14_1)))
          (colsum (W (Proc.devRef .tc main_v14_2))) (colsum (W (Proc.devRef .tc main_v14_3))) cham := by
  show StableHlo.after hostOps2 W (Proc.devRef .tc main_v40) = _
  after_results_simp
  rw [h13]
  rfl

/-! ## The loss from its leaves -/

/-- If the chamfer mean's numerator is the specification's chamfer sum and column 0 of the four results holds
    the four masked row sums, the program's last value is the specification's loss. -/
theorem loss_of_leaves (W : Valuation τ sig (Elt Ideal)) (x0 x1 : Cert.Spec.A4.Idx → EReal) (x2 : Cert.Spec.A2.Idx → EReal)
    (x3 : Cert.Spec.A4.Idx → BitVec 1) (cham : FVec Ideal S_ .f32)
    (h13 : W (Proc.devRef .tc main_v13) = Host.divf (F := Ideal) cham (constant (F := Ideal) S_ .f32 0x41000000#32))
    (hc : cham = fun _ => Cert.Spec.chamSum (Cert.Spec.centre x2) (Cert.Spec.img x1))
    (h0 : ∀ b : Fin 8, (W (Proc.devRef .tc main_v14_0) : FVec Ideal S8x128 .f32) (ix2 b (0 : Fin 128))
      = ∑ n : Fin 76800, (Cert.Spec.img x0 b n - Cert.Spec.img x1 b n) * (Cert.Spec.img x0 b n - Cert.Spec.img x1 b n)
          * Cert.Spec.maskf x3 b n)
    (h1 : ∀ b : Fin 8, (W (Proc.devRef .tc main_v14_1) : FVec Ideal S8x128 .f32) (ix2 b (0 : Fin 128))
      = ∑ n : Fin 76800, Cert.Spec.maskf x3 b n)
    (h2 : ∀ b : Fin 8, (W (Proc.devRef .tc main_v14_2) : FVec Ideal S8x128 .f32) (ix2 b (0 : Fin 128))
      = ∑ n : Fin 76800, Cert.Spec.dlog (Cert.Spec.img x0) (Cert.Spec.img x1) b n * Cert.Spec.maskf x3 b n)
    (h3 : ∀ b : Fin 8, (W (Proc.devRef .tc main_v14_3) : FVec Ideal S8x128 .f32) (ix2 b (0 : Fin 128))
      = ∑ n : Fin 76800, Cert.Spec.dlog (Cert.Spec.img x0) (Cert.Spec.img x1) b n
          * Cert.Spec.dlog (Cert.Spec.img x0) (Cert.Spec.img x1) b n * Cert.Spec.maskf x3 b n) :
    StableHlo.after (hostOps2 (F := Ideal)) W (Proc.devRef .tc main_v40) = Cert.Spec.loss x0 x1 x2 x3 := by
  have e0 : colsum (W (Proc.devRef .tc main_v14_0))
      = fun _ => Cert.Spec.sumSq (Cert.Spec.img x0) (Cert.Spec.img x1) (Cert.Spec.maskf x3) :=
    Cert.KernelMath.col0_sum _ _ h0
  have e1 : colsum (W (Proc.devRef .tc main_v14_1)) = fun _ => Cert.Spec.sumCnt (Cert.Spec.maskf x3) :=
    Cert.KernelMath.col0_sum _ _ h1
  have e2 : colsum (W (Proc.devRef .tc main_v14_2))
      = fun _ => Cert.Spec.sumD (Cert.Spec.img x0) (Cert.Spec.img x1) (Cert.Spec.maskf x3) :=
    Cert.KernelMath.col0_sum _ _ h2
  have e3 : colsum (W (Proc.devRef .tc main_v14_3))
      = fun _ => Cert.Spec.sumD2 (Cert.Spec.img x0) (Cert.Spec.img x1) (Cert.Spec.maskf x3) :=
    Cert.KernelMath.col0_sum _ _ h3
  rw [after2_v40 W cham h13, e0, e1, e2, e3, hc]
  rfl

end Cert.HostStages

end
-- ==== Proof.MathChamferBody.lean ====
/-
  The first kernel's arithmetic at one grid point, read index by index over the extended reals. With bc the
  8 × 256 bin centres and tg the point's 8 × 1024 chunk of target pixels, the body forms the 8 × 256 × 1024
  table of squared differences (bc(b,i) − tg(b,j))², lowers the running row minimum by the table's minimum
  over j, and raises the running sum by the sum over j of the table's minimum over i. The buffers start at
  +∞ and 0, and the last point adds the sum of the row minima to the running sum.
-/
import proofs.«151095_j21028159881359_1_alg».proof.Proof.Gen.KernelIdeal.Skeleton
import proofs.«151095_j21028159881359_1_alg».proof.Proof.Fold
import proofs.«151095_j21028159881359_1_alg».proof.Proof.Spec
import Idealize.ShloMosaic.PureOps.Ideal.Laws
import Idealize.ShloMosaic.Lib.ValueIdx
import Idealize.ShloMosaic.Lib.Pipeline.Value

noncomputable section

namespace Cert.KernelMath

open Cert.KernelIdeal Cert.KernelIdeal.Gen Cert.KernelIdeal.Fold Idealize.ShloMosaic Idealize.ShloMosaic.ValueIdx

/-! ## Layout operations at an index -/

/-- A column [8,1] broadcast along 128 lanes reads, at (b, l), the column's entry b. -/
private theorem bcast_col {α : Type} (v : S8x1.Idx → α) (b : Fin 8) (l : Fin 128) :
    broadcastTo S8x128 v broadcasts_S8x1_S8x128 (ix2 b l) = v (ix2 b (0 : Fin 1)) :=
  broadcastTo_apply v broadcasts_S8x1_S8x128 (ix2 b l) (ix2 b (0 : Fin 1)) fun a => by
    match a with
    | ⟨0, _⟩ => rfl
    | ⟨1, _⟩ => rfl

/-- A length-8 vector read as a column [8,1] has, at (b, 0), the vector's entry b. -/
private theorem cast_col {α : Type} (v : S8.Idx → α) (b : Fin 8) :
    shapeCast S8x1 v shapeCasts_S8_S8x1 (ix2 b (0 : Fin 1)) = v (ix1 b) :=
  shapeCast_apply v shapeCasts_S8_S8x1 (ix2 b (0 : Fin 1)) (ix1 b) (by
    rw [Shape.rowMajor_val_two, Shape.rowMajor_val_one]; show b.val = b.val * 1 + 0; omega)

/-- A column [8,1] read as a length-8 vector has, at b, the column's entry (b, 0). -/
private theorem uncast_col {α : Type} (v : S8x1.Idx → α) (b : Fin 8) :
    shapeCast S8 v shapeCasts_S8x1_S8 (ix1 b) = v (ix2 b (0 : Fin 1)) :=
  shapeCast_apply v shapeCasts_S8x1_S8 (ix1 b) (ix2 b (0 : Fin 1)) (by
    rw [Shape.rowMajor_val_two, Shape.rowMajor_val_one]; show b.val * 1 + 0 = b.val; omega)

/-- The centres [8,256] read as [8,256,1] have, at (b, i, 0), the entry (b, i). -/
private theorem cast_centres {α : Type} (v : S8x256.Idx → α) (b : Fin 8) (i : Fin 256) :
    shapeCast S8x256x1 v shapeCasts_S8x256_S8x256x1 (ix3 b i (0 : Fin 1)) = v (ix2 b i) :=
  shapeCast_apply v shapeCasts_S8x256_S8x256x1 (ix3 b i (0 : Fin 1)) (ix2 b i) (by
    rw [Shape.rowMajor_val_two, Shape.rowMajor_val_three]
    show b.val * 256 + i.val = (b.val * 256 + i.val) * 1 + 0; omega)

/-- The targets [8,1024] read as [8,1,1024] have, at (b, 0, j), the entry (b, j). -/
private theorem cast_targets {α : Type} (v : S8x1024.Idx → α) (b : Fin 8) (j : Fin 1024) :
    shapeCast S8x1x1024 v shapeCasts_S8x1024_S8x1x1024 (ix3 b (0 : Fin 1) j) = v (ix2 b j) :=
  shapeCast_apply v shapeCasts_S8x1024_S8x1x1024 (ix3 b (0 : Fin 1) j) (ix2 b j) (by
    rw [Shape.rowMajor_val_two, Shape.rowMajor_val_three]
    show b.val * 1024 + j.val = (b.val * 1 + 0) * 1024 + j.val; omega)

/-- [8,256,1] broadcast to [8,256,1024] reads, at (b, i, j), the entry (b, i, 0). -/
private theorem bcast_centres {α : Type} (v : S8x256x1.Idx → α) (b : Fin 8) (i : Fin 256) (j : Fin 1024) :
    broadcastTo S8x256x1024 v broadcasts_S8x256x1_S8x256x1024 (ix3 b i j) = v (ix3 b i (0 : Fin 1)) :=
  broadcastTo_apply v broadcasts_S8x256x1_S8x256x1024 (ix3 b i j) (ix3 b i (0 : Fin 1)) fun a => by
    match a with
    | ⟨0, _⟩ => rfl
    | ⟨1, _⟩ => rfl
    | ⟨2, _⟩ => rfl

/-- [8,1,1024] broadcast to [8,256,1024] reads, at (b, i, j), the entry (b, 0, j). -/
private theorem bcast_targets {α : Type} (v : S8x1x1024.Idx → α) (b : Fin 8) (i : Fin 256) (j : Fin 1024) :
    broadcastTo S8x256x1024 v broadcasts_S8x1x1024_S8x256x1024 (ix3 b i j) = v (ix3 b (0 : Fin 1) j) :=
  broadcastTo_apply v broadcasts_S8x1x1024_S8x256x1024 (ix3 b i j) (ix3 b (0 : Fin 1) j) fun a => by
    match a with
    | ⟨0, _⟩ => rfl
    | ⟨1, _⟩ => rfl
    | ⟨2, _⟩ => rfl

/-! ## Reductions at an index -/

/-- The bit pattern the minimum reductions start from is +∞. -/
private theorem inf_word : FloatOps.ofBits (F := Ideal) .f32 0x7F800000#32 = (⊤ : EReal) := by
  simp [Ideal.ofBits, Ideal.ieee]

/-- A minimum reduction over one axis from +∞ is, at each reduced index, the infimum over that axis's coordinates. -/
private theorem min_single {s t : Shape} {a : Fin s.rank} (src : FVec Ideal s .f32) (h : s.Reduces [a] t)
    (hφ : FKind.Formats .f32) (hacc : (0x7F800000#32 : BitVec 32) = 0x7F800000#32) (j : t.Idx) :
    multiReduction .minimumf [a] t src 0x7F800000#32 h hφ hacc j
      = Finset.univ.inf fun k : Fin (s.size a) => src (h.lift j k) := by
  refine (multiReduction_minimumf_eq_fold src 0x7F800000#32 h hφ hacc j).trans ?_
  refine (h.fold_filter_drop_single _ _ src j).trans ?_
  rw [inf_word]
  rfl

/-- The table's minimum along the pixel axis, at (b, i). -/
private theorem rowmin (src : FVec Ideal S8x256x1024 .f32) (b : Fin 8) (i : Fin 256) :
    multiReduction .minimumf [2] S8x256 src 0x7F800000#32 reduces_S8x256x1024_S8x256 (.inl rfl) rfl (ix2 b i)
      = Finset.univ.inf fun j : Fin 1024 => src (ix3 b i j) := by
  refine (min_single src reduces_S8x256x1024_S8x256 (.inl rfl) rfl (ix2 b i)).trans ?_
  refine congrArg (Finset.inf Finset.univ) (funext fun k => congrArg src ?_)
  funext a
  apply Fin.ext
  match a with
  | ⟨0, _⟩ => rfl
  | ⟨1, _⟩ => rfl
  | ⟨2, _⟩ => rfl

/-- The table's minimum along the centre axis, at (b, j). -/
private theorem colmin (src : FVec Ideal S8x256x1024 .f32) (b : Fin 8) (j : Fin 1024) :
    multiReduction .minimumf [1] S8x1024 src 0x7F800000#32 reduces_S8x256x1024_S8x1024 (.inl rfl) rfl (ix2 b j)
      = Finset.univ.inf fun i : Fin 256 => src (ix3 b i j) := by
  refine (min_single src reduces_S8x256x1024_S8x1024 (.inl rfl) rfl (ix2 b j)).trans ?_
  refine congrArg (Finset.inf Finset.univ) (funext fun k => congrArg src ?_)
  funext a
  apply Fin.ext
  match a with
  | ⟨0, _⟩ => rfl
  | ⟨1, _⟩ => rfl
  | ⟨2, _⟩ => rfl

/-- The sum along the pixel axis of an 8 × 1024 array, at row b. -/
private theorem sum1024 (src : FVec Ideal S8x1024 .f32) (b : Fin 8) :
    multiReduction .add [1] S8 src 0x00000000#32 reduces_S8x1024_S8 (.inl rfl) rfl (ix1 b)
      = ∑ j : Fin 1024, src (ix2 b j) := by
  refine (Ideal.multiReduction_add_single src 0x00000000#32 reduces_S8x1024_S8 (.inl rfl) rfl (ix1 b)).trans ?_
  refine Finset.sum_congr rfl fun k _ => congrArg src ?_
  funext a
  apply Fin.ext
  match a with
  | ⟨0, _⟩ => rfl
  | ⟨1, _⟩ => rfl

/-- The sum along the centre axis of an 8 × 256 array, at row b. -/
private theorem sum256 (src : FVec Ideal S8x256 .f32) (b : Fin 8) :
    multiReduction .add [1] S8 src 0x00000000#32 reduces_S8x256_S8 (.inl rfl) rfl (ix1 b)
      = ∑ i : Fin 256, src (ix2 b i) := by
  refine (Ideal.multiReduction_add_single src 0x00000000#32 reduces_S8x256_S8 (.inl rfl) rfl (ix1 b)).trans ?_
  refine Finset.sum_congr rfl fun k _ => congrArg src ?_
  funext a
  apply Fin.ext
  match a with
  | ⟨0, _⟩ => rfl
  | ⟨1, _⟩ => rfl

/-! ## The body's values at an index -/

/-- The fill of the running minimum is +∞ everywhere. -/
theorem k0_pay1_apply (j : S8x256.Idx) : k0_pay1 (F := Ideal) j = (⊤ : EReal) := by
  unfold k0_pay1
  rw [shapeCast_self]
  exact inf_word

/-- The fill of the running sum is 0 everywhere. -/
theorem k0_pay2_apply (j : S8x128.Idx) : k0_pay2 (F := Ideal) j = (0 : EReal) := by
  unfold k0_pay2
  rw [shapeCast_self]
  exact Ideal.ofBits_zero_f32

/-- The table of squared differences. -/
theorem k0_pay3_apply (bc : Vec Ideal S8x256 .f32) (tg : Vec Ideal S8x1024 .f32) (b : Fin 8) (i : Fin 256) (j : Fin 1024) :
    k0_pay3 bc tg (ix3 b i j) = Cert.Spec.sqd (bc (ix2 b i)) (tg (ix2 b j)) := by
  unfold k0_pay3
  rw [mulf_apply, subf_apply, bcast_centres, bcast_targets, cast_centres, cast_targets, shapeCast_self, shapeCast_self]
  rfl

/-- The running row minimum after the point: the previous one lowered by the least squared distance from
    centre (b, i) to a pixel of the chunk. -/
theorem k0_pay4_apply (bc : Vec Ideal S8x256 .f32) (tg : Vec Ideal S8x1024 .f32) (acc : Vec Ideal S8x256 .f32)
    (b : Fin 8) (i : Fin 256) :
    k0_pay4 bc tg acc (ix2 b i)
      = min (acc (ix2 b i)) (Finset.univ.inf fun j : Fin 1024 => Cert.Spec.sqd (bc (ix2 b i)) (tg (ix2 b j))) := by
  unfold k0_pay4
  rw [shapeCast_self, minimumf_apply]
  refine congrArg (min (acc (ix2 b i))) ((rowmin _ b i).trans ?_)
  simp only [k0_pay3_apply]

/-- The running sum after the point: the previous one plus the sum over the chunk's pixels of the least
    squared distance to a centre. -/
theorem k0_pay5_apply (bc : Vec Ideal S8x256 .f32) (tg : Vec Ideal S8x1024 .f32) (acc : Vec Ideal S8x128 .f32)
    (b : Fin 8) (l : Fin 128) :
    k0_pay5 bc tg acc (ix2 b l)
      = acc (ix2 b l) + ∑ j : Fin 1024, Finset.univ.inf fun i : Fin 256 => Cert.Spec.sqd (bc (ix2 b i)) (tg (ix2 b j)) := by
  unfold k0_pay5
  rw [shapeCast_self, addf_apply, bcast_col, shapeCast_self, cast_col]
  refine congrArg (acc (ix2 b l) + ·)
    ((sum1024 _ b).trans (Finset.sum_congr rfl fun j _ => (colmin _ b j).trans ?_))
  simp only [k0_pay3_apply]

/-- The last point's output: the sum of the row minima plus column 0 of the running sum. -/
theorem k0_pay6_apply (acc : Vec Ideal S8x256 .f32) (v34 : Vec Ideal S8x1 .f32) (b : Fin 8) (l : Fin 128) :
    k0_pay6 acc v34 (ix2 b l) = (∑ i : Fin 256, acc (ix2 b i)) + v34 (ix2 b (0 : Fin 1)) := by
  unfold k0_pay6
  rw [bcast_col, shapeCast_self, cast_col, addf_apply, uncast_col]
  exact congrArg (· + v34 (ix2 b (0 : Fin 1))) (sum256 acc b)

end Cert.KernelMath

end
-- ==== Proof.MathChamferChunks.lean ====
/-
  Re-indexing 75 chunks of 1024 as one run of 76800: position m of the run lies in chunk m / 1024 at offset
  m % 1024. An infimum taken chunk by chunk is the infimum over the run, and likewise a sum. Stated over any
  semilattice with a top and any commutative monoid: no arithmetic of the extended reals is used.
-/
import Idealize.ShloMosaic.PureOps.Ideal

namespace Cert.KernelMath

open scoped BigOperators

/-- Position m of the run as (chunk, offset). -/
def chunkEquiv : Fin 76800 ≃ Fin 75 × Fin 1024 where
  toFun m := (⟨m.val / 1024, by have := m.isLt; omega⟩, ⟨m.val % 1024, Nat.mod_lt _ (by decide)⟩)
  invFun p := ⟨1024 * p.1.val + p.2.val, by have := p.1.isLt; have := p.2.isLt; omega⟩
  left_inv m := Fin.ext (by show 1024 * (m.val / 1024) + m.val % 1024 = m.val; omega)
  right_inv p := by
    have h1 := p.1.isLt
    have h2 := p.2.isLt
    refine Prod.ext (Fin.ext ?_) (Fin.ext ?_)
    · show (1024 * p.1.val + p.2.val) / 1024 = p.1.val; omega
    · show (1024 * p.1.val + p.2.val) % 1024 = p.2.val; omega

/-- The infimum over the first 75 chunks, each over its 1024 offsets, is the infimum over the 76800 positions. -/
theorem inf_chunks {α : Type*} [SemilatticeInf α] [OrderTop α] (G : ℕ → Fin 1024 → α) :
    (Finset.range 75).inf (fun t => Finset.univ.inf fun j : Fin 1024 => G t j)
      = Finset.univ.inf fun m : Fin 76800 => G (m.val / 1024) ⟨m.val % 1024, Nat.mod_lt _ (by decide)⟩ := by
  apply le_antisymm
  · refine Finset.le_inf fun m _ => ?_
    have hm : m.val / 1024 ∈ Finset.range 75 := Finset.mem_range.2 (by have := m.isLt; omega)
    exact (Finset.inf_le hm).trans (Finset.inf_le (Finset.mem_univ _))
  · refine Finset.le_inf fun t ht => Finset.le_inf fun j _ => ?_
    have ht' : t < 75 := Finset.mem_range.1 ht
    have hj := j.isLt
    have hlt : 1024 * t + j.val < 76800 := by omega
    have e : G ((⟨1024 * t + j.val, hlt⟩ : Fin 76800).val / 1024)
        ⟨(⟨1024 * t + j.val, hlt⟩ : Fin 76800).val % 1024, Nat.mod_lt _ (by decide)⟩ = G t j := by
      congr 1
      · show (1024 * t + j.val) / 1024 = t; omega
      · exact Fin.ext (by show (1024 * t + j.val) % 1024 = j.val; omega)
    exact (Finset.inf_le (Finset.mem_univ (⟨1024 * t + j.val, hlt⟩ : Fin 76800))).trans (le_of_eq e)

/-- The sum over the first 75 chunks, each over its 1024 offsets, is the sum over the 76800 positions. -/
theorem sum_chunks {M : Type*} [AddCommMonoid M] (G : ℕ → Fin 1024 → M) :
    ∑ t ∈ Finset.range 75, ∑ j : Fin 1024, G t j
      = ∑ m : Fin 76800, G (m.val / 1024) ⟨m.val % 1024, Nat.mod_lt _ (by decide)⟩ := by
  rw [Finset.sum_range (fun t => ∑ j : Fin 1024, G t j)]
  refine Eq.trans (Fintype.sum_prod_type (fun p : Fin 75 × Fin 1024 => G p.1.val p.2)).symm ?_
  exact (Fintype.sum_equiv chunkEquiv
    (fun m : Fin 76800 => G (m.val / 1024) ⟨m.val % 1024, Nat.mod_lt _ (by decide)⟩)
    (fun p : Fin 75 × Fin 1024 => G p.1.val p.2) (fun _ => rfl)).symm

/-- One more chunk joins a running infimum. -/
theorem inf_range_succ {α : Type*} [SemilatticeInf α] [OrderTop α] (F : ℕ → α) (n : ℕ) :
    (Finset.range (n + 1)).inf F ⊓ F (n + 1) = (Finset.range (n + 1 + 1)).inf F := by
  rw [Finset.range_add_one (n := n + 1), Finset.inf_insert, inf_comm]

end Cert.KernelMath
-- ==== Proof.MathChamfer.lean ====
/-
  The first kernel over its 75 grid points. The running row minimum after point n holds, at (b, i), the least
  squared distance from centre (b, i) to a target pixel of chunks 0 … n; the running sum holds, at every lane
  of row b, the sum over those chunks' pixels of the least squared distance to a centre. After the last point
  the stored value is the chamfer distance of image b: the sum over centres of the least squared distance to
  a pixel plus the sum over pixels of the least squared distance to a centre. Only lattice and monoid laws of
  the extended reals are used (⊤ ⊓ x = x, 0 + x = x, re-indexing), so infinite inputs are covered.
-/
import proofs.«151095_j21028159881359_1_alg».proof.Proof.MathChamferBody
import proofs.«151095_j21028159881359_1_alg».proof.Proof.MathChamferChunks
import proofs.«151095_j21028159881359_1_alg».proof.Proof.Gen.KernelIdeal.Skeleton
import proofs.«151095_j21028159881359_1_alg».proof.Proof.Fold
import proofs.«151095_j21028159881359_1_alg».proof.Proof.Spec
import Idealize.ShloMosaic.PureOps.Ideal.Laws
import Idealize.ShloMosaic.Lib.ValueIdx
import Idealize.ShloMosaic.Lib.Pipeline.Value

noncomputable section

namespace Cert.KernelMath

open Cert.KernelIdeal Cert.KernelIdeal.Gen Cert.KernelIdeal.Fold Idealize.ShloMosaic Idealize.ShloMosaic.ValueIdx

/-- Target pixel j of image b, read from the chunk that holds it: chunk j / 1024 at offset j % 1024. -/
def tgRow (tg : ℕ → Vec Ideal S8x1024 .f32) (b : Fin 8) (j : Fin 76800) : EReal :=
  tg (j.val / 1024) (ix2 b (⟨j.val % 1024, Nat.mod_lt _ (by decide)⟩ : Fin 1024))

/-- After point n the running row minimum at (b, i) is the least squared distance from centre (b, i) to a
    pixel of chunks 0 … n. -/
theorem runMin_apply (bc : Vec Ideal S8x256 .f32) (tg : ℕ → Vec Ideal S8x1024 .f32) (n : ℕ) (b : Fin 8) (i : Fin 256) :
    runMin bc tg n (ix2 b i)
      = (Finset.range (n + 1)).inf fun t =>
          Finset.univ.inf fun j : Fin 1024 => Cert.Spec.sqd (bc (ix2 b i)) (tg t (ix2 b j)) := by
  induction n with
  | zero =>
    show k0_pay4 bc (tg 0) (k0_pay1 (F := Ideal)) (ix2 b i) = _
    rw [k0_pay4_apply, k0_pay1_apply, top_inf_eq]
    simp only [zero_add, Finset.range_one, Finset.inf_singleton]
  | succ n ih =>
    show k0_pay4 bc (tg (n + 1)) (runMin bc tg n) (ix2 b i) = _
    rw [k0_pay4_apply, ih]
    exact inf_range_succ
      (fun t => Finset.univ.inf fun j : Fin 1024 => Cert.Spec.sqd (bc (ix2 b i)) (tg t (ix2 b j))) n

/-- After point n the running sum at (b, l), any lane l, is the sum over the pixels of chunks 0 … n of the
    least squared distance to a centre. -/
theorem runSum_apply (bc : Vec Ideal S8x256 .f32) (tg : ℕ → Vec Ideal S8x1024 .f32) (n : ℕ) (b : Fin 8) (l : Fin 128) :
    runSum bc tg n (ix2 b l)
      = ∑ t ∈ Finset.range (n + 1), ∑ j : Fin 1024,
          Finset.univ.inf fun i : Fin 256 => Cert.Spec.sqd (bc (ix2 b i)) (tg t (ix2 b j)) := by
  induction n with
  | zero =>
    show k0_pay5 bc (tg 0) (k0_pay2 (F := Ideal)) (ix2 b l) = _
    rw [k0_pay5_apply, k0_pay2_apply, zero_add]
    simp only [zero_add, Finset.range_one, Finset.sum_singleton]
  | succ n ih =>
    show k0_pay5 bc (tg (n + 1)) (runSum bc tg n) (ix2 b l) = _
    rw [k0_pay5_apply, ih]
    exact (Finset.sum_range_succ
      (fun t => ∑ j : Fin 1024, Finset.univ.inf fun i : Fin 256 => Cert.Spec.sqd (bc (ix2 b i)) (tg t (ix2 b j)))
      (n + 1)).symm

/-- The value the last point stores, at every lane of row b, is image b's chamfer distance. -/
theorem cham_block (bc : Vec Ideal S8x256 .f32) (tg : ℕ → Vec Ideal S8x1024 .f32) (v34 : Vec Ideal S8x1 .f32)
    (hv : ∀ b : Fin 8, v34 (ix2 b (0 : Fin 1)) = runSum bc tg 74 (ix2 b (0 : Fin 128))) (b : Fin 8) (l : Fin 128) :
    k0_pay6 (runMin bc tg 74) v34 (ix2 b l) = Cert.Spec.chamRow (fun b i => bc (ix2 b i)) (tgRow tg) b := by
  rw [k0_pay6_apply, hv b, runSum_apply]
  unfold Cert.Spec.chamRow Cert.Spec.rowMin Cert.Spec.colMin
  refine congrArg₂ (· + ·) ?_ ?_
  · refine Finset.sum_congr rfl fun i _ => ?_
    rw [runMin_apply]
    exact inf_chunks (fun t j => Cert.Spec.sqd (bc (ix2 b i)) (tg t (ix2 b j)))
  · exact sum_chunks
      (fun t j => Finset.univ.inf fun i : Fin 256 => Cert.Spec.sqd (bc (ix2 b i)) (tg t (ix2 b j)))

end Cert.KernelMath

end
-- ==== Proof.ChamferRead.lean ====
/-
  The first kernel's stored result, read at an index, when its two input arrays hold the bin centres and the
  flattened target: at (b, l), any lane l, it is the chamfer distance of image b.

  The kernel's own running minimum and running sum are over the centres' block and the target's 75 chunks of 1024
  pixels. The centres' block is the whole centres array; chunk j / 1024 at offset j % 1024 is pixel j of the target.
-/
import proofs.«151095_j21028159881359_1_alg».proof.Proof.ArrayPosts
import proofs.«151095_j21028159881359_1_alg».proof.Proof.MathChamfer

noncomputable section

namespace Cert.KernelRead

open Cert.KernelIdeal Cert.KernelIdeal.Gen Cert.KernelIdeal.Hand
open Idealize.ShloMosaic Idealize.ShloMosaic.TcCoe Idealize.ShloMosaic.ValueIdx
open Idealize.SL.Sem

variable (V : (c : Dev nD) → (b : Ref sig .tc) → Buf (Elt Ideal) ((c : Thread nD τ).loc b)) (c : Dev nD)
  (x1 : Cert.Spec.A4.Idx → EReal) (x2 : Cert.Spec.A2.Idx → EReal)

/-- The column the last point loads from the running sum is its lane 0. -/
theorem ld_col (X : Vec Ideal S8x128 .f32) (b : Fin 8) : View.ld X rCol (ix2 b (0 : Fin 1)) = X (ix2 b (0 : Fin 128)) := by
  show X (rCol.idx (ix2 b (0 : Fin 1))) = X (ix2 b (0 : Fin 128))
  refine congrArg X (funext fun a => Fin.ext ?_)
  match a with
  | ⟨0, _⟩ => show 0 + 1 * b.val = b.val; omega
  | ⟨1, _⟩ => show 0 + 1 * 0 = 0; omega

/-- The centres' block is the centres. -/
theorem bc_eq (hv4 : ∀ (b : Fin 8) (i : Fin 256), (V c main_v4 : FVec Ideal S8x256 .f32) (ix2 b i) = Cert.Spec.centre x2 b i) :
    (fun (b : Fin 8) (i : Fin 256) => bcBlk V c (ix2 b i)) = Cert.Spec.centre x2 :=
  funext fun b => funext fun i => (congrFun (iblk0_0 V c t0) (ix2 b i)).trans (hv4 b i)

/-- The target read chunk by chunk is the target. -/
theorem tg_eq (hv5 : ∀ (b : Fin 8) (n : Fin 76800), (V c main_v5 : Vec Ideal S8x76800 .f32) (ix2 b n) = Cert.Spec.img x1 b n) :
    Cert.KernelMath.tgRow (tgBlk V c) = Cert.Spec.img x1 := by
  funext b j
  unfold Cert.KernelMath.tgRow
  have hN : cfg0.N = 75 := N_0
  have hj := j.isLt
  have hlt : j.val / 1024 < cfg0.N := by omega
  rw [tgBlk_val V c ⟨j.val / 1024, hlt⟩, iblk0_1_apply]
  exact (congrArg (fun n => (V c main_v5 : Vec Ideal S8x76800 .f32) (ix2 b n)) (Fin.ext (by
    show 1024 * (j.val / 1024) + j.val % 1024 = j.val
    omega))).trans (hv5 b j)

/-- The chamfer kernel's stored result at (b, l) is image `b`'s chamfer distance. -/
theorem cham_read
    (hv4 : ∀ (b : Fin 8) (i : Fin 256), (V c main_v4 : FVec Ideal S8x256 .f32) (ix2 b i) = Cert.Spec.centre x2 b i)
    (hv5 : ∀ (b : Fin 8) (n : Fin 76800), (V c main_v5 : Vec Ideal S8x76800 .f32) (ix2 b n) = Cert.Spec.img x1 b n)
    (b : Fin 8) (l : Fin 128) :
    (k0_pay6 (sMin V c 74) (View.ld (sSum V c 74) rCol) : FVec Ideal S8x128 .f32) (ix2 b l)
      = Cert.Spec.chamRow (Cert.Spec.centre x2) (Cert.Spec.img x1) b := by
  have hv : ∀ b : Fin 8, View.ld (sSum V c 74) rCol (ix2 b (0 : Fin 1))
      = Fold.runSum (bcBlk V c) (tgBlk V c) 74 (ix2 b (0 : Fin 128)) := fun b => ld_col _ b
  have e := Cert.KernelMath.cham_block (bcBlk V c) (tgBlk V c) (View.ld (sSum V c 74) rCol) hv b l
  rw [bc_eq V c x2 hv4, tg_eq V c x1 hv5] at e
  exact e

end Cert.KernelRead

end
-- ==== Proof.MathMasked.lean ====
/-
  The second kernel stores four row sums, each broadcast along the 128 lanes: per image b, the sum over the
  76800 pixels of (p − t)² · m, of m, of d · m and of d² · m, where d is the difference of the logs of p + ε
  and t + ε and m the mask. This file reads each stored value at (b, l), any lane l, as that finite sum over
  the extended reals.
-/
import proofs.«151095_j21028159881359_1_alg».proof.Proof.Gen.KernelIdeal.Skeleton
import proofs.«151095_j21028159881359_1_alg».proof.Proof.Fold
import proofs.«151095_j21028159881359_1_alg».proof.Proof.Spec
import Idealize.ShloMosaic.PureOps.Ideal.Laws
import Idealize.ShloMosaic.Lib.ValueIdx
import Idealize.ShloMosaic.Lib.Pipeline.Value

noncomputable section

namespace Cert.KernelMath

open Cert.KernelIdeal Cert.KernelIdeal.Gen Cert.KernelIdeal.Fold Idealize.ShloMosaic Idealize.ShloMosaic.ValueIdx

/-- A column [8,1] broadcast along 128 lanes reads, at (b, l), the column's entry b. -/
private theorem bcast_col {α : Type} (v : S8x1.Idx → α) (b : Fin 8) (l : Fin 128) :
    broadcastTo S8x128 v broadcasts_S8x1_S8x128 (ix2 b l) = v (ix2 b (0 : Fin 1)) :=
  broadcastTo_apply v broadcasts_S8x1_S8x128 (ix2 b l) (ix2 b (0 : Fin 1)) fun a => by
    match a with
    | ⟨0, _⟩ => rfl
    | ⟨1, _⟩ => rfl

/-- A length-8 vector read as a column [8,1] has, at (b, 0), the vector's entry b. -/
private theorem cast_col {α : Type} (v : S8.Idx → α) (b : Fin 8) :
    shapeCast S8x1 v shapeCasts_S8_S8x1 (ix2 b (0 : Fin 1)) = v (ix1 b) :=
  shapeCast_apply v shapeCasts_S8_S8x1 (ix2 b (0 : Fin 1)) (ix1 b) (by
    rw [Shape.rowMajor_val_two, Shape.rowMajor_val_one]; show b.val = b.val * 1 + 0; omega)

/-- The sum along the pixel axis of an 8 × 76800 array, at row b, is the sum over the 76800 pixels. -/
private theorem sum_row (src : FVec Ideal S8x76800 .f32) (b : Fin 8) :
    multiReduction .add [1] S8 src 0x00000000#32 reduces_S8x76800_S8 (.inl rfl) rfl (ix1 b)
      = ∑ n : Fin 76800, src (ix2 b n) := by
  refine (Ideal.multiReduction_add_single src 0x00000000#32 reduces_S8x76800_S8 (.inl rfl) rfl (ix1 b)).trans ?_
  refine Finset.sum_congr rfl fun k _ => congrArg src ?_
  funext a
  apply Fin.ext
  match a with
  | ⟨0, _⟩ => rfl
  | ⟨1, _⟩ => rfl

/-- A row sum stored as the kernel stores it (as a column, then along the lanes) reads the sum at every lane. -/
private theorem stored_sum (src : FVec Ideal S8x76800 .f32) (b : Fin 8) (l : Fin 128) :
    broadcastTo S8x128
        (shapeCast S8x1
          (shapeCast S8x1 (multiReduction .add [1] S8 src 0x00000000#32 reduces_S8x76800_S8 (.inl rfl) rfl) shapeCasts_S8_S8x1)
          shapeCasts_S8x1_S8x1)
        broadcasts_S8x1_S8x128 (ix2 b l)
      = ∑ n : Fin 76800, src (ix2 b n) := by
  refine (bcast_col _ b l).trans ?_
  rw [shapeCast_self]
  exact (cast_col _ b).trans (sum_row src b)

/-- The log difference the kernel forms, at pixel n of image b. -/
theorem pay4_apply (p t : Vec Ideal S8x76800 .f32) (b : Fin 8) (n : Fin 76800) :
    k1_pay4 p t (ix2 b n) = Cert.Spec.dlog (fun b n => p (ix2 b n)) (fun b n => t (ix2 b n)) b n := by
  unfold k1_pay4 k1_pay1 k1_pay2
  simp only [shapeCast_self]
  rfl

/-- The masked sum of squared differences. -/
theorem pay5_apply (p t mk : Vec Ideal S8x76800 .f32) (b : Fin 8) (l : Fin 128) :
    k1_pay5 p t mk (ix2 b l)
      = ∑ n : Fin 76800, (p (ix2 b n) - t (ix2 b n)) * (p (ix2 b n) - t (ix2 b n)) * mk (ix2 b n) := by
  unfold k1_pay5
  refine (stored_sum _ b l).trans ?_
  refine Finset.sum_congr rfl fun n _ => ?_
  unfold k1_pay1 k1_pay2 k1_pay3
  simp only [shapeCast_self]
  rfl

/-- The mask count. -/
theorem pay6_apply (mk : Vec Ideal S8x76800 .f32) (b : Fin 8) (l : Fin 128) :
    k1_pay6 mk (ix2 b l) = ∑ n : Fin 76800, mk (ix2 b n) := by
  unfold k1_pay6
  refine (stored_sum _ b l).trans ?_
  refine Finset.sum_congr rfl fun n _ => ?_
  unfold k1_pay3
  simp only [shapeCast_self]

/-- The masked sum of the log differences. -/
theorem pay7_apply (p t mk : Vec Ideal S8x76800 .f32) (b : Fin 8) (l : Fin 128) :
    k1_pay7 p t mk (ix2 b l)
      = ∑ n : Fin 76800, Cert.Spec.dlog (fun b n => p (ix2 b n)) (fun b n => t (ix2 b n)) b n * mk (ix2 b n) := by
  unfold k1_pay7
  refine (stored_sum _ b l).trans ?_
  refine Finset.sum_congr rfl fun n _ => ?_
  rw [mulf_apply, pay4_apply]
  unfold k1_pay3
  simp only [shapeCast_self]

/-- The masked sum of the squared log differences. -/
theorem pay8_apply (p t mk : Vec Ideal S8x76800 .f32) (b : Fin 8) (l : Fin 128) :
    k1_pay8 p t mk (ix2 b l)
      = ∑ n : Fin 76800, Cert.Spec.dlog (fun b n => p (ix2 b n)) (fun b n => t (ix2 b n)) b n
          * Cert.Spec.dlog (fun b n => p (ix2 b n)) (fun b n => t (ix2 b n)) b n * mk (ix2 b n) := by
  unfold k1_pay8
  refine (stored_sum _ b l).trans ?_
  refine Finset.sum_congr rfl fun n _ => ?_
  rw [mulf_apply, mulf_apply, pay4_apply]
  unfold k1_pay3
  simp only [shapeCast_self]

end Cert.KernelMath

end
-- ==== Proof.MaskedRead.lean ====
/-
  The second kernel's four stored results, read at an index, when its three input arrays hold the flattened
  prediction, target and mask: at (b, l), any lane l, each is the corresponding masked sum over the 76800 pixels
  of image b.
-/
import proofs.«151095_j21028159881359_1_alg».proof.Proof.MathMasked
import proofs.«151095_j21028159881359_1_alg».proof.Proof.Gen.KernelIdeal

noncomputable section

namespace Cert.KernelRead

open Cert.KernelIdeal Cert.KernelIdeal.Gen
open Idealize.ShloMosaic Idealize.ShloMosaic.TcCoe Idealize.ShloMosaic.ValueIdx
open Idealize.SL.Sem

variable (V : (c : Dev nD) → (b : Ref sig .tc) → Buf (Elt Ideal) ((c : Thread nD τ).loc b)) (c : Dev nD)
  (x0 x1 : Cert.Spec.A4.Idx → EReal) (x3 : Cert.Spec.A4.Idx → BitVec 1)

/-- The masked sum of squared differences of image `b`. -/
theorem masked_read0
    (hv5 : ∀ (b : Fin 8) (n : Fin 76800), (V c main_v5 : Vec Ideal S8x76800 .f32) (ix2 b n) = Cert.Spec.img x1 b n)
    (hv6 : ∀ (b : Fin 8) (n : Fin 76800), (V c main_v6 : Vec Ideal S8x76800 .f32) (ix2 b n) = Cert.Spec.img x0 b n)
    (hv8 : ∀ (b : Fin 8) (n : Fin 76800), (V c main_v8 : Vec Ideal S8x76800 .f32) (ix2 b n) = Cert.Spec.maskf x3 b n)
    (b : Fin 8) (l : Fin 128) :
    (k1_pay5 (V c main_v6) (V c main_v5) (V c main_v8) : FVec Ideal S8x128 .f32) (ix2 b l)
      = ∑ n : Fin 76800, (Cert.Spec.img x0 b n - Cert.Spec.img x1 b n) * (Cert.Spec.img x0 b n - Cert.Spec.img x1 b n)
          * Cert.Spec.maskf x3 b n := by
  refine (Cert.KernelMath.pay5_apply _ _ _ b l).trans ?_
  refine Finset.sum_congr rfl fun n _ => ?_
  rw [hv6, hv5, hv8]

/-- The number of masked pixels of image `b`. -/
theorem masked_read1
    (hv8 : ∀ (b : Fin 8) (n : Fin 76800), (V c main_v8 : Vec Ideal S8x76800 .f32) (ix2 b n) = Cert.Spec.maskf x3 b n)
    (b : Fin 8) (l : Fin 128) :
    (k1_pay6 (V c main_v8) : FVec Ideal S8x128 .f32) (ix2 b l) = ∑ n : Fin 76800, Cert.Spec.maskf x3 b n := by
  refine (Cert.KernelMath.pay6_apply _ b l).trans ?_
  refine Finset.sum_congr rfl fun n _ => ?_
  rw [hv8]

/-- The masked sum of the log differences of image `b`. -/
theorem masked_read2
    (hv5 : ∀ (b : Fin 8) (n : Fin 76800), (V c main_v5 : Vec Ideal S8x76800 .f32) (ix2 b n) = Cert.Spec.img x1 b n)
    (hv6 : ∀ (b : Fin 8) (n : Fin 76800), (V c main_v6 : Vec Ideal S8x76800 .f32) (ix2 b n) = Cert.Spec.img x0 b n)
    (hv8 : ∀ (b : Fin 8) (n : Fin 76800), (V c main_v8 : Vec Ideal S8x76800 .f32) (ix2 b n) = Cert.Spec.maskf x3 b n)
    (b : Fin 8) (l : Fin 128) :
    (k1_pay7 (V c main_v6) (V c main_v5) (V c main_v8) : FVec Ideal S8x128 .f32) (ix2 b l)
      = ∑ n : Fin 76800, Cert.Spec.dlog (Cert.Spec.img x0) (Cert.Spec.img x1) b n * Cert.Spec.maskf x3 b n := by
  have e6 : (fun (b : Fin 8) (n : Fin 76800) => (V c main_v6 : Vec Ideal S8x76800 .f32) (ix2 b n)) = Cert.Spec.img x0 :=
    funext fun b => funext fun n => hv6 b n
  have e5 : (fun (b : Fin 8) (n : Fin 76800) => (V c main_v5 : Vec Ideal S8x76800 .f32) (ix2 b n)) = Cert.Spec.img x1 :=
    funext fun b => funext fun n => hv5 b n
  refine (Cert.KernelMath.pay7_apply _ _ _ b l).trans ?_
  rw [e6, e5]
  refine Finset.sum_congr rfl fun n _ => ?_
  rw [hv8]

/-- The masked sum of the squared log differences of image `b`. -/
theorem masked_read3
    (hv5 : ∀ (b : Fin 8) (n : Fin 76800), (V c main_v5 : Vec Ideal S8x76800 .f32) (ix2 b n) = Cert.Spec.img x1 b n)
    (hv6 : ∀ (b : Fin 8) (n : Fin 76800), (V c main_v6 : Vec Ideal S8x76800 .f32) (ix2 b n) = Cert.Spec.img x0 b n)
    (hv8 : ∀ (b : Fin 8) (n : Fin 76800), (V c main_v8 : Vec Ideal S8x76800 .f32) (ix2 b n) = Cert.Spec.maskf x3 b n)
    (b : Fin 8) (l : Fin 128) :
    (k1_pay8 (V c main_v6) (V c main_v5) (V c main_v8) : FVec Ideal S8x128 .f32) (ix2 b l)
      = ∑ n : Fin 76800, Cert.Spec.dlog (Cert.Spec.img x0) (Cert.Spec.img x1) b n
          * Cert.Spec.dlog (Cert.Spec.img x0) (Cert.Spec.img x1) b n * Cert.Spec.maskf x3 b n := by
  have e6 : (fun (b : Fin 8) (n : Fin 76800) => (V c main_v6 : Vec Ideal S8x76800 .f32) (ix2 b n)) = Cert.Spec.img x0 :=
    funext fun b => funext fun n => hv6 b n
  have e5 : (fun (b : Fin 8) (n : Fin 76800) => (V c main_v5 : Vec Ideal S8x76800 .f32) (ix2 b n)) = Cert.Spec.img x1 :=
    funext fun b => funext fun n => hv5 b n
  refine (Cert.KernelMath.pay8_apply _ _ _ b l).trans ?_
  rw [e6, e5]
  refine Finset.sum_congr rfl fun n _ => ?_
  rw [hv8]

end Cert.KernelRead

end
-- ==== Proof.KernelValue.lean ====
/-
  The kernel program's result, at the extended reals, is the loss of the four argument arrays.

  The result is the last host stretch applied to what the two kernels left; each kernel's result array holds what its
  last write-back stored; the kernels read arrays the first host stretch computed from the arguments (the centres, the
  flattened images and mask), which the lines and regions in between leave untouched.
-/
import proofs.«151095_j21028159881359_1_alg».proof.Proof.Run
import proofs.«151095_j21028159881359_1_alg».proof.Proof.ArrayPosts
import proofs.«151095_j21028159881359_1_alg».proof.Proof.HostStages
import proofs.«151095_j21028159881359_1_alg».proof.Proof.ChamferRead
import proofs.«151095_j21028159881359_1_alg».proof.Proof.MaskedRead
import proofs.«151095_j21028159881359_1_alg».proof.Proof.MathHostSum
import proofs.«151095_j21028159881359_1_alg».proof.Proof.Spec

noncomputable section

namespace Cert.KernelLoss

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-- A buffer that neither the second host stretch nor the chamfer kernel writes holds, when the masked-sums kernel is
    entered, what it held when the chamfer kernel was entered. -/
theorem V3_of_V1 (r : Ref sig .tc) (h1 : r ∉ hostOps1_W) (hk : ∀ w, Pipeline.arrRef spec0 w ≠ r) :
    Hand.V3 m c r = Hand.V1 m c r :=
  (StableHlo.after_of_writes_sub hostOps1 _ hostOps1_writes h1).trans (W2_of_ne m c r hk)

/-- The flattened target, an input array of the chamfer kernel that the kernel stages and never writes back, is also as it was. -/
theorem V3_v5_of_V1 : Hand.V3 m c main_v5 = Hand.V1 m c main_v5 :=
  (StableHlo.after_of_writes_sub hostOps1 _ hostOps1_writes (by decide : main_v5 ∉ hostOps1_W)).trans
    ((W2_arr m c 1).trans (((dat0 (Hand.V1 m) c).arrAt_in 1 rfl _).trans (A_eq0 (Hand.V1 m) c 1)))

/-! ## What the kernels' input arrays hold -/

theorem v1_v4 (b : Fin 8) (i : Fin 256) :
    (Hand.V1 m c main_v4 : FVec Ideal S8x256 .f32) (ix2 b i) = Cert.Spec.centre (m ((c : Thread nD τ).loc main_arg2)) b i :=
  Cert.HostStages.after0_v4 m c b i
theorem v1_v5 (b : Fin 8) (n : Fin 76800) :
    (Hand.V1 m c main_v5 : FVec Ideal S8x76800 .f32) (ix2 b n) = Cert.Spec.img (m ((c : Thread nD τ).loc main_arg1)) b n :=
  Cert.HostStages.after0_v5 m c b n
theorem v3_v5 (b : Fin 8) (n : Fin 76800) :
    (Hand.V3 m c main_v5 : FVec Ideal S8x76800 .f32) (ix2 b n) = Cert.Spec.img (m ((c : Thread nD τ).loc main_arg1)) b n :=
  (congrFun (V3_v5_of_V1 m c) _).trans (Cert.HostStages.after0_v5 m c b n)
theorem v3_v6 (b : Fin 8) (n : Fin 76800) :
    (Hand.V3 m c main_v6 : FVec Ideal S8x76800 .f32) (ix2 b n) = Cert.Spec.img (m ((c : Thread nD τ).loc main_arg0)) b n :=
  (congrFun (V3_of_V1 m c main_v6 (by decide) (by decide)) _).trans (Cert.HostStages.after0_v6 m c b n)
theorem v3_v8 (b : Fin 8) (n : Fin 76800) :
    (Hand.V3 m c main_v8 : FVec Ideal S8x76800 .f32) (ix2 b n) = Cert.Spec.maskf (m ((c : Thread nD τ).loc main_arg3)) b n :=
  (congrFun (V3_of_V1 m c main_v8 (by decide) (by decide)) _).trans (Cert.HostStages.after0_v8 m c b n)

/-! ## The result -/

/-- THE KERNEL PROGRAM'S RESULT is the loss of the argument arrays. -/
theorem kernel_loss :
    W5 m c (Proc.devRef .tc main_v40)
      = Cert.Spec.loss (m ((c : Thread nD τ).loc main_arg0)) (m ((c : Thread nD τ).loc main_arg1))
          (m ((c : Thread nD τ).loc main_arg2)) (m ((c : Thread nD τ).loc main_arg3)) := by
  refine Cert.HostStages.loss_of_leaves (W4 m c) _ _ _ _ (Cert.HostStages.colsum (W2 m c (Proc.devRef .tc main_v9))) ?h13 ?hc ?h0 ?h1 ?h2 ?h3
  case h13 => exact (W4_of_ne m c main_v13 (by decide)).trans (Cert.HostStages.after1_v13 (W2 m c))
  case hc =>
    exact Cert.KernelMath.col0_sum _ (fun b => Cert.Spec.chamRow (Cert.Spec.centre (m ((c : Thread nD τ).loc main_arg2))) (Cert.Spec.img (m ((c : Thread nD τ).loc main_arg1))) b)
      (fun b => (congrFun (W2_arr m c 2) _).trans ((congrFun (arr0_2 (Hand.V1 m) c) _).trans
        (Cert.KernelRead.cham_read (Hand.V1 m) c _ _ (v1_v4 m c) (v1_v5 m c) b 0)))
  case h0 =>
    intro b
    exact (congrFun (W4_arr m c 3) _).trans ((congrFun (arr1_3 (Hand.V3 m) c) _).trans
      (Cert.KernelRead.masked_read0 (Hand.V3 m) c _ _ _ (v3_v5 m c) (v3_v6 m c) (v3_v8 m c) b 0))
  case h1 =>
    intro b
    exact (congrFun (W4_arr m c 4) _).trans ((congrFun (arr1_4 (Hand.V3 m) c) _).trans
      (Cert.KernelRead.masked_read1 (Hand.V3 m) c _ (v3_v8 m c) b 0))
  case h2 =>
    intro b
    exact (congrFun (W4_arr m c 5) _).trans ((congrFun (arr1_5 (Hand.V3 m) c) _).trans
      (Cert.KernelRead.masked_read2 (Hand.V3 m) c _ _ _ (v3_v5 m c) (v3_v6 m c) (v3_v8 m c) b 0))
  case h3 =>
    intro b
    exact (congrFun (W4_arr m c 6) _).trans ((congrFun (arr1_6 (Hand.V3 m) c) _).trans
      (Cert.KernelRead.masked_read3 (Hand.V3 m) c _ _ _ (v3_v5 m c) (v3_v6 m c) (v3_v8 m c) b 0))

end Cert.KernelLoss

end
-- ==== Proof.RefCham.lean ====
/-
  The reference's chamfer sum is the specification's.

  The reference forms, per image, the 256 × 76800 table of squared differences between bin centres and target
  pixels, takes its minimum along each axis (a fold of `min` from +∞, which is the infimum), sums each of the two
  families of minima from zero, adds the two sums, and sums over the eight images. In the second table the difference
  is taken the other way round; the squared difference does not see the order.
-/
import proofs.«151095_j21028159881359_1_alg».proof.Proof.Gen.ReferenceIdeal.Read
import proofs.«151095_j21028159881359_1_alg».proof.Proof.Spec
import Idealize.ShloMosaic.PureOps.Reduce
import Idealize.ShloMosaic.Lib.ValueIdx

noncomputable section

namespace Cert.RefLoss

open Idealize.ShloMosaic Idealize.ShloMosaic.ValueIdx
open Cert.ReferenceIdeal Cert.ReferenceIdeal.Gen Cert.ReferenceIdeal.Read

/-! ## General facts: a fold of `min` from +∞, a host min-reduce over one axis, sums over a rank-1 index set -/

/-- A fold of `min` from the top element is the infimum. -/
theorem fold_min_top {ι : Type} (s : Finset ι) (f : ι → EReal) : s.fold min ⊤ f = s.inf f := rfl

/-- The word of +∞ is the top element. -/
theorem ofBits_inf : Ideal.ofBits .f32 0x7F800000#32 = (⊤ : EReal) := by simp [Ideal.ofBits, Ideal.ieee]

/-- From +∞ the host's reduce with a minimum body over one axis is, at `j`, the infimum over that axis's coordinates. -/
theorem hostMin_apply {s t : Shape} {a : Fin s.rank} (x : FVec Ideal s .f32) (h' : s.ReducesTo [a] t) (h : s.Reduces [a] t)
    (hu : 0 < S_.numel) (j : t.Idx) :
    Host.reduce FloatOps.minimumf x (constant (F := Ideal) S_ .f32 0x7F800000#32) h' hu j
      = (Finset.univ : Finset (Fin (s.size a))).inf (fun k => x (h.lift j k)) := by
  rw [Host.reduce_eq_fold_single FloatOps.minimumf x _ h' h hu]
  have e : constant (F := Ideal) S_ .f32 0x7F800000#32 (Shape.Idx.first hu) = (⊤ : EReal) := ofBits_inf
  rw [e]
  exact fold_min_top _ _

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) : ∑ i, f i = ∑ a : Fin n, f (ix1 a) := by
  rw [← Equiv.sum_comp (idxEquiv1 (n := n)).symm f]
  rfl

variable (x1 : (⟨S8x1x240x320, .f32⟩ : BufTy).Contents (Elt Ideal)) (x2 : (⟨S8x257, .f32⟩ : BufTy).Contents (Elt Ideal))

/-! ## The centres and the flattened target at an index -/

/-- The reference's centres at `(b, i)`. -/
theorem v4_at (b : Fin 8) (i : Fin 256) : val_main_v4 (F := Ideal) x2 (ix2 b i) = Cert.Spec.centre x2 b i := by
  rw [val_main_v4_apply, val_main_v3_apply, val_main_cst_apply, val_main_v2_apply, val_main_v0_apply, val_main_v1_apply]
  have e0 : idx_main_v0 (ix2 b i) = ix2 b (⟨i.val, by have := i.isLt; omega⟩ : Fin 257) :=
    funext fun a => Fin.ext (by match a with | ⟨0, _⟩ => rfl | ⟨1, _⟩ => rfl)
  have e1 : idx_main_v1 (ix2 b i) = ix2 b (⟨i.val + 1, by have := i.isLt; omega⟩ : Fin 257) :=
    funext fun a => Fin.ext (by match a with | ⟨0, _⟩ => rfl | ⟨1, _⟩ => show 1 + i.val = i.val + 1; omega)
  rw [e0, e1]
  rfl

/-- The reference's flattened target at `(b, n)`. -/
theorem v5_at (b : Fin 8) (n : Fin 76800) : val_main_v5 (F := Ideal) x1 (ix2 b n) = Cert.Spec.img x1 b n := by
  unfold val_main_v5
  exact shapeCast_apply x1 _ (ix2 b n) (Cert.Spec.pix b n) (by
    rw [Shape.rowMajor_val_four, Shape.rowMajor_val_two]
    show ((b.val * 1 + 0) * 240 + n.val / 320) * 320 + n.val % 320 = b.val * 76800 + n.val
    have := n.isLt
    omega)

/-! ## Centres against pixels -/

/-- The first table at `(b, i, j)`: the squared difference of centre `i` and pixel `j`. -/
theorem v11_at (b : Fin 8) (i : Fin 256) (j : Fin 76800) :
    val_main_v11 (F := Ideal) x1 x2 (ix3 b i j) = Cert.Spec.sqd (Cert.Spec.centre x2 b i) (Cert.Spec.img x1 b j) := by
  rw [val_main_v11_apply, val_main_v10_apply, val_main_v8_apply, val_main_v6_apply, val_main_v9_apply, val_main_v7_apply]
  have e1 : idx_main_v6 (idx_main_v8 (ix3 b i j)) = ix2 b i :=
    funext fun a => Fin.ext (by match a with | ⟨0, _⟩ => rfl | ⟨1, _⟩ => rfl)
  have e2 : idx_main_v7 (idx_main_v9 (ix3 b i j)) = ix2 b j :=
    funext fun a => Fin.ext (by match a with | ⟨0, _⟩ => rfl | ⟨1, _⟩ => rfl)
  rw [e1, e2, v4_at, v5_at]
  rfl

/-- The reduced index `(b, i)` with pixel `k` put back on the last axis. -/
theorem lift_rows (h : S8x256x76800.Reduces [2] S8x256) (b : Fin 8) (i : Fin 256) (k : Fin 76800) :
    h.lift (ix2 b i) k = ix3 b i k := by
  funext c; apply Fin.ext
  fin_cases c <;> rfl

/-- The minimum of the first table along the pixels is the least squared distance from a centre to a pixel. -/
theorem v12_at (b : Fin 8) (i : Fin 256) :
    val_main_v12 (F := Ideal) x1 x2 (ix2 b i) = Cert.Spec.rowMin (Cert.Spec.centre x2) (Cert.Spec.img x1) b i := by
  have h : S8x256x76800.Reduces [2] S8x256 := by decide
  unfold val_main_v12 val_main_cst_0
  refine (hostMin_apply _ reducesTo_S8x256x76800_S8x256_d2 h h_S_ (ix2 b i)).trans ?_
  show (Finset.univ : Finset (Fin 76800)).inf (fun k : Fin 76800 => val_main_v11 (F := Ideal) x1 x2 (h.lift (ix2 b i) k))
    = (Finset.univ : Finset (Fin 76800)).inf fun j : Fin 76800 => Cert.Spec.sqd (Cert.Spec.centre x2 b i) (Cert.Spec.img x1 b j)
  refine congrArg (Finset.univ : Finset (Fin 76800)).inf (funext fun k => ?_)
  exact (congrArg (val_main_v11 (F := Ideal) x1 x2) (lift_rows h b i k)).trans (v11_at x1 x2 b i k)

/-- The sum of those minima over the centres of image `b`. -/
theorem v13_at (b : Fin 8) :
    val_main_v13 (F := Ideal) x1 x2 (ix1 b) = ∑ i : Fin 256, Cert.Spec.rowMin (Cert.Spec.centre x2) (Cert.Spec.img x1) b i := by
  rw [val_main_v13_apply, val_main_cst_1_apply]
  have e : ∀ k : Fin 256, idx_main_v13 (ix1 b) k = ix2 b k := fun k =>
    funext fun a => Fin.ext (by match a with | ⟨0, _⟩ => rfl | ⟨1, _⟩ => rfl)
  simp only [e, v12_at]
  rw [Ideal.ofBits_def, Ideal.ofBits_zero_f32, zero_add]

/-! ## Pixels against centres -/

/-- The second table at `(b, j, i)`: the same squared difference, the difference taken the other way round. -/
theorem v19_at (b : Fin 8) (j : Fin 76800) (i : Fin 256) :
    val_main_v19 (F := Ideal) x1 x2 (ix3 b j i) = Cert.Spec.sqd (Cert.Spec.centre x2 b i) (Cert.Spec.img x1 b j) := by
  rw [val_main_v19_apply, val_main_v18_apply, val_main_v16_apply, val_main_v14_apply, val_main_v17_apply, val_main_v15_apply]
  have e1 : idx_main_v14 (idx_main_v16 (ix3 b j i)) = ix2 b j :=
    funext fun a => Fin.ext (by match a with | ⟨0, _⟩ => rfl | ⟨1, _⟩ => rfl)
  have e2 : idx_main_v15 (idx_main_v17 (ix3 b j i)) = ix2 b i :=
    funext fun a => Fin.ext (by match a with | ⟨0, _⟩ => rfl | ⟨1, _⟩ => rfl)
  rw [e1, e2, v4_at, v5_at, Cert.Spec.sqd_comm]
  rfl

/-- The reduced index `(b, j)` with centre `k` put back on the last axis. -/
theorem lift_cols (h : S8x76800x256.Reduces [2] S8x76800) (b : Fin 8) (j : Fin 76800) (k : Fin 256) :
    h.lift (ix2 b j) k = ix3 b j k := by
  funext c; apply Fin.ext
  fin_cases c <;> rfl

/-- The minimum of the second table along the centres is the least squared distance from a pixel to a centre. -/
theorem v20_at (b : Fin 8) (j : Fin 76800) :
    val_main_v20 (F := Ideal) x1 x2 (ix2 b j) = Cert.Spec.colMin (Cert.Spec.centre x2) (Cert.Spec.img x1) b j := by
  have h : S8x76800x256.Reduces [2] S8x76800 := by decide
  unfold val_main_v20 val_main_cst_2
  refine (hostMin_apply _ reducesTo_S8x76800x256_S8x76800_d2 h h_S_ (ix2 b j)).trans ?_
  show (Finset.univ : Finset (Fin 256)).inf (fun k : Fin 256 => val_main_v19 (F := Ideal) x1 x2 (h.lift (ix2 b j) k))
    = (Finset.univ : Finset (Fin 256)).inf fun i : Fin 256 => Cert.Spec.sqd (Cert.Spec.centre x2 b i) (Cert.Spec.img x1 b j)
  refine congrArg (Finset.univ : Finset (Fin 256)).inf (funext fun k => ?_)
  exact (congrArg (val_main_v19 (F := Ideal) x1 x2) (lift_cols h b j k)).trans (v19_at x1 x2 b j k)

/-- The sum of those minima over the pixels of image `b`. -/
theorem v21_at (b : Fin 8) :
    val_main_v21 (F := Ideal) x1 x2 (ix1 b) = ∑ j : Fin 76800, Cert.Spec.colMin (Cert.Spec.centre x2) (Cert.Spec.img x1) b j := by
  rw [val_main_v21_apply, val_main_cst_3_apply]
  have e : ∀ k : Fin 76800, idx_main_v21 (ix1 b) k = ix2 b k := fun k =>
    funext fun a => Fin.ext (by match a with | ⟨0, _⟩ => rfl | ⟨1, _⟩ => rfl)
  simp only [e, v20_at]
  rw [Ideal.ofBits_def, Ideal.ofBits_zero_f32, zero_add]

/-! ## The chamfer sum -/

/-- Image `b`'s chamfer distance. -/
theorem v22_at (b : Fin 8) :
    val_main_v22 (F := Ideal) x1 x2 (ix1 b) = Cert.Spec.chamRow (Cert.Spec.centre x2) (Cert.Spec.img x1) b := by
  rw [val_main_v22_apply, v13_at, v21_at]
  rfl

/-- The reference's chamfer sum, before the division by the number of images. -/
theorem v23_eq :
    val_main_v23 (F := Ideal) x1 x2 = fun _ => Cert.Spec.chamSum (Cert.Spec.centre x2) (Cert.Spec.img x1) := by
  funext i
  rw [val_main_v23_apply, val_main_cst_4_apply, sum_idx1]
  simp only [v22_at]
  rw [Ideal.ofBits_def, Ideal.ofBits_zero_f32, zero_add]
  rfl

end Cert.RefLoss

end
-- ==== Proof.RefMasked.lean ====
/-
  The reference's four masked sums are the specification's.

  The reference flattens the prediction, the target and the mask to 614400 entries and sums, from zero, over all of
  them. Position `b · 76800 + n` of a flattened array is pixel `n` of image `b`, and the positions are exactly the
  pairs `(b, n)`, so each sum over the flat index set is the double sum over images and pixels.
-/
import proofs.«151095_j21028159881359_1_alg».proof.Proof.Gen.ReferenceIdeal.Read
import proofs.«151095_j21028159881359_1_alg».proof.Proof.Spec
import Idealize.ShloMosaic.Lib.ValueIdx

noncomputable section

namespace Cert.RefLoss

open Idealize.ShloMosaic Idealize.ShloMosaic.ValueIdx
open Cert.ReferenceIdeal Cert.ReferenceIdeal.Gen Cert.ReferenceIdeal.Read

/-! ## The flat index set is images × pixels -/

/-- The flat position of pixel `n` of image `b`. -/
def flat (b : Fin 8) (n : Fin 76800) : S614400.Idx :=
  ix1 (⟨b.val * 76800 + n.val, by have := b.isLt; have := n.isLt; omega⟩ : Fin 614400)

/-- Every flat position is that of one pixel of one image. -/
def flatEquiv : Fin 8 × Fin 76800 ≃ S614400.Idx where
  toFun p := flat p.1 p.2
  invFun j := (⟨(j 0).val / 76800, by have h : (j 0).val < 614400 := (j 0).isLt; omega⟩,
    ⟨(j 0).val % 76800, Nat.mod_lt _ (by decide)⟩)
  left_inv p := by
    obtain ⟨b, n⟩ := p
    have := n.isLt
    refine Prod.ext (Fin.ext ?_) (Fin.ext ?_)
    · show (b.val * 76800 + n.val) / 76800 = b.val
      omega
    · show (b.val * 76800 + n.val) % 76800 = n.val
      omega
  right_inv j := by
    funext a; apply Fin.ext
    match a with
    | ⟨0, _⟩ =>
      show (j 0).val / 76800 * 76800 + (j 0).val % 76800 = (j 0).val
      omega

/-- A sum over the flat index set is the double sum over images and pixels. -/
theorem sum_flat {M : Type} [AddCommMonoid M] (f : S614400.Idx → M) :
    ∑ j, f j = ∑ b : Fin 8, ∑ n : Fin 76800, f (flat b n) := by
  rw [← Equiv.sum_comp flatEquiv f, Fintype.sum_prod_type]
  rfl

/-- A batch flattened to 614400 entries, at the flat position of `(b, n)`, is the batch at pixel `n` of image `b`. -/
theorem flat_read {α : Type} (x : S8x1x240x320.Idx → α) (h : S8x1x240x320.ShapeCasts S614400) (b : Fin 8) (n : Fin 76800) :
    shapeCast S614400 x h (flat b n) = x (Cert.Spec.pix b n) :=
  shapeCast_apply x h (flat b n) (Cert.Spec.pix b n) (by
    rw [Shape.rowMajor_val_four, Shape.rowMajor_val_one]
    show ((b.val * 1 + 0) * 240 + n.val / 320) * 320 + n.val % 320 = b.val * 76800 + n.val
    have := n.isLt
    omega)

variable (x0 x1 : (⟨S8x1x240x320, .f32⟩ : BufTy).Contents (Elt Ideal)) (x3 : (⟨S8x1x240x320, .i1⟩ : BufTy).Contents (Elt Ideal))

/-! ## The flattened arguments at a position -/

theorem v25_at (b : Fin 8) (n : Fin 76800) : val_main_v25 (F := Ideal) x0 (flat b n) = Cert.Spec.img x0 b n := by
  unfold val_main_v25
  exact flat_read x0 _ b n

theorem v26_at (b : Fin 8) (n : Fin 76800) : val_main_v26 (F := Ideal) x1 (flat b n) = Cert.Spec.img x1 b n := by
  unfold val_main_v26
  exact flat_read x1 _ b n

theorem v28_at (b : Fin 8) (n : Fin 76800) : val_main_v28 (F := Ideal) x3 (flat b n) = Cert.Spec.maskf x3 b n := by
  rw [val_main_v28_apply]
  unfold val_main_v27
  rw [flat_read x3 _ b n]
  rfl

/-- The masked squared difference at a position. -/
theorem v32_at (b : Fin 8) (n : Fin 76800) :
    val_main_v32 (F := Ideal) x0 x1 x3 (flat b n)
      = (Cert.Spec.img x0 b n - Cert.Spec.img x1 b n) * (Cert.Spec.img x0 b n - Cert.Spec.img x1 b n) * Cert.Spec.maskf x3 b n := by
  rw [val_main_v32_apply, val_main_v31_apply, val_main_v30_apply, v25_at, v26_at, v28_at]
  rfl

/-- The difference of the logs at a position. -/
theorem v42_at (b : Fin 8) (n : Fin 76800) :
    val_main_v42 (F := Ideal) x0 x1 (flat b n) = Cert.Spec.dlog (Cert.Spec.img x0) (Cert.Spec.img x1) b n := by
  rw [val_main_v42_apply, val_main_v38_apply, val_main_v37_apply, val_main_v36_apply, val_main_cst_8_apply,
    val_main_v41_apply, val_main_v40_apply, val_main_v39_apply, val_main_cst_9_apply, v25_at, v26_at]
  rfl

/-! ## The four sums -/

/-- The masked sum of squared differences. -/
theorem v33_eq :
    val_main_v33 (F := Ideal) x0 x1 x3 = fun _ => Cert.Spec.sumSq (Cert.Spec.img x0) (Cert.Spec.img x1) (Cert.Spec.maskf x3) := by
  funext i
  rw [val_main_v33_apply, val_main_cst_7_apply, sum_flat]
  simp only [v32_at]
  rw [Ideal.ofBits_def, Ideal.ofBits_zero_f32, zero_add]
  rfl

/-- The number of masked pixels. -/
theorem v29_eq : val_main_v29 (F := Ideal) x3 = fun _ => Cert.Spec.sumCnt (Cert.Spec.maskf x3) := by
  funext i
  rw [val_main_v29_apply, val_main_cst_6_apply, sum_flat]
  simp only [v28_at]
  rw [Ideal.ofBits_def, Ideal.ofBits_zero_f32, zero_add]
  rfl

/-- The masked sum of the log differences. -/
theorem v44_eq :
    val_main_v44 (F := Ideal) x0 x1 x3 = fun _ => Cert.Spec.sumD (Cert.Spec.img x0) (Cert.Spec.img x1) (Cert.Spec.maskf x3) := by
  funext i
  rw [val_main_v44_apply, val_main_cst_10_apply, sum_flat]
  simp only [val_main_v43_apply, v42_at, v28_at]
  rw [Ideal.ofBits_def, Ideal.ofBits_zero_f32, zero_add]
  rfl

/-- The masked sum of the squared log differences. -/
theorem v48_eq :
    val_main_v48 (F := Ideal) x0 x1 x3 = fun _ => Cert.Spec.sumD2 (Cert.Spec.img x0) (Cert.Spec.img x1) (Cert.Spec.maskf x3) := by
  funext i
  rw [val_main_v48_apply, val_main_cst_11_apply, sum_flat]
  simp only [val_main_v47_apply, val_main_v46_apply, v42_at, v28_at]
  rw [Ideal.ofBits_def, Ideal.ofBits_zero_f32, zero_add]
  rfl

end Cert.RefLoss

end
-- ==== Proof.RefLoss.lean ====
/-
  The reference computes the specification's loss.

  Its last lines apply the scalar tail — two roots, the quotients by the mask count, the weights — to five sums:
  the masked sum of squared differences, the mask count, the two masked log sums, and the chamfer sum. Each of the
  five is the specification's sum, so the result is the specification's loss.
-/
import proofs.«151095_j21028159881359_1_alg».proof.Proof.RefCham
import proofs.«151095_j21028159881359_1_alg».proof.Proof.RefMasked

noncomputable section

namespace Cert.RefLoss

open Idealize.ShloMosaic Idealize.ShloMosaic.ValueIdx
open Cert.ReferenceIdeal Cert.ReferenceIdeal.Gen Cert.ReferenceIdeal.Read

variable (x0 x1 : (⟨S8x1x240x320, .f32⟩ : BufTy).Contents (Elt Ideal)) (x2 : (⟨S8x257, .f32⟩ : BufTy).Contents (Elt Ideal))
  (x3 : (⟨S8x1x240x320, .i1⟩ : BufTy).Contents (Elt Ideal))

/-- The reference's result is the scalar tail of its five sums. -/
theorem v59_tail :
    val_main_v59 (F := Ideal) x0 x1 x2 x3
      = Cert.Spec.tail (val_main_v33 (F := Ideal) x0 x1 x3) (val_main_v29 (F := Ideal) x3) (val_main_v44 (F := Ideal) x0 x1 x3)
          (val_main_v48 (F := Ideal) x0 x1 x3) (val_main_v23 (F := Ideal) x1 x2) := by
  unfold val_main_v59 val_main_v58 val_main_v57 val_main_v56 val_main_v55 val_main_v54 val_main_v53 val_main_v52 val_main_v51
    val_main_v50 val_main_v49 val_main_v45 val_main_v35 val_main_v34 val_main_v24
    val_main_cst_5 val_main_cst_12 val_main_cst_13 val_main_cst_14 val_main_cst_15 val_main_cst_16 Cert.Spec.tail
  rfl

/-- The reference's result is the specification's loss. -/
theorem ref_loss (x0 x1 : (⟨Cert.ReferenceIdeal.S8x1x240x320, .f32⟩ : BufTy).Contents (Elt Ideal))
    (x2 : (⟨Cert.ReferenceIdeal.S8x257, .f32⟩ : BufTy).Contents (Elt Ideal))
    (x3 : (⟨Cert.ReferenceIdeal.S8x1x240x320, .i1⟩ : BufTy).Contents (Elt Ideal)) :
    Cert.ReferenceIdeal.Read.val_main_v59 (F := Ideal) x0 x1 x2 x3 = Cert.Spec.loss x0 x1 x2 x3 := by
  rw [v59_tail, v33_eq, v29_eq, v44_eq, v48_eq, v23_eq]
  rfl

end Cert.RefLoss

end
-- ==== Proof.lean ====
/-
  The certificate's five claims.

  The kernel program computes a depth loss with two pallas_calls: a chamfer kernel over 75 chunks of target pixels
  that keeps a running minimum and a running sum in scratch, and a one-point kernel of four masked sums; host lines
  before, between and after them form the bin centres, flatten the images, and combine the five sums into the loss.
  The reference computes the same loss with whole-array host operations.

  * The three frames: both kernel programs run through the segments of @main (host stretches and the two kernel
    regions, each region's body run once per control case, the chamfer kernel's scratch contents carried in the
    region invariant); the reference is a straight line of host operations.
  * Nothing was rewritten on the way from the word-level program to the idealized one.
  * At the extended reals both results are one function of the four argument arrays (`Cert.Spec.loss`): sums over
    a chunked or flattened axis are re-indexed sums, running minima from +∞ are infima, the squared distance does not
    depend on the order of its arguments (which the reference swaps in its second term), and the scalar tail is the
    same chain of operations on both sides. No step needs the inputs finite.
-/
import proofs.«151095_j21028159881359_1_alg».proof.Defs
import proofs.«151095_j21028159881359_1_alg».proof.Proof.Gen.Kernel
import proofs.«151095_j21028159881359_1_alg».proof.Proof.Gen.KernelIdeal
import proofs.«151095_j21028159881359_1_alg».proof.Proof.Gen.ReferenceIdeal
import proofs.«151095_j21028159881359_1_alg».proof.Proof.Gen.ReferenceIdeal.Run
import proofs.«151095_j21028159881359_1_alg».proof.Proof.Gen.ReferenceIdeal.Read
import proofs.«151095_j21028159881359_1_alg».proof.Proof.Gen.Pre_finite_inputs
import proofs.«151095_j21028159881359_1_alg».proof.Proof.KRun
import proofs.«151095_j21028159881359_1_alg».proof.Proof.Run
import proofs.«151095_j21028159881359_1_alg».proof.Proof.KernelValue
import proofs.«151095_j21028159881359_1_alg».proof.Proof.RefLoss

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the loss of the argument arrays. -/
theorem algebraic : Cert.algebraic_KernelIdeal_ReferenceIdeal := by
  intro m ρ m' ρ' _ hagree
  refine ⟨fun c => Cert.Spec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_all (F := Ideal) m ρ)
    refine ⟨(h c _ (Cert.KernelIdeal.Hand.mem_uc Cert.KernelIdeal.main_v40 (by decide))).trans (Cert.KernelLoss.kernel_loss m c), ?_, ?_, ?_, ?_⟩
    · exact (h c _ (Cert.KernelIdeal.Hand.mem_uc Cert.KernelIdeal.main_arg0 (by decide))).trans (Cert.KernelIdeal.Hand.W5_kept m c Cert.KernelIdeal.main_arg0 (by decide) (by decide) (by decide) (by decide) (by decide))
    · exact (h c _ (Cert.KernelIdeal.Hand.mem_uc Cert.KernelIdeal.main_arg1 (by decide))).trans (Cert.KernelIdeal.Hand.W5_kept m c Cert.KernelIdeal.main_arg1 (by decide) (by decide) (by decide) (by decide) (by decide))
    · exact (h c _ (Cert.KernelIdeal.Hand.mem_uc Cert.KernelIdeal.main_arg2 (by decide))).trans (Cert.KernelIdeal.Hand.W5_kept m c Cert.KernelIdeal.main_arg2 (by decide) (by decide) (by decide) (by decide) (by decide))
    · exact (h c _ (Cert.KernelIdeal.Hand.mem_uc Cert.KernelIdeal.main_arg3 (by decide))).trans (Cert.KernelIdeal.Hand.W5_kept m c Cert.KernelIdeal.main_arg3 (by decide) (by decide) (by decide) (by decide) (by decide))
  · refine (θ_run Cert.ReferenceIdeal.defs _ _).mono (fun _ h c => ⟨?_, (h c).2⟩) (Cert.ReferenceIdeal.Value.run (F := Ideal) m' ρ')
    rw [(h c).1, Cert.ReferenceIdeal.Read.val_main_v59_eq, Cert.RefLoss.ref_loss, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
